-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2 : Shape := ⟨2, ![131072, 2]⟩
abbrev S6x131072x2 : Shape := ⟨3, ![6, 131072, 2]⟩
abbrev S6x131072x64 : Shape := ⟨3, ![6, 131072, 64]⟩
abbrev S131072x64 : Shape := ⟨2, ![131072, 64]⟩
abbrev S6x2x64 : Shape := ⟨3, ![6, 2, 64]⟩
abbrev S6x64 : Shape := ⟨2, ![6, 64]⟩
abbrev S6x256x64 : Shape := ⟨3, ![6, 256, 64]⟩
abbrev S6x256 : Shape := ⟨2, ![6, 256]⟩
abbrev S2x64 : Shape := ⟨2, ![2, 64]⟩
abbrev S64 : Shape := ⟨1, ![64]⟩
abbrev S256x448 : Shape := ⟨2, ![256, 448]⟩
abbrev S256x64 : Shape := ⟨2, ![256, 64]⟩
abbrev S256 : Shape := ⟨1, ![256]⟩
abbrev S64x2 : Shape := ⟨2, ![64, 2]⟩
abbrev S2 : Shape := ⟨1, ![2]⟩
abbrev S_ : Shape := ⟨0, ![]⟩

class Facts : Prop where
  bcast_S_S131072x2 : S_.BroadcastsInDim S131072x2 (![] : Fin 0 → Fin S131072x2.rank)
  reducesTo_S131072x2_S_d0_1 : S131072x2.ReducesTo [0, 1] S_
  h_S_ : 0 < S_.numel
  bcast_S_S6x131072x2 : S_.BroadcastsInDim S6x131072x2 (![] : Fin 0 → Fin S6x131072x2.rank)
  reducesTo_S6x131072x2_S_d0_1_2 : S6x131072x2.ReducesTo [0, 1, 2] S_
  bcast_S_S6x131072x64 : S_.BroadcastsInDim S6x131072x64 (![] : Fin 0 → Fin S6x131072x64.rank)
  reducesTo_S6x131072x64_S_d0_1_2 : S6x131072x64.ReducesTo [0, 1, 2] S_
  bcast_S_S131072x64 : S_.BroadcastsInDim S131072x64 (![] : Fin 0 → Fin S131072x64.rank)
  reducesTo_S131072x64_S_d0_1 : S131072x64.ReducesTo [0, 1] S_
  bcast_S_S6x2x64 : S_.BroadcastsInDim S6x2x64 (![] : Fin 0 → Fin S6x2x64.rank)
  reducesTo_S6x2x64_S_d0_1_2 : S6x2x64.ReducesTo [0, 1, 2] S_
  bcast_S_S6x64 : S_.BroadcastsInDim S6x64 (![] : Fin 0 → Fin S6x64.rank)
  reducesTo_S6x64_S_d0_1 : S6x64.ReducesTo [0, 1] S_
  bcast_S_S6x256x64 : S_.BroadcastsInDim S6x256x64 (![] : Fin 0 → Fin S6x256x64.rank)
  reducesTo_S6x256x64_S_d0_1_2 : S6x256x64.ReducesTo [0, 1, 2] S_
  bcast_S_S6x256 : S_.BroadcastsInDim S6x256 (![] : Fin 0 → Fin S6x256.rank)
  reducesTo_S6x256_S_d0_1 : S6x256.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S256x448 : S_.BroadcastsInDim S256x448 (![] : Fin 0 → Fin S256x448.rank)
  reducesTo_S256x448_S_d0_1 : S256x448.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg18 : FVec F S64x2 .f32) (main_arg19 : FVec F S2 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S64x2 .f32 := Host.absf main_arg18
  let main_cst_34 : FVec F S_ .f32 := constant S_ .f32 0x7F800000#32
  let main_v90 : FVec F S64x2 .f32 := broadcastInDim S64x2 ![] bcast_S_S64x2 main_cst_34
  let main_v91 : IVec S64x2 1 := cmpf .olt main_v89 main_v90
  let main_c_35 : IVec S_ 1 := constantI S_ 1 1#1
  let main_v92 : IVec S_ 1 := (fun x v => Host.reduce IntOp.andi x v reducesTo_S64x2_S_d0_1 h_S_) main_v91 main_c_35
  let main_v93 : IVec S_ 1 := andi main_v88 main_v92
  let main_v94 : FVec F S2 .f32 := Host.absf main_arg19
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  main_v98

def fn_part4 {F : FTy → Type} [FloatOps F] (main_arg14 : FVec F S256x448 .f32) (main_arg15 : FVec F S256x64 .f32) (main_arg16 : FVec F S256 .f32) (main_arg17 : FVec F S256 .f32) (main_arg18 : FVec F S64x2 .f32) (main_arg19 : FVec F S2 .f32) (main_v63 : IVec S_ 1) (main_v67 : IVec S_ 1) : IVec S_ 1 :=
  let main_v68 : IVec S_ 1 := andi main_v63 main_v67
  let main_v69 : FVec F S256x448 .f32 := Host.absf main_arg14
  let main_cst_26 : FVec F S_ .f32 := constant S_ .f32 0x7F800000#32
  let main_v70 : FVec F S256x448 .f32 := broadcastInDim S256x448 ![] bcast_S_S256x448 main_cst_26
  let main_v71 : IVec S256x448 1 := cmpf .olt main_v69 main_v70
  let main_c_27 : IVec S_ 1 := constantI S_ 1 1#1
  let main_v72 : IVec S_ 1 := (fun x v => Host.reduce IntOp.andi x v reducesTo_S256x448_S_d0_1 h_S_) main_v71 main_c_27
  let main_v73 : IVec S_ 1 := andi main_v68 main_v72
  let main_v74 : FVec F S256x64 .f32 := Host.absf main_arg15
  let main_cst_28 : FVec F S_ .f32 := constant S_ .f32 0x7F800000#32
  let main_v75 : FVec F S256x64 .f32 := broadcastInDim S256x64 ![] bcast_S_S256x64 main_cst_28
  let main_v76 : IVec S256x64 1 := cmpf .olt main_v74 main_v75
  let main_c_29 : IVec S_ 1 := constantI S_ 1 1#1
  let main_v77 : IVec S_ 1 := (fun x v => Host.reduce IntOp.andi x v reducesTo_S256x64_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S6x256 .f32) (main_arg12 : FVec F S2x64 .f32) (main_arg13 : FVec F S64 .f32) (main_arg14 : FVec F S256x448 .f32) (main_arg15 : FVec F S256x64 .f32) (main_arg16 : FVec F S256 .f32) (main_arg17 : FVec F S256 .f32) (main_arg18 : FVec F S64x2 .f32) (main_arg19 : FVec F S2 .f32) (main_v48 : IVec S_ 1) (main_v49 : FVec F S6x256 .f32) (main_v50 : FVec F S6x256 .f32) : IVec S_ 1 :=
  let main_v51 : IVec S6x256 1 := cmpf .olt main_v49 main_v50
  let main_c_19 : IVec S_ 1 := constantI S_ 1 1#1
  let main_v52 : IVec S_ 1 := (fun x v => Host.reduce IntOp.andi x v reducesTo_S6x256_S_d0_1 h_S_) main_v51 main_c_19
  let main_v53 : IVec S_ 1 := andi main_v48 main_v52
  let main_v54 : FVec F S6x256 .f32 := Host.absf main_arg11
  let main_cst_20 : FVec F S_ .f32 := constant S_ .f32 0x7F800000#32
  let main_v55 : FVec F S6x256 .f32 := broadcastInDim S6x256 ![] bcast_S_S6x256 main_cst_20
  let main_v56 : IVec S6x256 1 := cmpf .olt main_v54 main_v55
  let main_c_21 : IVec S_ 1 := constantI S_ 1 1#1
  let main_v57 : IVec S_ 1 := (fun x v => Host.reduce IntOp.andi x v reducesTo_S6x256_S_d0_1 h_S_) main_v56 main_c_21
  let main_v58 : IVec S_ 1 := andi main_v53 main_v57
  let main_v59 : FVec F S2x64 .f32 := Host.absf main_arg12
  let main_cst_22 : FVec F S_ .f32 := constant S_ .f32 0x7F800000#32
  let main_v60 : FVec F S2x64 .f32 := broadcastInDim S2x64 ![] bcast_S_S2x64 main_cst_22
  let main_v61 : IVec S2x64 1 := cmpf .olt main_v59 main_v60
  let main_c_23 : IVec S_ 1 := constantI S_ 1 1#1
  let main_v62 : IVec S_ 1 := (fun x v => Host.reduce IntOp.andi x v reducesTo_S2x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_v63 main_v67

def fn_part2 {F : FTy → Type} [FloatOps F] (main_arg7 : FVec F S6x64 .f32) (main_arg8 : FVec F S6x256x64 .f32) (main_arg9 : FVec F S6x256x64 .f32) (main_arg10 : FVec F S6x256 .f32) (main_arg11 : FVec F S6x256 .f32) (main_arg12 : FVec F S2x64 .f32) (main_arg13 : FVec F S64 .f32) (main_arg14 : FVec F S256x448 .f32) (main_arg15 : FVec F S256x64 .f32) (main_arg16 : FVec F S256 .f32) (main_arg17 : FVec F S256 .f32) (main_arg18 : FVec F S64x2 .f32) (main_arg19 : FVec F S2 .f32) (main_v33 : IVec S_ 1) : IVec S_ 1 :=
  let main_v34 : FVec F S6x64 .f32 := Host.absf main_arg7
  let main_cst_12 : FVec F S_ .f32 := constant S_ .f32 0x7F800000#32
  let main_v35 : FVec F S6x64 .f32 := broadcastInDim S6x64 ![] bcast_S_S6x64 main_cst_12
  let main_v36 : IVec S6x64 1 := cmpf .olt main_v34 main_v35
  let main_c_13 : IVec S_ 1 := constantI S_ 1 1#1
  let main_v37 : IVec S_ 1 := (fun x v => Host.reduce IntOp.andi x v reducesTo_S6x64_S_d0_1 h_S_) main_v36 main_c_13
  let main_v38 : IVec S_ 1 := andi main_v33 main_v37
  let main_v39 : FVec F S6x256x64 .f32 := Host.absf main_arg8
  let main_cst_14 : FVec F S_ .f32 := constant S_ .f32 0x7F800000#32
  let main_v40 : FVec F S6x256x64 .f32 := broadcastInDim S6x256x64 ![] bcast_S_S6x256x64 main_cst_14
  let main_v41 : IVec S6x256x64 1 := cmpf .olt main_v39 main_v40
  let main_c_15 : IVec S_ 1 := constantI S_ 1 1#1
  let main_v42 : IVec S_ 1 := (fun x v => Host.reduce IntOp.andi x v reducesTo_S6x256x64_S_d0_1_2 h_S_) main_v41 main_c_15
  let main_v43 : IVec S_ 1 := andi main_v38 main_v42
  let main_v44 : FVec F S6x256x64 .f32 := Host.absf main_arg9
  let main_cst_16 : FVec F S_ .f32 := constant S_ .f32 0x7F800000#32
  let main_v45 : FVec F S6x256x64 .f32 := broadcastInDim S6x256x64 ![] bcast_S_S6x256x64 main_cst_16
  let main_v46 : IVec S6x256x64 1 := cmpf .olt main_v44 main_v45
  let main_c_17 : IVec S_ 1 := constantI S_ 1 1#1
  let main_v47 : IVec S_ 1 := (fun x v => Host.reduce IntOp.andi x v reducesTo_S6x256x64_S_d0_1_2 h_S_) main_v46 main_c_17
  let main_v48 : IVec S_ 1 := andi main_v43 main_v47
  let main_v49 : FVec F S6x256 .f32 := Host.absf main_arg10
  let main_cst_18 : FVec F S_ .f32 := constant S_ .f32 0x7F800000#32
  let main_v50 : FVec F S6x256 .f32 := broadcastInDim S6x256 ![] bcast_S_S6x256 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S131072x64 .f32) (main_arg5 : FVec F S131072x64 .f32) (main_arg6 : FVec F S6x2x64 .f32) (main_arg7 : FVec F S6x64 .f32) (main_arg8 : FVec F S6x256x64 .f32) (main_arg9 : FVec F S6x256x64 .f32) (main_arg10 : FVec F S6x256 .f32) (main_arg11 : FVec F S6x256 .f32) (main_arg12 : FVec F S2x64 .f32) (main_arg13 : FVec F S64 .f32) (main_arg14 : FVec F S256x448 .f32) (main_arg15 : FVec F S256x64 .f32) (main_arg16 : FVec F S256 .f32) (main_arg17 : FVec F S256 .f32) (main_arg18 : FVec F S64x2 .f32) (main_arg19 : FVec F S2 .f32) (main_v13 : IVec S_ 1) (main_v16 : IVec S6x131072x64 1) : IVec S_ 1 :=
  let main_c_5 : IVec S_ 1 := constantI S_ 1 1#1
  let main_v17 : IVec S_ 1 := (fun x v => Host.reduce IntOp.andi x v reducesTo_S6x131072x64_S_d0_1_2 h_S_) main_v16 main_c_5
  let main_v18 : IVec S_ 1 := andi main_v13 main_v17
  let main_v19 : FVec F S131072x64 .f32 := Host.absf main_arg4
  let main_cst_6 : FVec F S_ .f32 := constant S_ .f32 0x7F800000#32
  let main_v20 : FVec F S131072x64 .f32 := broadcastInDim S131072x64 ![] bcast_S_S131072x64 main_cst_6
  let main_v21 : IVec S131072x64 1 := cmpf .olt main_v19 main_v20
  let main_c_7 : IVec S_ 1 := constantI S_ 1 1#1
  let main_v22 : IVec S_ 1 := (fun x v => Host.reduce IntOp.andi x v reducesTo_S131072x64_S_d0_1 h_S_) main_v21 main_c_7
  let main_v23 : IVec S_ 1 := andi main_v18 main_v22
  let main_v24 : FVec F S131072x64 .f32 := Host.absf main_arg5
  let main_cst_8 : FVec F S_ .f32 := constant S_ .f32 0x7F800000#32
  let main_v25 : FVec F S131072x64 .f32 := broadcastInDim S131072x64 ![] bcast_S_S131072x64 main_cst_8
  let main_v26 : IVec S131072x64 1 := cmpf .olt main_v24 main_v25
  let main_c_9 : IVec S_ 1 := constantI S_ 1 1#1
  let main_v27 : IVec S_ 1 := (fun x v => Host.reduce IntOp.andi x v reducesTo_S131072x64_S_d0_1 h_S_) main_v26 main_c_9
  let main_v28 : IVec S_ 1 := andi main_v23 main_v27
  let main_v29 : FVec F S6x2x64 .f32 := Host.absf main_arg6
  let main_cst_10 : FVec F S_ .f32 := constant S_ .f32 0x7F800000#32
  let main_v30 : FVec F S6x2x64 .f32 := broadcastInDim S6x2x64 ![] bcast_S_S6x2x64 main_cst_10
  let main_v31 : IVec S6x2x64 1 := cmpf .olt main_v29 main_v30
  let main_c_11 : IVec S_ 1 := constantI S_ 1 1#1
  let main_v32 : IVec S_ 1 := (fun x v => Host.reduce IntOp.andi x v reducesTo_S6x2x64_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S131072x2 .f32) (main_arg1 : FVec F S6x131072x2 .f32) (main_arg2 : FVec F S6x131072x64 .f32) (main_arg3 : FVec F S6x131072x64 .f32) (main_arg4 : FVec F S131072x64 .f32) (main_arg5 : FVec F S131072x64 .f32) (main_arg6 : FVec F S6x2x64 .f32) (main_arg7 : FVec F S6x64 .f32) (main_arg8 : FVec F S6x256x64 .f32) (main_arg9 : FVec F S6x256x64 .f32) (main_arg10 : FVec F S6x256 .f32) (main_arg11 : FVec F S6x256 .f32) (main_arg12 : FVec F S2x64 .f32) (main_arg13 : FVec F S64 .f32) (main_arg14 : FVec F S256x448 .f32) (main_arg15 : FVec F S256x64 .f32) (main_arg16 : FVec F S256 .f32) (main_arg17 : FVec F S256 .f32) (main_arg18 : FVec F S64x2 .f32) (main_arg19 : FVec F S2 .f32) : IVec S_ 1 :=
  let main_v0 : FVec F S131072x2 .f32 := Host.absf main_arg0
  let main_cst : FVec F S_ .f32 := constant S_ .f32 0x7F800000#32
  let main_v1 : FVec F S131072x2 .f32 := broadcastInDim S131072x2 ![] bcast_S_S131072x2 main_cst
  let main_v2 : IVec S131072x2 1 := cmpf .olt main_v0 main_v1
  let main_c : IVec S_ 1 := constantI S_ 1 1#1
  let main_v3 : IVec S_ 1 := (fun x v => Host.reduce IntOp.andi x v reducesTo_S131072x2_S_d0_1 h_S_) main_v2 main_c
  let main_v4 : FVec F S6x131072x2 .f32 := Host.absf main_arg1
  let main_cst_0 : FVec F S_ .f32 := constant S_ .f32 0x7F800000#32
  let main_v5 : FVec F S6x131072x2 .f32 := broadcastInDim S6x131072x2 ![] bcast_S_S6x131072x2 main_cst_0
  let main_v6 : IVec S6x131072x2 1 := cmpf .olt main_v4 main_v5
  let main_c_1 : IVec S_ 1 := constantI S_ 1 1#1
  let main_v7 : IVec S_ 1 := (fun x v => Host.reduce IntOp.andi x v reducesTo_S6x131072x2_S_d0_1_2 h_S_) main_v6 main_c_1
  let main_v8 : IVec S_ 1 := andi main_v3 main_v7
  let main_v9 : FVec F S6x131072x64 .f32 := Host.absf main_arg2
  let main_cst_2 : FVec F S_ .f32 := constant S_ .f32 0x7F800000#32
  let main_v10 : FVec F S6x131072x64 .f32 := broadcastInDim S6x131072x64 ![] bcast_S_S6x131072x64 main_cst_2
  let main_v11 : IVec S6x131072x64 1 := cmpf .olt main_v9 main_v10
  let main_c_3 : IVec S_ 1 := constantI S_ 1 1#1
  let main_v12 : IVec S_ 1 := (fun x v => Host.reduce IntOp.andi x v reducesTo_S6x131072x64_S_d0_1_2 h_S_) main_v11 main_c_3
  let main_v13 : IVec S_ 1 := andi main_v8 main_v12
  let main_v14 : FVec F S6x131072x64 .f32 := Host.absf main_arg3
  let main_cst_4 : FVec F S_ .f32 := constant S_ .f32 0x7F800000#32
  let main_v15 : FVec F S6x131072x64 .f32 := broadcastInDim S6x131072x64 ![] bcast_S_S6x131072x64 main_cst_4
  let main_v16 : IVec S6x131072x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S131072x2 : Shape := ⟨2, ![131072, 2]⟩
abbrev S6x131072x2 : Shape := ⟨3, ![6, 131072, 2]⟩
abbrev S6x131072x64 : Shape := ⟨3, ![6, 131072, 64]⟩
abbrev S131072x64 : Shape := ⟨2, ![131072, 64]⟩
abbrev S6x2x64 : Shape := ⟨3, ![6, 2, 64]⟩
abbrev S6x64 : Shape := ⟨2, ![6, 64]⟩
abbrev S6x256x64 : Shape := ⟨3, ![6, 256, 64]⟩
abbrev S6x256 : Shape := ⟨2, ![6, 256]⟩
abbrev S2x64 : Shape := ⟨2, ![2, 64]⟩
abbrev S64 : Shape := ⟨1, ![64]⟩
abbrev S256x448 : Shape := ⟨2, ![256, 448]⟩
abbrev S256x64 : Shape := ⟨2, ![256, 64]⟩
abbrev S256 : Shape := ⟨1, ![256]⟩
abbrev S64x2 : Shape := ⟨2, ![64, 2]⟩
abbrev S2 : Shape := ⟨1, ![2]⟩
abbrev S512x2 : Shape := ⟨2, ![512, 2]⟩
abbrev S6x512x2 : Shape := ⟨3, ![6, 512, 2]⟩
abbrev S6x512x64 : Shape := ⟨3, ![6, 512, 64]⟩
abbrev S512x64 : Shape := ⟨2, ![512, 64]⟩
abbrev S1x512x2 : Shape := ⟨3, ![1, 512, 2]⟩
abbrev S1x2x64 : Shape := ⟨3, ![1, 2, 64]⟩
abbrev S1x64 : Shape := ⟨2, ![1, 64]⟩
abbrev S1x512x64 : Shape := ⟨3, ![1, 512, 64]⟩
abbrev S1x256x64 : Shape := ⟨3, ![1, 256, 64]⟩
abbrev S1x256 : Shape := ⟨2, ![1, 256]⟩
abbrev S64x256 : Shape := ⟨2, ![64, 256]⟩
abbrev S512x256 : Shape := ⟨2, ![512, 256]⟩
abbrev S512x448 : Shape := ⟨2, ![512, 448]⟩
abbrev S448x256 : Shape := ⟨2, ![448, 256]⟩
abbrev S1x2 : Shape := ⟨2, ![1, 2]⟩

abbrev nBuf : Space → Nat
  | .hbm => 25
  | .vmem => 36
  | .smem => 0
  | _ => 0

abbrev bufTy : (tb : Table) → Fin (tcTables nBuf tb) → BufTy
  | .hbm, ⟨0, _⟩ => ⟨S131072x2, .f32⟩
  | .hbm, ⟨1, _⟩ => ⟨S6x131072x2, .f32⟩
  | .hbm, ⟨2, _⟩ => ⟨S6x131072x64, .f32⟩
  | .hbm, ⟨3, _⟩ => ⟨S6x131072x64, .f32⟩
  | .hbm, ⟨4, _⟩ => ⟨S131072x64, .f32⟩
  | .hbm, ⟨5, _⟩ => ⟨S131072x64, .f32⟩
  | .hbm, ⟨6, _⟩ => ⟨S6x2x64, .f32⟩
  | .hbm, ⟨7, _⟩ => ⟨S6x64, .f32⟩
  | .hbm, ⟨8, _⟩ => ⟨S6x256x64, .f32⟩
  | .hbm, ⟨9, _⟩ => ⟨S6x256x64, .f32⟩
  | .hbm, ⟨10, _⟩ => ⟨S6x256, .f32⟩
  | .hbm, ⟨11, _⟩ => ⟨S6x256, .f32⟩
  | .hbm, ⟨12, _⟩ => ⟨S2x64, .f32⟩
  | .hbm, ⟨13, _⟩ => ⟨S64, .f32⟩
  | .hbm, ⟨14, _⟩ => ⟨S256x448, .f32⟩
  | .hbm, ⟨15, _⟩ => ⟨S256x64, .f32⟩
  | .hbm, ⟨16, _⟩ => ⟨S256, .f32⟩
  | .hbm, ⟨17, _⟩ => ⟨S256, .f32⟩
  | .hbm, ⟨18, _⟩ => ⟨S64x2, .f32⟩
  | .hbm, ⟨19, _⟩ => ⟨S2, .f32⟩
  | .hbm, ⟨20, _⟩ => ⟨S131072x2, .f32⟩
  | .hbm, ⟨21, _⟩ => ⟨S6x131072x64, .f32⟩
  | .hbm, ⟨22, _⟩ => ⟨S6x131072x64, .f32⟩
  | .hbm, ⟨23, _⟩ => ⟨S131072x64, .f32⟩
  | .hbm, ⟨24, _⟩ => ⟨S131072x64, .f32⟩
  | .local _ .vmem, ⟨0, _⟩ => ⟨S512x2, .f32⟩
  | .local _ .vmem, ⟨1, _⟩ => ⟨S512x2, .f32⟩
  | .local _ .vmem, ⟨2, _⟩ => ⟨S6x512x2, .f32⟩
  | .local _ .vmem, ⟨3, _⟩ => ⟨S6x512x2, .f32⟩
  | .local _ .vmem, ⟨4, _⟩ => ⟨S6x512x64, .f32⟩
  | .local _ .vmem, ⟨5, _⟩ => ⟨S6x512x64, .f32⟩
  | .local _ .vmem, ⟨6, _⟩ => ⟨S6x512x64, .f32⟩
  | .local _ .vmem, ⟨7, _⟩ => ⟨S6x512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S6x2x64, .f32⟩
  | .local _ .vmem, ⟨13, _⟩ => ⟨S6x64, .f32⟩
  | .local _ .vmem, ⟨14, _⟩ => ⟨S6x256x64, .f32⟩
  | .local _ .vmem, ⟨15, _⟩ => ⟨S6x256x64, .f32⟩
  | .local _ .vmem, ⟨16, _⟩ => ⟨S6x256, .f32⟩
  | .local _ .vmem, ⟨17, _⟩ => ⟨S6x256, .f32⟩
  | .local _ .vmem, ⟨18, _⟩ => ⟨S2x64, .f32⟩
  | .local _ .vmem, ⟨19, _⟩ => ⟨S64, .f32⟩
  | .local _ .vmem, ⟨20, _⟩ => ⟨S256x448, .f32⟩
  | .local _ .vmem, ⟨21, _⟩ => ⟨S256x64, .f32⟩
  | .local _ .vmem, ⟨22, _⟩ => ⟨S256, .f32⟩
  | .local _ .vmem, ⟨23, _⟩ => ⟨S256, .f32⟩
  | .local _ .vmem, ⟨24, _⟩ => ⟨S64x2, .f32⟩
  | .local _ .vmem, ⟨25, _⟩ => ⟨S2, .f32⟩
  | .local _ .vmem, ⟨26, _⟩ => ⟨S512x2, .f32⟩
  | .local _ .vmem, ⟨27, _⟩ => ⟨S512x2, .f32⟩
  | .local _ .vmem, ⟨28, _⟩ => ⟨S6x512x64, .f32⟩
  | .local _ .vmem, ⟨29, _⟩ => ⟨S6x512x64, .f32⟩
  | .local _ .vmem, ⟨30, _⟩ => ⟨S6x512x64, .f32⟩
  | .local _ .vmem, ⟨31, _⟩ => ⟨S6x512x64, .f32⟩
  | .local _ .vmem, ⟨32, _⟩ => ⟨S512x64, .f32⟩
  | .local _ .vmem, ⟨33, _⟩ => ⟨S512x64, .f32⟩
  | .local _ .vmem, ⟨34, _⟩ => ⟨S512x64, .f32⟩
  | .local _ .vmem, ⟨35, _⟩ => ⟨S512x64, .f32⟩
  | _, _ => ⟨S131072x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v0_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x256x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x448 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x2 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S6x512x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S6x512x64 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x64 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x64 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  inb_S512x2_S512x2_0_0 : ∀ a, (![0, 0] : Fin 2 → Nat) a + S512x2.size a ≤ S512x2.size a
  h_S512x2 : 0 < S512x2.numel
  inb_S6x512x2_S1x512x2_0_0_0 : ∀ a, (![0, 0, 0] : Fin 3 → Nat) a + S1x512x2.size a ≤ S6x512x2.size a
  h_S1x512x2 : 0 < S1x512x2.numel
  shapeCasts_S1x512x2_S512x2 : S1x512x2.ShapeCasts S512x2
  inb_S6x2x64_S1x2x64_0_0_0 : ∀ a, (![0, 0, 0] : Fin 3 → Nat) a + S1x2x64.size a ≤ S6x2x64.size a
  h_S1x2x64 : 0 < S1x2x64.numel
  shapeCasts_S1x2x64_S2x64 : S1x2x64.ShapeCasts S2x64
  inb_S6x64_S1x64_0_0 : ∀ a, (![0, 0] : Fin 2 → Nat) a + S1x64.size a ≤ S6x64.size a
  h_S1x64 : 0 < S1x64.numel
  shapeCasts_S1x64_S64 : S1x64.ShapeCasts S64
  shapeCasts_S64_S1x64 : S64.ShapeCasts S1x64
  broadcasts_S1x64_S512x64 : S1x64.Broadcasts S512x64
  inb_S6x512x64_S1x512x64_0_0_0 : ∀ a, (![0, 0, 0] : Fin 3 → Nat) a + S1x512x64.size a ≤ S6x512x64.size a
  h_S1x512x64 : 0 < S1x512x64.numel
  shapeCasts_S1x512x64_S512x64 : S1x512x64.ShapeCasts S512x64
  inb_S6x256x64_S1x256x64_0_0_0 : ∀ a, (![0, 0, 0] : Fin 3 → Nat) a + S1x256x64.size a ≤ S6x256x64.size a
  h_S1x256x64 : 0 < S1x256x64.numel
  shapeCasts_S1x256x64_S256x64 : S1x256x64.ShapeCasts S256x64
  inb_S6x256_S1x256_0_0 : ∀ a, (![0, 0] : Fin 2 → Nat) a + S1x256.size a ≤ S6x256.size a
  h_S1x256 : 0 < S1x256.numel
  shapeCasts_S1x256_S256 : S1x256.ShapeCasts S256
  transposes_S256x64_p1_0_S64x256 : S256x64.Transposes [1, 0] S64x256
  shapeCasts_S256_S1x256 : S256.ShapeCasts S1x256
  broadcasts_S1x256_S512x256 : S1x256.Broadcasts S512x256
  slices_S512x256_o0_0_S512x64 : S512x256.Slices ![0, 0] S512x64
  slices_S512x256_o0_64_S512x64 : S512x256.Slices ![0, 64] S512x64
  slices_S512x256_o0_128_S512x64 : S512x256.Slices ![0, 128] S512x64
  slices_S512x256_o0_192_S512x64 : S512x256.Slices ![0, 192] S512x64
  shapeCasts_S512x64_S1x512x64 : S512x64.ShapeCasts S1x512x64
  inb_S6x512x2_S1x512x2_1_0_0 : ∀ a, (![1, 0, 0] : Fin 3 → Nat) a + S1x512x2.size a ≤ S6x512x2.size a
  inb_S6x2x64_S1x2x64_1_0_0 : ∀ a, (![1, 0, 0] : Fin 3 → Nat) a + S1x2x64.size a ≤ S6x2x64.size a
  inb_S6x64_S1x64_1_0 : ∀ a, (![1, 0] : Fin 2 → Nat) a + S1x64.size a ≤ S6x64.size a
  inb_S6x512x64_S1x512x64_1_0_0 : ∀ a, (![1, 0, 0] : Fin 3 → Nat) a + S1x512x64.size a ≤ S6x512x64.size a
  inb_S6x256x64_S1x256x64_1_0_0 : ∀ a, (![1, 0, 0] : Fin 3 → Nat) a + S1x256x64.size a ≤ S6x256x64.size a
  inb_S6x256_S1x256_1_0 : ∀ a, (![1, 0] : Fin 2 → Nat) a + S1x256.size a ≤ S6x256.size a
  inb_S6x512x2_S1x512x2_2_0_0 : ∀ a, (![2, 0, 0] : Fin 3 → Nat) a + S1x512x2.size a ≤ S6x512x2.size a
  inb_S6x2x64_S1x2x64_2_0_0 : ∀ a, (![2, 0, 0] : Fin 3 → Nat) a + S1x2x64.size a ≤ S6x2x64.size a
  inb_S6x64_S1x64_2_0 : ∀ a, (![2, 0] : Fin 2 → Nat) a + S1x64.size a ≤ S6x64.size a
  inb_S6x512x64_S1x512x64_2_0_0 : ∀ a, (![2, 0, 0] : Fin 3 → Nat) a + S1x512x64.size a ≤ S6x512x64.size a
  inb_S6x256x64_S1x256x64_2_0_0 : ∀ a, (![2, 0, 0] : Fin 3 → Nat) a + S1x256x64.size a ≤ S6x256x64.size a
  inb_S6x256_S1x256_2_0 : ∀ a, (![2, 0] : Fin 2 → Nat) a + S1x256.size a ≤ S6x256.size a
  inb_S6x512x2_S1x512x2_3_0_0 : ∀ a, (![3, 0, 0] : Fin 3 → Nat) a + S1x512x2.size a ≤ S6x512x2.size a
  inb_S6x2x64_S1x2x64_3_0_0 : ∀ a, (![3, 0, 0] : Fin 3 → Nat) a + S1x2x64.size a ≤ S6x2x64.size a
  inb_S6x64_S1x64_3_0 : ∀ a, (![3, 0] : Fin 2 → Nat) a + S1x64.size a ≤ S6x64.size a
  inb_S6x512x64_S1x512x64_3_0_0 : ∀ a, (![3, 0, 0] : Fin 3 → Nat) a + S1x512x64.size a ≤ S6x512x64.size a
  inb_S6x256x64_S1x256x64_3_0_0 : ∀ a, (![3, 0, 0] : Fin 3 → Nat) a + S1x256x64.size a ≤ S6x256x64.size a
  inb_S6x256_S1x256_3_0 : ∀ a, (![3, 0] : Fin 2 → Nat) a + S1x256.size a ≤ S6x256.size a
  inb_S6x512x2_S1x512x2_4_0_0 : ∀ a, (![4, 0, 0] : Fin 3 → Nat) a + S1x512x2.size a ≤ S6x512x2.size a
  inb_S6x2x64_S1x2x64_4_0_0 : ∀ a, (![4, 0, 0] : Fin 3 → Nat) a + S1x2x64.size a ≤ S6x2x64.size a
  inb_S6x64_S1x64_4_0 : ∀ a, (![4, 0] : Fin 2 → Nat) a + S1x64.size a ≤ S6x64.size a
  inb_S6x512x64_S1x512x64_4_0_0 : ∀ a, (![4, 0, 0] : Fin 3 → Nat) a + S1x512x64.size a ≤ S6x512x64.size a
  inb_S6x256x64_S1x256x64_4_0_0 : ∀ a, (![4, 0, 0] : Fin 3 → Nat) a + S1x256x64.size a ≤ S6x256x64.size a
  inb_S6x256_S1x256_4_0 : ∀ a, (![4, 0] : Fin 2 → Nat) a + S1x256.size a ≤ S6x256.size a
  inb_S6x512x2_S1x512x2_5_0_0 : ∀ a, (![5, 0, 0] : Fin 3 → Nat) a + S1x512x2.size a ≤ S6x512x2.size a
  inb_S6x2x64_S1x2x64_5_0_0 : ∀ a, (![5, 0, 0] : Fin 3 → Nat) a + S1x2x64.size a ≤ S6x2x64.size a
  inb_S6x64_S1x64_5_0 : ∀ a, (![5, 0] : Fin 2 → Nat) a + S1x64.size a ≤ S6x64.size a
  inb_S6x512x64_S1x512x64_5_0_0 : ∀ a, (![5, 0, 0] : Fin 3 → Nat) a + S1x512x64.size a ≤ S6x512x64.size a
  inb_S6x256x64_S1x256x64_5_0_0 : ∀ a, (![5, 0, 0] : Fin 3 → Nat) a + S1x256x64.size a ≤ S6x256x64.size a
  inb_S6x256_S1x256_5_0 : ∀ a, (![5, 0] : Fin 2 → Nat) a + S1x256.size a ≤ S6x256.size a
  inb_S2x64_S2x64_0_0 : ∀ a, (![0, 0] : Fin 2 → Nat) a + S2x64.size a ≤ S2x64.size a
  h_S2x64 : 0 < S2x64.numel
  inb_S64_S64_0 : ∀ a, (![0] : Fin 1 → Nat) a + S64.size a ≤ S64.size a
  h_S64 : 0 < S64.numel
  concatenates_S512x64_S512x64_S512x64_S512x64_S512x64_S512x64_S512x64_S512x448_d1 : Shape.Concatenates [S512x64, S512x64, S512x64, S512x64, S512x64, S512x64, S512x64] S512x448 1
  inb_S512x64_S512x64_0_0 : ∀ a, (![0, 0] : Fin 2 → Nat) a + S512x64.size a ≤ S512x64.size a
  h_S512x64 : 0 < S512x64.numel
  inb_S256x448_S256x448_0_0 : ∀ a, (![0, 0] : Fin 2 → Nat) a + S256x448.size a ≤ S256x448.size a
  h_S256x448 : 0 < S256x448.numel
  inb_S256x64_S256x64_0_0 : ∀ a, (![0, 0] : Fin 2 → Nat) a + S256x64.size a ≤ S256x64.size a
  h_S256x64 : 0 < S256x64.numel
  inb_S256_S256_0 : ∀ a, (![0] : Fin 1 → Nat) a + S256.size a ≤ S256.size a
  h_S256 : 0 < S256.numel
  transposes_S256x448_p1_0_S448x256 : S256x448.Transposes [1, 0] S448x256
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S512x2 : S1x2.Broadcasts S512x2
  dot_S512x2_S2x64_S512x64_1_0_0_1_n_n_wf : DotDims.WF S512x2 S2x64 S512x64 [1] [0] [0] [1] [] []
  dot_S512x64_S64x256_S512x256_1_0_0_1_n_n_wf : DotDims.WF S512x64 S64x256 S512x256 [1] [0] [0] [1] [] []
  dot_S512x448_S448x256_S512x256_1_0_0_1_n_n_wf : DotDims.WF S512x448 S448x256 S512x256 [1] [0] [0] [1] [] []
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S131072x2.size a
  hwx0_0 : ∀ i : grid0.Coords, EltTy.bits .f32 = 32 ∨ (Rect.block (s := S131072x2) S512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x512x2.size a ≤ S6x131072x2.size a
  hwx0_1 : ∀ i : grid0.Coords, EltTy.bits .f32 = 32 ∨ (Rect.block (s := S6x131072x2) S6x512x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6x512x64.size a ≤ S6x131072x64.size a
  hwx0_2 : ∀ i : grid0.Coords, EltTy.bits .f32 = 32 ∨ (Rect.block (s := S6x131072x64) S6x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6x512x64.size a ≤ S6x131072x64.size a
  hwx0_3 : ∀ i : grid0.Coords, EltTy.bits .f32 = 32 ∨ (Rect.block (s := S6x131072x64) S6x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S131072x64.size a
  hwx0_4 : ∀ i : grid0.Coords, EltTy.bits .f32 = 32 ∨ (Rect.block (s := S131072x64) S512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S131072x64.size a
  hwx0_5 : ∀ i : grid0.Coords, EltTy.bits .f32 = 32 ∨ (Rect.block (s := S131072x64) S512x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x2x64.size a ≤ S6x2x64.size a
  hwx0_6 : ∀ i : grid0.Coords, EltTy.bits .f32 = 32 ∨ (Rect.block (s := S6x2x64) S6x2x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x64.size a ≤ S6x64.size a
  hwx0_7 : ∀ i : grid0.Coords, EltTy.bits .f32 = 32 ∨ (Rect.block (s := S6x64) S6x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x256x64.size a ≤ S6x256x64.size a
  hwx0_8 : ∀ i : grid0.Coords, EltTy.bits .f32 = 32 ∨ (Rect.block (s := S6x256x64) S6x256x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6x256x64.size a ≤ S6x256x64.size a
  hwx0_9 : ∀ i : grid0.Coords, EltTy.bits .f32 = 32 ∨ (Rect.block (s := S6x256x64) S6x256x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S6x256.size a ≤ S6x256.size a
  hwx0_10 : ∀ i : grid0.Coords, EltTy.bits .f32 = 32 ∨ (Rect.block (s := S6x256) S6x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S6x256.size a ≤ S6x256.size a
  hwx0_11 : ∀ i : grid0.Coords, EltTy.bits .f32 = 32 ∨ (Rect.block (s := S6x256) S6x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2x64.size a ≤ S2x64.size a
  hwx0_12 : ∀ i : grid0.Coords, EltTy.bits .f32 = 32 ∨ (Rect.block (s := S2x64) S2x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x448.size a ≤ S256x448.size a
  hwx0_14 : ∀ i : grid0.Coords, EltTy.bits .f32 = 32 ∨ (Rect.block (s := S256x448) S256x448.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x64.size a ≤ S256x64.size a
  hwx0_15 : ∀ i : grid0.Coords, EltTy.bits .f32 = 32 ∨ (Rect.block (s := S256x64) S256x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256.size a ≤ S256.size a
  hwx0_17 : ∀ i : grid0.Coords, EltTy.bits .f32 = 32 ∨ (Rect.block (s := S256) S256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64x2.size a ≤ S64x2.size a
  hwx0_18 : ∀ i : grid0.Coords, EltTy.bits .f32 = 32 ∨ (Rect.block (s := S64x2) S64x2.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S2.size a ≤ S2.size a
  hwx0_19 : ∀ i : grid0.Coords, EltTy.bits .f32 = 32 ∨ (Rect.block (s := S2) S2.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x2.size a ≤ S131072x2.size a
  hwx0_20 : ∀ i : grid0.Coords, EltTy.bits .f32 = 32 ∨ (Rect.block (s := S131072x2) S512x2.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S6x512x64.size a ≤ S6x131072x64.size a
  hwx0_21 : ∀ i : grid0.Coords, EltTy.bits .f32 = 32 ∨ (Rect.block (s := S6x131072x64) S6x512x64.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S6x512x64.size a ≤ S6x131072x64.size a
  hwx0_22 : ∀ i : grid0.Coords, EltTy.bits .f32 = 32 ∨ (Rect.block (s := S6x131072x64) S6x512x64.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S512x64.size a ≤ S131072x64.size a
  hwx0_23 : ∀ i : grid0.Coords, EltTy.bits .f32 = 32 ∨ (Rect.block (s := S131072x64) S512x64.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S512x64.size a ≤ S131072x64.size a
  hwx0_24 : ∀ i : grid0.Coords, EltTy.bits .f32 = 32 ∨ (Rect.block (s := S131072x64) S512x64.size (cc0_transform_24 i) (hinb0_24 i)).WholeWords (EltTy.packing .f32)

variable [Facts₀]

def dot_S512x2_S2x64_S512x64_1_0_0_1_n_n : DotDims S512x2 S2x64 S512x64 where
  lhsContracting := [1]
  rhsContracting := [0]
  lhsNonContracting := [0]
  rhsNonContracting := [1]
  lhsBatch := []
  rhsBatch := []
  wf := dot_S512x2_S2x64_S512x64_1_0_0_1_n_n_wf
def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf
def dot_S512x448_S448x256_S512x256_1_0_0_1_n_n : DotDims S512x448 S448x256 S512x256 where
  lhsContracting := [1]
  rhsContracting := [0]
  lhsNonContracting := [0]
  rhsNonContracting := [1]
  lhsBatch := []
  rhsBatch := []
  wf := dot_S512x448_S448x256_S512x256_1_0_0_1_n_n_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_arg0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x512x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S6x2x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S6x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S6x256x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S6x256x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S6x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S6x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S2x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256x448.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S64x2.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S2.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v0_0) S512x2.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v0_1) S6x512x64.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v0_2) S6x512x64.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v0_3) S512x64.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v0_4) S512x64.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S131072x2 : Shape := ⟨2, ![131072, 2]⟩
abbrev S6x131072x2 : Shape := ⟨3, ![6, 131072, 2]⟩
abbrev S6x131072x64 : Shape := ⟨3, ![6, 131072, 64]⟩
abbrev S131072x64 : Shape := ⟨2, ![131072, 64]⟩
abbrev S6x2x64 : Shape := ⟨3, ![6, 2, 64]⟩
abbrev S6x64 : Shape := ⟨2, ![6, 64]⟩
abbrev S6x256x64 : Shape := ⟨3, ![6, 256, 64]⟩
abbrev S6x256 : Shape := ⟨2, ![6, 256]⟩
abbrev S2x64 : Shape := ⟨2, ![2, 64]⟩
abbrev S64 : Shape := ⟨1, ![64]⟩
abbrev S256x448 : Shape := ⟨2, ![256, 448]⟩
abbrev S256x64 : Shape := ⟨2, ![256, 64]⟩
abbrev S256 : Shape := ⟨1, ![256]⟩
abbrev S64x2 : Shape := ⟨2, ![64, 2]⟩
abbrev S2 : Shape := ⟨1, ![2]⟩
abbrev S6x1x64 : Shape := ⟨3, ![6, 1, 64]⟩
abbrev S6x64x256 : Shape := ⟨3, ![6, 64, 256]⟩
abbrev S6x131072x256 : Shape := ⟨3, ![6, 131072, 256]⟩
abbrev S6x1x256 : Shape := ⟨3, ![6, 1, 256]⟩
abbrev S_ : Shape := ⟨0, ![]⟩
abbrev S1x64 : Shape := ⟨2, ![1, 64]⟩
abbrev S131072x6x64 : Shape := ⟨3, ![131072, 6, 64]⟩
abbrev S131072x384 : Shape := ⟨2, ![131072, 384]⟩
abbrev S131072x448 : Shape := ⟨2, ![131072, 448]⟩
abbrev S448x256 : Shape := ⟨2, ![448, 256]⟩
abbrev S131072x256 : Shape := ⟨2, ![131072, 256]⟩
abbrev S64x256 : Shape := ⟨2, ![64, 256]⟩
abbrev S1x256 : Shape := ⟨2, ![1, 256]⟩
abbrev S1x2 : Shape := ⟨2, ![1, 2]⟩

abbrev nBuf : Space → Nat
  | .hbm => 129
  | .vmem => 0
  | .smem => 0
  | _ => 0

abbrev hbmTy0_0 (i : Nat) : BufTy := match i % 128 with
  | 0 => ⟨S131072x2, .f32⟩
  | 1 => ⟨S6x131072x2, .f32⟩
  | 2 => ⟨S6x131072x64, .f32⟩
  | 3 => ⟨S6x131072x64, .f32⟩
  | 4 => ⟨S131072x64, .f32⟩
  | 5 => ⟨S131072x64, .f32⟩
  | 6 => ⟨S6x2x64, .f32⟩
  | 7 => ⟨S6x64, .f32⟩
  | 8 => ⟨S6x256x64, .f32⟩
  | 9 => ⟨S6x256x64, .f32⟩
  | 10 => ⟨S6x256, .f32⟩
  | 11 => ⟨S6x256, .f32⟩
  | 12 => ⟨S2x64, .f32⟩
  | 13 => ⟨S64, .f32⟩
  | 14 => ⟨S256x448, .f32⟩
  | 15 => ⟨S256x64, .f32⟩
  | 16 => ⟨S256, .f32⟩
  | 17 => ⟨S256, .f32⟩
  | 18 => ⟨S64x2, .f32⟩
  | 19 => ⟨S2, .f32⟩
  | 20 => ⟨S6x131072x64, .f32⟩
  | 21 => ⟨S6x1x64, .f32⟩
  | 22 => ⟨S6x131072x64, .f32⟩
  | 23 => ⟨S6x131072x64, .f32⟩
  | 24 => ⟨S6x131072x64, .f32⟩
  | 25 => ⟨S6x64x256, .f32⟩
  | 26 => ⟨S6x131072x256, .f32⟩
  | 27 => ⟨S6x64x256, .f32⟩
  | 28 => ⟨S6x131072x256, .f32⟩
  | 29 => ⟨S6x131072x256, .f32⟩
  | 30 => ⟨S6x1x256, .f32⟩
  | 31 => ⟨S6x131072x256, .f32⟩
  | 32 => ⟨S6x131072x256, .f32⟩
  | 33 => ⟨S6x1x256, .f32⟩
  | 34 => ⟨S6x131072x256, .f32⟩
  | 35 => ⟨S6x131072x256, .f32⟩
  | 36 => ⟨S6x131072x64, .f32⟩
  | 37 => ⟨S6x131072x64, .f32⟩
  | 38 => ⟨S6x131072x64, .f32⟩
  | 39 => ⟨S6x131072x64, .f32⟩
  | 40 => ⟨S6x131072x64, .f32⟩
  | 41 => ⟨S6x131072x64, .f32⟩
  | 42 => ⟨S_, .f32⟩
  | 43 => ⟨S6x131072x64, .f32⟩
  | 44 => ⟨S6x131072x64, .f32⟩
  | 45 => ⟨S_, .f32⟩
  | 46 => ⟨S6x131072x64, .f32⟩
  | 47 => ⟨S6x131072x64, .f32⟩
  | 48 => ⟨S6x131072x64, .f32⟩
  | 49 => ⟨S6x131072x64, .f32⟩
  | 50 => ⟨S_, .f32⟩
  | 51 => ⟨S6x131072x64, .f32⟩
  | 52 => ⟨S6x131072x64, .f32⟩
  | 53 => ⟨S_, .f32⟩
  | 54 => ⟨S6x131072x64, .f32⟩
  | 55 => ⟨S6x131072x64, .f32⟩
  | 56 => ⟨S6x131072x64, .f32⟩
  | 57 => ⟨S6x131072x64, .f32⟩
  | 58 => ⟨S6x131072x64, .f32⟩
  | 59 => ⟨S_, .f32⟩
  | 60 => ⟨S6x131072x64, .f32⟩
  | 61 => ⟨S6x131072x64, .f32⟩
  | 62 => ⟨S_, .f32⟩
  | 63 => ⟨S6x131072x64, .f32⟩
  | 64 => ⟨S6x131072x64, .f32⟩
  | 65 => ⟨S6x131072x64, .f32⟩
  | 66 => ⟨S6x131072x64, .f32⟩
  | 67 => ⟨S6x131072x64, .f32⟩
  | 68 => ⟨S6x131072x64, .f32⟩
  | 69 => ⟨S6x131072x64, .f32⟩
  | 70 => ⟨S131072x64, .f32⟩
  | 71 => ⟨S1x64, .f32⟩
  | 72 => ⟨S131072x64, .f32⟩
  | 73 => ⟨S131072x64, .f32⟩
  | 74 => ⟨S131072x64, .f32⟩
  | 75 => ⟨S131072x6x64, .f32⟩
  | 76 => ⟨S131072x384, .f32⟩
  | 77 => ⟨S131072x448, .f32⟩
  | 78 => ⟨S448x256, .f32⟩
  | 79 => ⟨S131072x256, .f32⟩
  | 80 => ⟨S64x256, .f32⟩
  | 81 => ⟨S131072x256, .f32⟩
  | 82 => ⟨S131072x256, .f32⟩
  | 83 => ⟨S1x256, .f32⟩
  | 84 => ⟨S131072x256, .f32⟩
  | 85 => ⟨S131072x256, .f32⟩
  | 86 => ⟨S1x256, .f32⟩
  | 87 => ⟨S131072x256, .f32⟩
  | 88 => ⟨S131072x256, .f32⟩
  | 89 => ⟨S131072x64, .f32⟩
  | 90 => ⟨S131072x64, .f32⟩
  | 91 => ⟨S131072x64, .f32⟩
  | 92 => ⟨S131072x64, .f32⟩
  | 93 => ⟨S131072x64, .f32⟩
  | 94 => ⟨S131072x64, .f32⟩
  | 95 => ⟨S_, .f32⟩
  | 96 => ⟨S131072x64, .f32⟩
  | 97 => ⟨S131072x64, .f32⟩
  | 98 => ⟨S_, .f32⟩
  | 99 => ⟨S131072x64, .f32⟩
  | 100 => ⟨S131072x64, .f32⟩
  | 101 => ⟨S131072x64, .f32⟩
  | 102 => ⟨S131072x64, .f32⟩
  | 103 => ⟨S_, .f32⟩
  | 104 => ⟨S131072x64, .f32⟩
  | 105 => ⟨S131072x64, .f32⟩
  | 106 => ⟨S_, .f32⟩
  | 107 => ⟨S131072x64, .f32⟩
  | 108 => ⟨S131072x64, .f32⟩
  | 109 => ⟨S131072x64, .f32⟩
  | 110 => ⟨S131072x64, .f32⟩
  | 111 => ⟨S131072x64, .f32⟩
  | 112 => ⟨S_, .f32⟩
  | 113 => ⟨S131072x64, .f32⟩
  | 114 => ⟨S131072x64, .f32⟩
  | 115 => ⟨S_, .f32⟩
  | 116 => ⟨S131072x64, .f32⟩
  | 117 => ⟨S131072x64, .f32⟩
  | 118 => ⟨S131072x64, .f32⟩
  | 119 => ⟨S131072x64, .f32⟩
  | 120 => ⟨S131072x64, .f32⟩
  | 121 => ⟨S131072x64, .f32⟩
  | 122 => ⟨S131072x64, .f32⟩
  | 123 => ⟨S131072x2, .f32⟩
  | 124 => ⟨S1x2, .f32⟩
  | 125 => ⟨S131072x2, .f32⟩
  | 126 => ⟨S131072x2, .f32⟩
  | 127 => ⟨S131072x2, .f32⟩
  | _ => ⟨S131072x2, .f32⟩

abbrev hbmTy0_1 (i : Nat) : BufTy := match i % 128 with
  | 0 => ⟨S131072x2, .f32⟩
  | _ => ⟨S131072x2, .f32⟩

abbrev hbmTy (i : Nat) : BufTy := match i / 128 with
  | 0 => hbmTy0_0 i
  | 1 => hbmTy0_1 i
  | _ => ⟨S131072x2, .f32⟩

abbrev bufTy : (tb : Table) → Fin (tcTables nBuf tb) → BufTy
  | .hbm, ⟨i, _⟩ => hbmTy i
  | _, _ => ⟨S131072x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_v23 : Ref sig .tc := ⟨.hbm, 44, rfl⟩
abbrev main_cst_0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_1 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_3 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_5 : Ref sig .tc := ⟨.hbm, 95, rfl⟩
abbrev main_v69 : Ref sig .tc := ⟨.hbm, 96, rfl⟩
abbrev main_v70 : Ref sig .tc := ⟨.hbm, 97, rfl⟩
abbrev main_cst_6 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_7 : Ref sig .tc := ⟨.hbm, 103, rfl⟩
abbrev main_v75 : Ref sig .tc := ⟨.hbm, 104, rfl⟩
abbrev main_v76 : Ref sig .tc := ⟨.hbm, 105, rfl⟩
abbrev main_cst_8 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_9 : Ref sig .tc := ⟨.hbm, 112, rfl⟩
abbrev main_v82 : Ref sig .tc := ⟨.hbm, 113, rfl⟩
abbrev main_v83 : Ref sig .tc := ⟨.hbm, 114, rfl⟩
abbrev main_cst_10 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩

abbrev nD : Nat := 1
abbrev τ : Topo := Topo.v7x

variable {F : FTy → Type} [FloatOps F]

class Facts₀ : Prop where
  bcast_S6x64_S6x1x64_0_2 : S6x64.BroadcastsInDim S6x1x64 (![0, 2] : Fin 2 → Fin S6x1x64.rank)
  bcast_S6x1x64_S6x131072x64_0_1_2 : S6x1x64.BroadcastsInDim S6x131072x64 (![0, 1, 2] : Fin 3 → Fin S6x131072x64.rank)
  transposes_S6x256x64_S6x64x256_0_2_1 : S6x256x64.Transposes [0, 2, 1] S6x64x256
  bcast_S6x256_S6x1x256_0_2 : S6x256.BroadcastsInDim S6x1x256 (![0, 2] : Fin 2 → Fin S6x1x256.rank)
  bcast_S6x1x256_S6x131072x256_0_1_2 : S6x1x256.BroadcastsInDim S6x131072x256 (![0, 1, 2] : Fin 3 → Fin S6x131072x256.rank)
  slices_S6x131072x256_S6x131072x64_0_0_0 : S6x131072x256.Slices ![0, 0, 0] S6x131072x64
  slices_S6x131072x256_S6x131072x64_0_0_64 : S6x131072x256.Slices ![0, 0, 64] S6x131072x64
  slices_S6x131072x256_S6x131072x64_0_0_128 : S6x131072x256.Slices ![0, 0, 128] S6x131072x64
  slices_S6x131072x256_S6x131072x64_0_0_192 : S6x131072x256.Slices ![0, 0, 192] S6x131072x64
  bcast_S_S6x131072x64 : S_.BroadcastsInDim S6x131072x64 (![] : Fin 0 → Fin S6x131072x64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  transposes_S6x131072x64_S131072x6x64_1_0_2 : S6x131072x64.Transposes [1, 0, 2] S131072x6x64
  shapeCasts_S131072x6x64_S131072x384 : S131072x6x64.ShapeCasts S131072x384
  concatenates_S131072x64_S131072x384_S131072x448_d1 : Shape.Concatenates [S131072x64, S131072x384] S131072x448 1
  transposes_S256x448_S448x256_1_0 : S256x448.Transposes [1, 0] S448x256
  transposes_S256x64_S64x256_1_0 : S256x64.Transposes [1, 0] S64x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  slices_S131072x256_S131072x64_0_0 : S131072x256.Slices ![0, 0] S131072x64
  slices_S131072x256_S131072x64_0_64 : S131072x256.Slices ![0, 64] S131072x64
  slices_S131072x256_S131072x64_0_128 : S131072x256.Slices ![0, 128] S131072x64
  slices_S131072x256_S131072x64_0_192 : S131072x256.Slices ![0, 192] S131072x64
  bcast_S_S131072x64 : S_.BroadcastsInDim S131072x64 (![] : Fin 0 → Fin S131072x64.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  dot_S6x131072x2_S6x2x64_S6x131072x64_2_1_1_2_0_0_wf : DotDims.WF S6x131072x2 S6x2x64 S6x131072x64 [2] [1] [1] [2] [0] [0]
  dot_S6x131072x64_S6x64x256_S6x131072x256_2_1_1_2_0_0_wf : DotDims.WF S6x131072x64 S6x64x256 S6x131072x256 [2] [1] [1] [2] [0] [0]
  dot_S131072x2_S2x64_S131072x64_1_0_0_1_n_n_wf : DotDims.WF S131072x2 S2x64 S131072x64 [1] [0] [0] [1] [] []
  dot_S131072x448_S448x256_S131072x256_1_0_0_1_n_n_wf : DotDims.WF S131072x448 S448x256 S131072x256 [1] [0] [0] [1] [] []
  dot_S131072x64_S64x256_S131072x256_1_0_0_1_n_n_wf : DotDims.WF S131072x64 S64x256 S131072x256 [1] [0] [0] [1] [] []
  dot_S131072x64_S64x2_S131072x2_1_0_0_1_n_n_wf : DotDims.WF S131072x64 S64x2 S131072x2 [1] [0] [0] [1] [] []

variable [Facts₀]

def dot_S6x131072x2_S6x2x64_S6x131072x64_2_1_1_2_0_0 : DotDims S6x131072x2 S6x2x64 S6x131072x64 where
  lhsContracting := [2]
  rhsContracting := [1]
  lhsNonContracting := [1]
  rhsNonContracting := [2]
  lhsBatch := [0]
  rhsBatch := [0]
  wf := dot_S6x131072x2_S6x2x64_S6x131072x64_2_1_1_2_0_0_wf
def dot_S6x131072x64_S6x64x256_S6x131072x256_2_1_1_2_0_0 : DotDims S6x131072x64 S6x64x256 S6x131072x256 where
  lhsContracting := [2]
  rhsContracting := [1]
  lhsNonContracting := [1]
  rhsNonContracting := [2]
  lhsBatch := [0]
  rhsBatch := [0]
  wf := dot_S6x131072x64_S6x64x256_S6x131072x256_2_1_1_2_0_0_wf
def dot_S131072x2_S2x64_S131072x64_1_0_0_1_n_n : DotDims S131072x2 S2x64 S131072x64 where
  lhsContracting := [1]
  rhsContracting := [0]
  lhsNonContracting := [0]
  rhsNonContracting := [1]
  lhsBatch := []
  rhsBatch := []
  wf := dot_S131072x2_S2x64_S131072x64_1_0_0_1_n_n_wf
def dot_S131072x448_S448x256_S131072x256_1_0_0_1_n_n : DotDims S131072x448 S448x256 S131072x256 where
  lhsContracting := [1]
  rhsContracting := [0]
  lhsNonContracting := [0]
  rhsNonContracting := [1]
  lhsBatch := []
  rhsBatch := []
  wf := dot_S131072x448_S448x256_S131072x256_1_0_0_1_n_n_wf
def dot_S131072x64_S64x256_S131072x256_1_0_0_1_n_n : DotDims S131072x64 S64x256 S131072x256 where
  lhsContracting := [1]
  rhsContracting := [0]
  lhsNonContracting := [0]
  rhsNonContracting := [1]
  lhsBatch := []
  rhsBatch := []
  wf := dot_S131072x64_S64x256_S131072x256_1_0_0_1_n_n_wf
def dot_S131072x64_S64x2_S131072x2_1_0_0_1_n_n : DotDims S131072x64 S64x2 S131072x2 where
  lhsContracting := [1]
  rhsContracting := [0]
  lhsNonContracting := [0]
  rhsNonContracting := [1]
  lhsBatch := []
  rhsBatch := []
  wf := dot_S131072x64_S64x2_S131072x2_1_0_0_1_n_n_wf

class Facts : Prop extends Facts₀ where

variable [Facts]
-- ==== Proof.BlockBase.lean ====
/-
  The batch row a block holds at a local row.

  The grid has 256 points and the row-tiled windows hold 512 rows per point, so point `t`'s block holds at local row
  `p` the batch row `512 t + p`, which is below `131072 = 256 · 512`.
-/
import proofs.«153604_j15556371546759_2_alg».proof.Proof.Gen.KernelIdeal.Frame

noncomputable section

namespace Cert.Mesrnn.Arr

open Cert.KernelIdeal Cert.KernelIdeal.Gen Idealize.ShloMosaic

/-- The batch row at local row `p` of grid point `t`'s block. -/
def rowAt (t : Fin cfg0.N) (p : Fin 512) : Fin 131072 :=
  ⟨512 * t.val + p.val, by
    have ht := t.isLt
    have hN : cfg0.N = 256 := N_0
    have hp := p.isLt
    omega⟩

theorem rowAt_val (t : Fin cfg0.N) (p : Fin 512) : (rowAt t p).val = 512 * t.val + p.val := rfl

end Cert.Mesrnn.Arr

end
-- ==== Proof.BlockReads.lean ====
/-
  What each input window's block reads of its array, window by window.

  A window's block at grid point `t` sits at block index × block extent on each axis, and an element of the block at
  that offset plus its coordinate inside the block. The six row-tiled windows (positions, edge inputs and states, node
  states) are at block `t` on the row axis and block 0 elsewhere, so the block reads its array at batch row
  `512 t + p`; the fourteen parameter windows are at block 0 on every axis with the block as large as the array, so the
  block is the array. The index maps are decided over the 256 grid points.
-/
import proofs.«153604_j15556371546759_2_alg».proof.Proof.BlockBase
import Idealize.ShloMosaic.Lib.ValueIdx

noncomputable section

namespace Cert.Mesrnn.Arr

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Input window 0's index map over the grid (decided over the 256 points): block `t` on the row axis, block 0 elsewhere. -/
theorem ix_w0 : ∀ t : Fin cfg0.N, win0_0.index t (0 : Fin 2) = t.val ∧ win0_0.index t (1 : Fin 2) = 0 :=
  (by decide +kernel : ∀ t : Fin grid0.N, _)

/-- Input window 0's block at point `t` reads its array at batch row `512 t + p`. -/
theorem blk0 (c : Dev nD) (t : Fin cfg0.N) (p : Fin 512) (b : Fin 2) :
    iblk m c 0 t (ix2 p b) = V m c main_arg0 (ix2 (rowAt t p) b) := by
  obtain ⟨e0, e1⟩ := ix_w0 t
  show V m c main_arg0 (((cfg0.win 0).blk t).view.emb (ix2 p b)) = _
  refine congrArg (V m c main_arg0) (funext fun ax => Fin.ext ?_)
  match ax with
  | ⟨0, _⟩ => show win0_0.index t (0 : Fin 2) * 512 + 1 * p.val = 512 * t.val + p.val; omega
  | ⟨1, _⟩ => show win0_0.index t (1 : Fin 2) * 2 + 1 * b.val = b.val; omega

/-- Input window 1's index map over the grid (decided over the 256 points): block `t` on the row axis, block 0 elsewhere. -/
theorem ix_w1 : ∀ t : Fin cfg0.N, win0_1.index t (0 : Fin 3) = 0 ∧ win0_1.index t (1 : Fin 3) = t.val ∧ win0_1.index t (2 : Fin 3) = 0 :=
  (by decide +kernel : ∀ t : Fin grid0.N, _)

/-- Input window 1's block at point `t` reads its array at batch row `512 t + p`. -/
theorem blk1 (c : Dev nD) (t : Fin cfg0.N) (a : Fin 6) (p : Fin 512) (d : Fin 2) :
    iblk m c 1 t (ix3 a p d) = V m c main_arg1 (ix3 a (rowAt t p) d) := by
  obtain ⟨e0, e1, e2⟩ := ix_w1 t
  show V m c main_arg1 (((cfg0.win 1).blk t).view.emb (ix3 a p d)) = _
  refine congrArg (V m c main_arg1) (funext fun ax => Fin.ext ?_)
  match ax with
  | ⟨0, _⟩ => show win0_1.index t (0 : Fin 3) * 6 + 1 * a.val = a.val; omega
  | ⟨1, _⟩ => show win0_1.index t (1 : Fin 3) * 512 + 1 * p.val = 512 * t.val + p.val; omega
  | ⟨2, _⟩ => show win0_1.index t (2 : Fin 3) * 2 + 1 * d.val = d.val; omega

/-- Input window 2's index map over the grid (decided over the 256 points): block `t` on the row axis, block 0 elsewhere. -/
theorem ix_w2 : ∀ t : Fin cfg0.N, win0_2.index t (0 : Fin 3) = 0 ∧ win0_2.index t (1 : Fin 3) = t.val ∧ win0_2.index t (2 : Fin 3) = 0 :=
  (by decide +kernel : ∀ t : Fin grid0.N, _)

/-- Input window 2's block at point `t` reads its array at batch row `512 t + p`. -/
theorem blk2 (c : Dev nD) (t : Fin cfg0.N) (a : Fin 6) (p : Fin 512) (d : Fin 64) :
    iblk m c 2 t (ix3 a p d) = V m c main_arg2 (ix3 a (rowAt t p) d) := by
  obtain ⟨e0, e1, e2⟩ := ix_w2 t
  show V m c main_arg2 (((cfg0.win 2).blk t).view.emb (ix3 a p d)) = _
  refine congrArg (V m c main_arg2) (funext fun ax => Fin.ext ?_)
  match ax with
  | ⟨0, _⟩ => show win0_2.index t (0 : Fin 3) * 6 + 1 * a.val = a.val; omega
  | ⟨1, _⟩ => show win0_2.index t (1 : Fin 3) * 512 + 1 * p.val = 512 * t.val + p.val; omega
  | ⟨2, _⟩ => show win0_2.index t (2 : Fin 3) * 64 + 1 * d.val = d.val; omega

/-- Input window 3's index map over the grid (decided over the 256 points): block `t` on the row axis, block 0 elsewhere. -/
theorem ix_w3 : ∀ t : Fin cfg0.N, win0_3.index t (0 : Fin 3) = 0 ∧ win0_3.index t (1 : Fin 3) = t.val ∧ win0_3.index t (2 : Fin 3) = 0 :=
  (by decide +kernel : ∀ t : Fin grid0.N, _)

/-- Input window 3's block at point `t` reads its array at batch row `512 t + p`. -/
theorem blk3 (c : Dev nD) (t : Fin cfg0.N) (a : Fin 6) (p : Fin 512) (d : Fin 64) :
    iblk m c 3 t (ix3 a p d) = V m c main_arg3 (ix3 a (rowAt t p) d) := by
  obtain ⟨e0, e1, e2⟩ := ix_w3 t
  show V m c main_arg3 (((cfg0.win 3).blk t).view.emb (ix3 a p d)) = _
  refine congrArg (V m c main_arg3) (funext fun ax => Fin.ext ?_)
  match ax with
  | ⟨0, _⟩ => show win0_3.index t (0 : Fin 3) * 6 + 1 * a.val = a.val; omega
  | ⟨1, _⟩ => show win0_3.index t (1 : Fin 3) * 512 + 1 * p.val = 512 * t.val + p.val; omega
  | ⟨2, _⟩ => show win0_3.index t (2 : Fin 3) * 64 + 1 * d.val = d.val; omega

/-- Input window 4's index map over the grid (decided over the 256 points): block `t` on the row axis, block 0 elsewhere. -/
theorem ix_w4 : ∀ t : Fin cfg0.N, win0_4.index t (0 : Fin 2) = t.val ∧ win0_4.index t (1 : Fin 2) = 0 :=
  (by decide +kernel : ∀ t : Fin grid0.N, _)

/-- Input window 4's block at point `t` reads its array at batch row `512 t + p`. -/
theorem blk4 (c : Dev nD) (t : Fin cfg0.N) (p : Fin 512) (b : Fin 64) :
    iblk m c 4 t (ix2 p b) = V m c main_arg4 (ix2 (rowAt t p) b) := by
  obtain ⟨e0, e1⟩ := ix_w4 t
  show V m c main_arg4 (((cfg0.win 4).blk t).view.emb (ix2 p b)) = _
  refine congrArg (V m c main_arg4) (funext fun ax => Fin.ext ?_)
  match ax with
  | ⟨0, _⟩ => show win0_4.index t (0 : Fin 2) * 512 + 1 * p.val = 512 * t.val + p.val; omega
  | ⟨1, _⟩ => show win0_4.index t (1 : Fin 2) * 64 + 1 * b.val = b.val; omega

/-- Input window 5's index map over the grid (decided over the 256 points): block `t` on the row axis, block 0 elsewhere. -/
theorem ix_w5 : ∀ t : Fin cfg0.N, win0_5.index t (0 : Fin 2) = t.val ∧ win0_5.index t (1 : Fin 2) = 0 :=
  (by decide +kernel : ∀ t : Fin grid0.N, _)

/-- Input window 5's block at point `t` reads its array at batch row `512 t + p`. -/
theorem blk5 (c : Dev nD) (t : Fin cfg0.N) (p : Fin 512) (b : Fin 64) :
    iblk m c 5 t (ix2 p b) = V m c main_arg5 (ix2 (rowAt t p) b) := by
  obtain ⟨e0, e1⟩ := ix_w5 t
  show V m c main_arg5 (((cfg0.win 5).blk t).view.emb (ix2 p b)) = _
  refine congrArg (V m c main_arg5) (funext fun ax => Fin.ext ?_)
  match ax with
  | ⟨0, _⟩ => show win0_5.index t (0 : Fin 2) * 512 + 1 * p.val = 512 * t.val + p.val; omega
  | ⟨1, _⟩ => show win0_5.index t (1 : Fin 2) * 64 + 1 * b.val = b.val; omega

/-- Parameter window 6's index map is constantly zero over the grid (decided over the 256 points). -/
theorem ix_w6 : ∀ t : Fin cfg0.N, win0_6.index t (0 : Fin 3) = 0 ∧ win0_6.index t (1 : Fin 3) = 0 ∧ win0_6.index t (2 : Fin 3) = 0 :=
  (by decide +kernel : ∀ t : Fin grid0.N, _)

/-- Parameter window 6's block at every point is its whole array. -/
theorem blk6 (c : Dev nD) (t : Fin cfg0.N) : iblk m c 6 t = V m c main_arg6 := by
  obtain ⟨e0, e1, e2⟩ := ix_w6 t
  funext y
  show V m c main_arg6 (((cfg0.win 6).blk t).view.emb y) = V m c main_arg6 y
  refine congrArg (V m c main_arg6) (funext fun ax => Fin.ext ?_)
  match ax with
  | ⟨0, _⟩ => show win0_6.index t (0 : Fin 3) * 6 + 1 * (y 0).val = (y 0).val; omega
  | ⟨1, _⟩ => show win0_6.index t (1 : Fin 3) * 2 + 1 * (y 1).val = (y 1).val; omega
  | ⟨2, _⟩ => show win0_6.index t (2 : Fin 3) * 64 + 1 * (y 2).val = (y 2).val; omega

/-- Parameter window 7's index map is constantly zero over the grid (decided over the 256 points). -/
theorem ix_w7 : ∀ t : Fin cfg0.N, win0_7.index t (0 : Fin 2) = 0 ∧ win0_7.index t (1 : Fin 2) = 0 :=
  (by decide +kernel : ∀ t : Fin grid0.N, _)

/-- Parameter window 7's block at every point is its whole array. -/
theorem blk7 (c : Dev nD) (t : Fin cfg0.N) : iblk m c 7 t = V m c main_arg7 := by
  obtain ⟨e0, e1⟩ := ix_w7 t
  funext y
  show V m c main_arg7 (((cfg0.win 7).blk t).view.emb y) = V m c main_arg7 y
  refine congrArg (V m c main_arg7) (funext fun ax => Fin.ext ?_)
  match ax with
  | ⟨0, _⟩ => show win0_7.index t (0 : Fin 2) * 6 + 1 * (y 0).val = (y 0).val; omega
  | ⟨1, _⟩ => show win0_7.index t (1 : Fin 2) * 64 + 1 * (y 1).val = (y 1).val; omega

/-- Parameter window 8's index map is constantly zero over the grid (decided over the 256 points). -/
theorem ix_w8 : ∀ t : Fin cfg0.N, win0_8.index t (0 : Fin 3) = 0 ∧ win0_8.index t (1 : Fin 3) = 0 ∧ win0_8.index t (2 : Fin 3) = 0 :=
  (by decide +kernel : ∀ t : Fin grid0.N, _)

/-- Parameter window 8's block at every point is its whole array. -/
theorem blk8 (c : Dev nD) (t : Fin cfg0.N) : iblk m c 8 t = V m c main_arg8 := by
  obtain ⟨e0, e1, e2⟩ := ix_w8 t
  funext y
  show V m c main_arg8 (((cfg0.win 8).blk t).view.emb y) = V m c main_arg8 y
  refine congrArg (V m c main_arg8) (funext fun ax => Fin.ext ?_)
  match ax with
  | ⟨0, _⟩ => show win0_8.index t (0 : Fin 3) * 6 + 1 * (y 0).val = (y 0).val; omega
  | ⟨1, _⟩ => show win0_8.index t (1 : Fin 3) * 256 + 1 * (y 1).val = (y 1).val; omega
  | ⟨2, _⟩ => show win0_8.index t (2 : Fin 3) * 64 + 1 * (y 2).val = (y 2).val; omega

/-- Parameter window 9's index map is constantly zero over the grid (decided over the 256 points). -/
theorem ix_w9 : ∀ t : Fin cfg0.N, win0_9.index t (0 : Fin 3) = 0 ∧ win0_9.index t (1 : Fin 3) = 0 ∧ win0_9.index t (2 : Fin 3) = 0 :=
  (by decide +kernel : ∀ t : Fin grid0.N, _)

/-- Parameter window 9's block at every point is its whole array. -/
theorem blk9 (c : Dev nD) (t : Fin cfg0.N) : iblk m c 9 t = V m c main_arg9 := by
  obtain ⟨e0, e1, e2⟩ := ix_w9 t
  funext y
  show V m c main_arg9 (((cfg0.win 9).blk t).view.emb y) = V m c main_arg9 y
  refine congrArg (V m c main_arg9) (funext fun ax => Fin.ext ?_)
  match ax with
  | ⟨0, _⟩ => show win0_9.index t (0 : Fin 3) * 6 + 1 * (y 0).val = (y 0).val; omega
  | ⟨1, _⟩ => show win0_9.index t (1 : Fin 3) * 256 + 1 * (y 1).val = (y 1).val; omega
  | ⟨2, _⟩ => show win0_9.index t (2 : Fin 3) * 64 + 1 * (y 2).val = (y 2).val; omega

/-- Parameter window 10's index map is constantly zero over the grid (decided over the 256 points). -/
theorem ix_w10 : ∀ t : Fin cfg0.N, win0_10.index t (0 : Fin 2) = 0 ∧ win0_10.index t (1 : Fin 2) = 0 :=
  (by decide +kernel : ∀ t : Fin grid0.N, _)

/-- Parameter window 10's block at every point is its whole array. -/
theorem blk10 (c : Dev nD) (t : Fin cfg0.N) : iblk m c 10 t = V m c main_arg10 := by
  obtain ⟨e0, e1⟩ := ix_w10 t
  funext y
  show V m c main_arg10 (((cfg0.win 10).blk t).view.emb y) = V m c main_arg10 y
  refine congrArg (V m c main_arg10) (funext fun ax => Fin.ext ?_)
  match ax with
  | ⟨0, _⟩ => show win0_10.index t (0 : Fin 2) * 6 + 1 * (y 0).val = (y 0).val; omega
  | ⟨1, _⟩ => show win0_10.index t (1 : Fin 2) * 256 + 1 * (y 1).val = (y 1).val; omega

/-- Parameter window 11's index map is constantly zero over the grid (decided over the 256 points). -/
theorem ix_w11 : ∀ t : Fin cfg0.N, win0_11.index t (0 : Fin 2) = 0 ∧ win0_11.index t (1 : Fin 2) = 0 :=
  (by decide +kernel : ∀ t : Fin grid0.N, _)

/-- Parameter window 11's block at every point is its whole array. -/
theorem blk11 (c : Dev nD) (t : Fin cfg0.N) : iblk m c 11 t = V m c main_arg11 := by
  obtain ⟨e0, e1⟩ := ix_w11 t
  funext y
  show V m c main_arg11 (((cfg0.win 11).blk t).view.emb y) = V m c main_arg11 y
  refine congrArg (V m c main_arg11) (funext fun ax => Fin.ext ?_)
  match ax with
  | ⟨0, _⟩ => show win0_11.index t (0 : Fin 2) * 6 + 1 * (y 0).val = (y 0).val; omega
  | ⟨1, _⟩ => show win0_11.index t (1 : Fin 2) * 256 + 1 * (y 1).val = (y 1).val; omega

/-- Parameter window 12's index map is constantly zero over the grid (decided over the 256 points). -/
theorem ix_w12 : ∀ t : Fin cfg0.N, win0_12.index t (0 : Fin 2) = 0 ∧ win0_12.index t (1 : Fin 2) = 0 :=
  (by decide +kernel : ∀ t : Fin grid0.N, _)

/-- Parameter window 12's block at every point is its whole array. -/
theorem blk12 (c : Dev nD) (t : Fin cfg0.N) : iblk m c 12 t = V m c main_arg12 := by
  obtain ⟨e0, e1⟩ := ix_w12 t
  funext y
  show V m c main_arg12 (((cfg0.win 12).blk t).view.emb y) = V m c main_arg12 y
  refine congrArg (V m c main_arg12) (funext fun ax => Fin.ext ?_)
  match ax with
  | ⟨0, _⟩ => show win0_12.index t (0 : Fin 2) * 2 + 1 * (y 0).val = (y 0).val; omega
  | ⟨1, _⟩ => show win0_12.index t (1 : Fin 2) * 64 + 1 * (y 1).val = (y 1).val; omega

/-- Parameter window 13's index map is constantly zero over the grid (decided over the 256 points). -/
theorem ix_w13 : ∀ t : Fin cfg0.N, win0_13.index t (0 : Fin 1) = 0 :=
  (by decide +kernel : ∀ t : Fin grid0.N, _)

/-- Parameter window 13's block at every point is its whole array. -/
theorem blk13 (c : Dev nD) (t : Fin cfg0.N) : iblk m c 13 t = V m c main_arg13 := by
  have e0 := ix_w13 t
  funext y
  show V m c main_arg13 (((cfg0.win 13).blk t).view.emb y) = V m c main_arg13 y
  refine congrArg (V m c main_arg13) (funext fun ax => Fin.ext ?_)
  match ax with
  | ⟨0, _⟩ => show win0_13.index t (0 : Fin 1) * 64 + 1 * (y 0).val = (y 0).val; omega

/-- Parameter window 14's index map is constantly zero over the grid (decided over the 256 points). -/
theorem ix_w14 : ∀ t : Fin cfg0.N, win0_14.index t (0 : Fin 2) = 0 ∧ win0_14.index t (1 : Fin 2) = 0 :=
  (by decide +kernel : ∀ t : Fin grid0.N, _)

/-- Parameter window 14's block at every point is its whole array. -/
theorem blk14 (c : Dev nD) (t : Fin cfg0.N) : iblk m c 14 t = V m c main_arg14 := by
  obtain ⟨e0, e1⟩ := ix_w14 t
  funext y
  show V m c main_arg14 (((cfg0.win 14).blk t).view.emb y) = V m c main_arg14 y
  refine congrArg (V m c main_arg14) (funext fun ax => Fin.ext ?_)
  match ax with
  | ⟨0, _⟩ => show win0_14.index t (0 : Fin 2) * 256 + 1 * (y 0).val = (y 0).val; omega
  | ⟨1, _⟩ => show win0_14.index t (1 : Fin 2) * 448 + 1 * (y 1).val = (y 1).val; omega

/-- Parameter window 15's index map is constantly zero over the grid (decided over the 256 points). -/
theorem ix_w15 : ∀ t : Fin cfg0.N, win0_15.index t (0 : Fin 2) = 0 ∧ win0_15.index t (1 : Fin 2) = 0 :=
  (by decide +kernel : ∀ t : Fin grid0.N, _)

/-- Parameter window 15's block at every point is its whole array. -/
theorem blk15 (c : Dev nD) (t : Fin cfg0.N) : iblk m c 15 t = V m c main_arg15 := by
  obtain ⟨e0, e1⟩ := ix_w15 t
  funext y
  show V m c main_arg15 (((cfg0.win 15).blk t).view.emb y) = V m c main_arg15 y
  refine congrArg (V m c main_arg15) (funext fun ax => Fin.ext ?_)
  match ax with
  | ⟨0, _⟩ => show win0_15.index t (0 : Fin 2) * 256 + 1 * (y 0).val = (y 0).val; omega
  | ⟨1, _⟩ => show win0_15.index t (1 : Fin 2) * 64 + 1 * (y 1).val = (y 1).val; omega

/-- Parameter window 16's index map is constantly zero over the grid (decided over the 256 points). -/
theorem ix_w16 : ∀ t : Fin cfg0.N, win0_16.index t (0 : Fin 1) = 0 :=
  (by decide +kernel : ∀ t : Fin grid0.N, _)

/-- Parameter window 16's block at every point is its whole array. -/
theorem blk16 (c : Dev nD) (t : Fin cfg0.N) : iblk m c 16 t = V m c main_arg16 := by
  have e0 := ix_w16 t
  funext y
  show V m c main_arg16 (((cfg0.win 16).blk t).view.emb y) = V m c main_arg16 y
  refine congrArg (V m c main_arg16) (funext fun ax => Fin.ext ?_)
  match ax with
  | ⟨0, _⟩ => show win0_16.index t (0 : Fin 1) * 256 + 1 * (y 0).val = (y 0).val; omega

/-- Parameter window 17's index map is constantly zero over the grid (decided over the 256 points). -/
theorem ix_w17 : ∀ t : Fin cfg0.N, win0_17.index t (0 : Fin 1) = 0 :=
  (by decide +kernel : ∀ t : Fin grid0.N, _)

/-- Parameter window 17's block at every point is its whole array. -/
theorem blk17 (c : Dev nD) (t : Fin cfg0.N) : iblk m c 17 t = V m c main_arg17 := by
  have e0 := ix_w17 t
  funext y
  show V m c main_arg17 (((cfg0.win 17).blk t).view.emb y) = V m c main_arg17 y
  refine congrArg (V m c main_arg17) (funext fun ax => Fin.ext ?_)
  match ax with
  | ⟨0, _⟩ => show win0_17.index t (0 : Fin 1) * 256 + 1 * (y 0).val = (y 0).val; omega

/-- Parameter window 18's index map is constantly zero over the grid (decided over the 256 points). -/
theorem ix_w18 : ∀ t : Fin cfg0.N, win0_18.index t (0 : Fin 2) = 0 ∧ win0_18.index t (1 : Fin 2) = 0 :=
  (by decide +kernel : ∀ t : Fin grid0.N, _)

/-- Parameter window 18's block at every point is its whole array. -/
theorem blk18 (c : Dev nD) (t : Fin cfg0.N) : iblk m c 18 t = V m c main_arg18 := by
  obtain ⟨e0, e1⟩ := ix_w18 t
  funext y
  show V m c main_arg18 (((cfg0.win 18).blk t).view.emb y) = V m c main_arg18 y
  refine congrArg (V m c main_arg18) (funext fun ax => Fin.ext ?_)
  match ax with
  | ⟨0, _⟩ => show win0_18.index t (0 : Fin 2) * 64 + 1 * (y 0).val = (y 0).val; omega
  | ⟨1, _⟩ => show win0_18.index t (1 : Fin 2) * 2 + 1 * (y 1).val = (y 1).val; omega

/-- Parameter window 19's index map is constantly zero over the grid (decided over the 256 points). -/
theorem ix_w19 : ∀ t : Fin cfg0.N, win0_19.index t (0 : Fin 1) = 0 :=
  (by decide +kernel : ∀ t : Fin grid0.N, _)

/-- Parameter window 19's block at every point is its whole array. -/
theorem blk19 (c : Dev nD) (t : Fin cfg0.N) : iblk m c 19 t = V m c main_arg19 := by
  have e0 := ix_w19 t
  funext y
  show V m c main_arg19 (((cfg0.win 19).blk t).view.emb y) = V m c main_arg19 y
  refine congrArg (V m c main_arg19) (funext fun ax => Fin.ext ?_)
  match ax with
  | ⟨0, _⟩ => show win0_19.index t (0 : Fin 1) * 2 + 1 * (y 0).val = (y 0).val; omega

end Cert.Mesrnn.Arr

end
-- ==== Proof.Cell.lean ====
/-
  The mathematics both programs compute, row by row, over the extended reals.

  A row `n` of the batch carries a position (2 numbers), six edge inputs (2 numbers each), six edge hidden and cell
  states (64 numbers each) and a node hidden and cell state (64 each). For each edge type `e` an embedding
  `tanh (x · W_e + b_e)` feeds an LSTM cell whose 256 gate pre-activations are
  `((emb · Wih_eᵀ + h · Whh_eᵀ) + bih_e) + bhh_e`; the four gate groups sit at columns `j`, `64 + j`, `128 + j`,
  `192 + j` (input, forget, candidate, output) and give `c' = σ(f) · c + σ(i) · tanh(g)`, `h' = σ(o) · tanh(c')`.
  The node cell is the same cell on the 448-long row `[node embedding | h'_0 | … | h'_5]`, and the new position is
  `pos + tanh (h'_node · W_dec + b_dec)`. Nothing here mentions a program: the accessors of a row and of the
  parameters are plain functions, so the same definitions read a whole array at a row and a block at a local row.
-/
import Idealize.ShloMosaic.PureOps.Ideal
import Idealize.ShloMosaic.Lib.ValueIdx

noncomputable section

namespace Cert.Mesrnn

open Idealize.ShloMosaic Idealize.ShloMosaic.ValueIdx

/-- `tanh (Σ_k x_k · w_k + b)`: one entry of an embedding or of the decoder. -/
def affineTanh {K : ℕ} (x w : Fin K → EReal) (b : EReal) : EReal := Ideal.tanh ((∑ k, x k * w k) + b)

/-- One gate pre-activation: `((Σ_k a_k · wih_k + Σ_k h_k · whh_k) + bih) + bhh`, grouped as both programs group it. -/
def gate {K : ℕ} (a wih : Fin K → EReal) (h whh : Fin 64 → EReal) (bih bhh : EReal) : EReal :=
  (((∑ k, a k * wih k) + (∑ k, h k * whh k)) + bih) + bhh

/-- The new cell state from the input, forget and candidate pre-activations and the old state. -/
def cellC (gi gf gg c : EReal) : EReal := Ideal.logistic gf * c + Ideal.logistic gi * Ideal.tanh gg

/-- The new hidden state from the output pre-activation and the new cell state. -/
def cellH (go c1 : EReal) : EReal := Ideal.logistic go * Ideal.tanh c1

/-- Column `o + j` of the 256 gate columns, for a group offset `o ≤ 192`. -/
def col (o : ℕ) (ho : o + 64 ≤ 256) (j : Fin 64) : Fin 256 := ⟨o + j.val, by have := j.isLt; omega⟩

/-- The 448-long input row of the node cell: the node embedding, then the six new edge hidden rows in edge-type order. -/
def catRow (a : Fin 64 → EReal) (hs : Fin 6 → Fin 64 → EReal) (k : Fin 448) : EReal :=
  if h : k.val < 64 then a ⟨k.val, h⟩
  else hs ⟨(k.val - 64) / 64, by have := k.isLt; omega⟩ ⟨(k.val - 64) % 64, Nat.mod_lt _ (by decide)⟩

/-- The parameters, each as a function of its coordinates. -/
structure Params where
  eembw : Fin 6 → Fin 2 → Fin 64 → EReal
  eembb : Fin 6 → Fin 64 → EReal
  ewih : Fin 6 → Fin 256 → Fin 64 → EReal
  ewhh : Fin 6 → Fin 256 → Fin 64 → EReal
  ebih : Fin 6 → Fin 256 → EReal
  ebhh : Fin 6 → Fin 256 → EReal
  nembw : Fin 2 → Fin 64 → EReal
  nembb : Fin 64 → EReal
  nwih : Fin 256 → Fin 448 → EReal
  nwhh : Fin 256 → Fin 64 → EReal
  nbih : Fin 256 → EReal
  nbhh : Fin 256 → EReal
  decw : Fin 64 → Fin 2 → EReal
  decb : Fin 2 → EReal

/-- What one row of the batch carries in. -/
structure Row where
  pos : Fin 2 → EReal
  ein : Fin 6 → Fin 2 → EReal
  eh : Fin 6 → Fin 64 → EReal
  ec : Fin 6 → Fin 64 → EReal
  nh : Fin 64 → EReal
  nc : Fin 64 → EReal

variable (P : Params) (R : Row)

/-- Edge type `e`'s embedding of the row's edge input. -/
def edgeEmb (e : Fin 6) (k : Fin 64) : EReal := affineTanh (R.ein e) (fun i => P.eembw e i k) (P.eembb e k)

/-- Edge type `e`'s gate pre-activation at column `q`. -/
def edgeGate (e : Fin 6) (q : Fin 256) : EReal :=
  gate (edgeEmb P R e) (P.ewih e q) (R.eh e) (P.ewhh e q) (P.ebih e q) (P.ebhh e q)

/-- Edge type `e`'s new cell state. -/
def edgeC1 (e : Fin 6) (j : Fin 64) : EReal :=
  cellC (edgeGate P R e (col 0 (by decide) j)) (edgeGate P R e (col 64 (by decide) j))
    (edgeGate P R e (col 128 (by decide) j)) (R.ec e j)

/-- Edge type `e`'s new hidden state. -/
def edgeH1 (e : Fin 6) (j : Fin 64) : EReal := cellH (edgeGate P R e (col 192 (by decide) j)) (edgeC1 P R e j)

/-- The node's embedding of the row's position. -/
def nodeEmb (k : Fin 64) : EReal := affineTanh R.pos (fun i => P.nembw i k) (P.nembb k)

/-- The node cell's gate pre-activation at column `q`, over the concatenated row. -/
def nodeGate (q : Fin 256) : EReal :=
  gate (catRow (nodeEmb P R) (edgeH1 P R)) (P.nwih q) R.nh (P.nwhh q) (P.nbih q) (P.nbhh q)

/-- The node's new cell state. -/
def nodeC1 (j : Fin 64) : EReal :=
  cellC (nodeGate P R (col 0 (by decide) j)) (nodeGate P R (col 64 (by decide) j))
    (nodeGate P R (col 128 (by decide) j)) (R.nc j)

/-- The node's new hidden state. -/
def nodeH1 (j : Fin 64) : EReal := cellH (nodeGate P R (col 192 (by decide) j)) (nodeC1 P R j)

/-- The row's new position. -/
def outPos (d : Fin 2) : EReal := R.pos d + affineTanh (nodeH1 P R) (fun k => P.decw k d) (P.decb d)

/-! ## Rows and parameters read off arrays

An array of `N` rows (the whole batch, `N = 131072`, or one block of it, `N = 512`) gives the row at `n`; the
parameter arrays are read whole. -/

/-- An `[a]`, `[a, b]`, `[a, b, c]` array of extended reals. -/
abbrev A1 (a : ℕ) := FVec Ideal ⟨1, ![a]⟩ .f32
abbrev A2 (a b : ℕ) := FVec Ideal ⟨2, ![a, b]⟩ .f32
abbrev A3 (a b c : ℕ) := FVec Ideal ⟨3, ![a, b, c]⟩ .f32

/-- Row `n` of arrays with `N` rows: position, edge inputs, edge hidden and cell states, node hidden and cell state. -/
def rowOf {N : ℕ} (X0 : A2 N 2) (X1 : A3 6 N 2) (X2 X3 : A3 6 N 64) (X4 X5 : A2 N 64) (n : Fin N) : Row where
  pos := fun d => X0 (ix2 n d)
  ein := fun e i => X1 (ix3 e n i)
  eh := fun e k => X2 (ix3 e n k)
  ec := fun e k => X3 (ix3 e n k)
  nh := fun k => X4 (ix2 n k)
  nc := fun k => X5 (ix2 n k)

/-- The parameters read off their arrays (the recurrent weights are stored `[gate column, input]`). -/
def paramsOf (X6 : A3 6 2 64) (X7 : A2 6 64) (X8 X9 : A3 6 256 64) (X10 X11 : A2 6 256) (X12 : A2 2 64) (X13 : A1 64)
    (X14 : A2 256 448) (X15 : A2 256 64) (X16 X17 : A1 256) (X18 : A2 64 2) (X19 : A1 2) : Params where
  eembw := fun e i k => X6 (ix3 e i k)
  eembb := fun e k => X7 (ix2 e k)
  ewih := fun e q k => X8 (ix3 e q k)
  ewhh := fun e q k => X9 (ix3 e q k)
  ebih := fun e q => X10 (ix2 e q)
  ebhh := fun e q => X11 (ix2 e q)
  nembw := fun i k => X12 (ix2 i k)
  nembb := fun k => X13 (ix1 k)
  nwih := fun q k => X14 (ix2 q k)
  nwhh := fun q k => X15 (ix2 q k)
  nbih := fun q => X16 (ix1 q)
  nbhh := fun q => X17 (ix1 q)
  decw := fun k d => X18 (ix2 k d)
  decb := fun d => X19 (ix1 d)

end Cert.Mesrnn

end
-- ==== Proof.Spec.lean ====
/-
  The five results as whole-array functions of the twenty argument arrays: at an index, the specification's value for
  that index's row of the batch (and, for the edge arrays, its edge type).
-/
import proofs.«153604_j15556371546759_2_alg».proof.Proof.Cell

noncomputable section

namespace Cert.Mesrnn

open Idealize.ShloMosaic Idealize.ShloMosaic.ValueIdx

variable (X0 : A2 131072 2) (X1 : A3 6 131072 2) (X2 X3 : A3 6 131072 64) (X4 X5 : A2 131072 64)
  (X6 : A3 6 2 64) (X7 : A2 6 64) (X8 X9 : A3 6 256 64) (X10 X11 : A2 6 256) (X12 : A2 2 64) (X13 : A1 64)
  (X14 : A2 256 448) (X15 : A2 256 64) (X16 X17 : A1 256) (X18 : A2 64 2) (X19 : A1 2)

/-- The new positions, `[131072, 2]`. -/
def GPos : A2 131072 2 := fun i =>
  outPos (paramsOf X6 X7 X8 X9 X10 X11 X12 X13 X14 X15 X16 X17 X18 X19) (rowOf X0 X1 X2 X3 X4 X5 (i 0)) (i 1)

/-- The new edge hidden states, `[6, 131072, 64]`. -/
def GEdgeH : A3 6 131072 64 := fun i =>
  edgeH1 (paramsOf X6 X7 X8 X9 X10 X11 X12 X13 X14 X15 X16 X17 X18 X19) (rowOf X0 X1 X2 X3 X4 X5 (i 1)) (i 0) (i 2)

/-- The new edge cell states, `[6, 131072, 64]`. -/
def GEdgeC : A3 6 131072 64 := fun i =>
  edgeC1 (paramsOf X6 X7 X8 X9 X10 X11 X12 X13 X14 X15 X16 X17 X18 X19) (rowOf X0 X1 X2 X3 X4 X5 (i 1)) (i 0) (i 2)

/-- The new node hidden states, `[131072, 64]`. -/
def GNodeH : A2 131072 64 := fun i =>
  nodeH1 (paramsOf X6 X7 X8 X9 X10 X11 X12 X13 X14 X15 X16 X17 X18 X19) (rowOf X0 X1 X2 X3 X4 X5 (i 0)) (i 1)

/-- The new node cell states, `[131072, 64]`. -/
def GNodeC : A2 131072 64 := fun i =>
  nodeC1 (paramsOf X6 X7 X8 X9 X10 X11 X12 X13 X14 X15 X16 X17 X18 X19) (rowOf X0 X1 X2 X3 X4 X5 (i 0)) (i 1)

end Cert.Mesrnn

end
-- ==== Proof.KernelBlocks.lean ====
/-
  What a grid point's blocks hold, in the specification's terms.

  At grid point `t` the body finds in its input buffers the blocks of the argument arrays: rows `512 t + p` of the
  row-tiled arrays and the parameter arrays whole. So the parameters read off the blocks are the arrays' own, and the
  row the blocks hold at local row `p` is batch row `512 t + p`.
-/
import proofs.«153604_j15556371546759_2_alg».proof.Proof.BlockReads
import proofs.«153604_j15556371546759_2_alg».proof.Proof.Spec

noncomputable section

namespace Cert.Mesrnn.Arr

open Cert.KernelIdeal Cert.KernelIdeal.Gen Idealize.ShloMosaic Idealize.ShloMosaic.TcCoe Idealize.SL.Sem Idealize.ShloMosaic.ValueIdx
open Cert.Mesrnn

variable (m : (ℓ : Loc nD τ sig) → Buf (Elt Ideal) ℓ)

/-- The parameters read off the blocks at any point are the parameters read off the arrays. -/
theorem params_blk (c : Dev nD) (t : Fin cfg0.N) :
    paramsOf (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) = paramsOf (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) := by
  rw [blk6 m c t, blk7 m c t, blk8 m c t, blk9 m c t, blk10 m c t, blk11 m c t, blk12 m c t, blk13 m c t, blk14 m c t, blk15 m c t,
    blk16 m c t, blk17 m c t, blk18 m c t, blk19 m c t]

/-- The row a block holds at local row `p` is batch row `512 t + p` of the arrays. -/
theorem row_blk (c : Dev nD) (t : Fin cfg0.N) (p : Fin 512) :
    rowOf (iblk m c 0 t) (iblk m c 1 t) (iblk m c 2 t) (iblk m c 3 t) (iblk m c 4 t) (iblk m c 5 t) p = rowOf (V m c main_arg0) (V m c main_arg1) (V m c main_arg2) (V m c main_arg3) (V m c main_arg4) (V m c main_arg5) (rowAt t p) := by
  unfold rowOf
  simp only [blk0 m c t, blk1 m c t, blk2 m c t, blk3 m c t, blk4 m c t, blk5 m c t]

end Cert.Mesrnn.Arr

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.CellVec.lean ====
/-
  The kernel's arithmetic on one block, as vector operations, read at an index.

  On a block of 512 rows the body computes, for each edge type, an embedding (a product with a `[2, 64]` matrix into a
  zero accumulator, a broadcast bias, tanh), the 256 gate columns (two products with transposed `[256, 64]` weights,
  two broadcast biases), and the new cell and hidden states from four 64-column slices of the gates; the node cell is
  the same over the 448-column concatenation, and the new position adds a tanh of one more product. Each of these is
  stated here once as a vector term (at any float instance) and read at `(p, j)` at the extended reals as the scalar
  formula of the specification: a product into the zero splat is the plain sum over the contracted coordinate, a
  `[1, b] → [a, b]` broadcast reads its one row, a column slice at offset `o` reads column `o + j`. The glue between
  the body's loads and these terms (a load through a one-slab rectangle at slab `e`, a unit axis dropped, a transpose)
  is read at an index here too.
-/
import proofs.«153604_j15556371546759_2_alg».proof.Proof.Gen.KernelIdeal
import proofs.«153604_j15556371546759_2_alg».proof.Proof.Cell
import proofs.«153604_j15556371546759_2_alg».proof.Proof.LibPlainMatmul
import Idealize.ShloMosaic.Lib.ValueLayout
import Idealize.ShloMosaic.Lib.Pipeline.Value
import Idealize.ShloMosaic.PureOps.Ideal.Laws

noncomputable section

namespace Cert.Mesrnn.Vec

open Cert.KernelIdeal Cert.KernelIdeal.Facts₀ Cert.KernelIdeal.Facts Idealize.ShloMosaic Idealize.ShloMosaic.ValueIdx Cert.Mesrnn

variable {F : FTy → Type} [FloatOps F]

/-! ## The block-level terms -/

/-- `tanh (x · w + b)` on a block, the bias given as its one-row form. -/
def embV (x : FVec F S512x2 .f32) (w : FVec F S2x64 .f32) (b1 : FVec F S1x64 .f32) : FVec F S512x64 .f32 :=
  tanh (addf (matmul dot_S512x2_S2x64_S512x64_1_0_0_1_n_n none x w (constant S512x64 .f32 0x00000000#32))
    (broadcastTo S512x64 b1 broadcasts_S1x64_S512x64))

/-- The 256 gate columns of an edge cell: `((a · wihT + h · whhT) + bih) + bhh`, the weights already transposed. -/
def gatesV (a h : FVec F S512x64 .f32) (wihT whhT : FVec F S64x256 .f32) (bih1 bhh1 : FVec F S1x256 .f32) :
    FVec F S512x256 .f32 :=
  addf (addf (addf (matmul dot_S512x64_S64x256_S512x256_1_0_0_1_n_n none a wihT (constant S512x256 .f32 0x00000000#32))
        (matmul dot_S512x64_S64x256_S512x256_1_0_0_1_n_n none h whhT (constant S512x256 .f32 0x00000000#32)))
      (broadcastTo S512x256 bih1 broadcasts_S1x256_S512x256))
    (broadcastTo S512x256 bhh1 broadcasts_S1x256_S512x256)

/-- The same for the node cell, whose input row has 448 columns. -/
def gatesNV (a : FVec F S512x448 .f32) (h : FVec F S512x64 .f32) (wihT : FVec F S448x256 .f32) (whhT : FVec F S64x256 .f32)
    (bih1 bhh1 : FVec F S1x256 .f32) : FVec F S512x256 .f32 :=
  addf (addf (addf (matmul dot_S512x448_S448x256_S512x256_1_0_0_1_n_n none a wihT (constant S512x256 .f32 0x00000000#32))
        (matmul dot_S512x64_S64x256_S512x256_1_0_0_1_n_n none h whhT (constant S512x256 .f32 0x00000000#32)))
      (broadcastTo S512x256 bih1 broadcasts_S1x256_S512x256))
    (broadcastTo S512x256 bhh1 broadcasts_S1x256_S512x256)

/-- The new cell state: `σ(f) · c + σ(i) · tanh(g)` from the gate columns' slices at 64, 0 and 128. -/
def c1V (g : FVec F S512x256 .f32) (c : FVec F S512x64 .f32) : FVec F S512x64 .f32 :=
  addf (mulf (logistic (extractStridedSlice S512x64 ![0, 64] g slices_S512x256_o0_64_S512x64)) c)
    (mulf (logistic (extractStridedSlice S512x64 ![0, 0] g slices_S512x256_o0_0_S512x64))
      (tanh (extractStridedSlice S512x64 ![0, 128] g slices_S512x256_o0_128_S512x64)))

/-- The new hidden state: `σ(o) · tanh(c')`, the output gate the slice at 192. -/
def h1V (g : FVec F S512x256 .f32) (c : FVec F S512x64 .f32) : FVec F S512x64 .f32 :=
  mulf (logistic (extractStridedSlice S512x64 ![0, 192] g slices_S512x256_o0_192_S512x64)) (tanh (c1V g c))

/-- The node cell's input: the node embedding and the six new edge hidden blocks side by side. -/
def catV (a h0 h1 h2 h3 h4 h5 : FVec F S512x64 .f32) : FVec F S512x448 .f32 :=
  concatenate S512x448 1 [⟨S512x64, a⟩, ⟨S512x64, h0⟩, ⟨S512x64, h1⟩, ⟨S512x64, h2⟩, ⟨S512x64, h3⟩, ⟨S512x64, h4⟩, ⟨S512x64, h5⟩]
    concatenates_S512x64_S512x64_S512x64_S512x64_S512x64_S512x64_S512x64_S512x448_d1

/-- The new position: `x + tanh (h · w + b)`. -/
def posV (x0 : FVec F S512x2 .f32) (h : FVec F S512x64 .f32) (w : FVec F S64x2 .f32) (b1 : FVec F S1x2 .f32) : FVec F S512x2 .f32 :=
  addf x0 (tanh (addf (matmul dot_S512x64_S64x2_S512x2_1_0_0_1_n_n none h w (constant S512x2 .f32 0x00000000#32))
    (broadcastTo S512x2 b1 broadcasts_S1x2_S512x2)))

/-! ## The four products at an index -/

theorem tanh_apply {s : Shape} {φ : FTy} (x : FVec Ideal s φ) (i : s.Idx) : tanh x i = Ideal.tanh (x i) := rfl
theorem logistic_apply {s : Shape} {φ : FTy} (x : FVec Ideal s φ) (i : s.Idx) : logistic x i = Ideal.logistic (x i) := rfl

/-- `[512, 2] · [2, 64]` into zero at `(p, j)`. -/
theorem dotA_at (lhs : FVec Ideal S512x2 .f32) (rhs : FVec Ideal S2x64 .f32) (p : Fin 512) (j : Fin 64) :
    matmul dot_S512x2_S2x64_S512x64_1_0_0_1_n_n none lhs rhs (constant S512x64 .f32 0x00000000#32) (ix2 p j)
      = ∑ k : Fin 2, lhs (ix2 p k) * rhs (ix2 k j) :=
  Cert.LibPlainMatmul.matmul_zero_at dot_S512x2_S2x64_S512x64_1_0_0_1_n_n none rfl rfl
    (fun i q => by
      unfold DotDims.lhsIdx
      rw [dif_neg (show ¬(0 : Fin S512x2.rank) ∈ dot_S512x2_S2x64_S512x64_1_0_0_1_n_n.lhsBatch by decide), dif_pos (show (0 : Fin S512x2.rank) ∈ dot_S512x2_S2x64_S512x64_1_0_0_1_n_n.lhsNonContracting by decide)]
      rfl)
    (fun i q => dot_S512x2_S2x64_S512x64_1_0_0_1_n_n.lhsIdx_val_of_single rfl i q)
    (fun i q => dot_S512x2_S2x64_S512x64_1_0_0_1_n_n.rhsIdx_val_of_single rfl i q)
    (fun i q => by
      unfold DotDims.rhsIdx
      rw [dif_neg (show ¬(1 : Fin S2x64.rank) ∈ dot_S512x2_S2x64_S512x64_1_0_0_1_n_n.rhsBatch by decide), dif_pos (show (1 : Fin S2x64.rank) ∈ dot_S512x2_S2x64_S512x64_1_0_0_1_n_n.rhsNonContracting by decide)]
      rfl)
    lhs rhs p j

/-- `[512, 64] · [64, 256]` into zero at `(p, q)`. -/
theorem dotB_at (lhs : FVec Ideal S512x64 .f32) (rhs : FVec Ideal S64x256 .f32) (p : Fin 512) (q : Fin 256) :
    matmul dot_S512x64_S64x256_S512x256_1_0_0_1_n_n none lhs rhs (constant S512x256 .f32 0x00000000#32) (ix2 p q)
      = ∑ k : Fin 64, lhs (ix2 p k) * rhs (ix2 k q) :=
  Cert.LibPlainMatmul.matmul_zero_at dot_S512x64_S64x256_S512x256_1_0_0_1_n_n none rfl rfl
    (fun i r => by
      unfold DotDims.lhsIdx
      rw [dif_neg (show ¬(0 : Fin S512x64.rank) ∈ dot_S512x64_S64x256_S512x256_1_0_0_1_n_n.lhsBatch by decide), dif_pos (show (0 : Fin S512x64.rank) ∈ dot_S512x64_S64x256_S512x256_1_0_0_1_n_n.lhsNonContracting by decide)]
      rfl)
    (fun i r => dot_S512x64_S64x256_S512x256_1_0_0_1_n_n.lhsIdx_val_of_single rfl i r)
    (fun i r => dot_S512x64_S64x256_S512x256_1_0_0_1_n_n.rhsIdx_val_of_single rfl i r)
    (fun i r => by
      unfold DotDims.rhsIdx
      rw [dif_neg (show ¬(1 : Fin S64x256.rank) ∈ dot_S512x64_S64x256_S512x256_1_0_0_1_n_n.rhsBatch by decide), dif_pos (show (1 : Fin S64x256.rank) ∈ dot_S512x64_S64x256_S512x256_1_0_0_1_n_n.rhsNonContracting by decide)]
      rfl)
    lhs rhs p q

/-- `[512, 448] · [448, 256]` into zero at `(p, q)`. -/
theorem dotC_at (lhs : FVec Ideal S512x448 .f32) (rhs : FVec Ideal S448x256 .f32) (p : Fin 512) (q : Fin 256) :
    matmul dot_S512x448_S448x256_S512x256_1_0_0_1_n_n none lhs rhs (constant S512x256 .f32 0x00000000#32) (ix2 p q)
      = ∑ k : Fin 448, lhs (ix2 p k) * rhs (ix2 k q) :=
  Cert.LibPlainMatmul.matmul_zero_at dot_S512x448_S448x256_S512x256_1_0_0_1_n_n none rfl rfl
    (fun i r => by
      unfold DotDims.lhsIdx
      rw [dif_neg (show ¬(0 : Fin S512x448.rank) ∈ dot_S512x448_S448x256_S512x256_1_0_0_1_n_n.lhsBatch by decide), dif_pos (show (0 : Fin S512x448.rank) ∈ dot_S512x448_S448x256_S512x256_1_0_0_1_n_n.lhsNonContracting by decide)]
      rfl)
    (fun i r => dot_S512x448_S448x256_S512x256_1_0_0_1_n_n.lhsIdx_val_of_single rfl i r)
    (fun i r => dot_S512x448_S448x256_S512x256_1_0_0_1_n_n.rhsIdx_val_of_single rfl i r)
    (fun i r => by
      unfold DotDims.rhsIdx
      rw [dif_neg (show ¬(1 : Fin S448x256.rank) ∈ dot_S512x448_S448x256_S512x256_1_0_0_1_n_n.rhsBatch by decide), dif_pos (show (1 : Fin S448x256.rank) ∈ dot_S512x448_S448x256_S512x256_1_0_0_1_n_n.rhsNonContracting by decide)]
      rfl)
    lhs rhs p q

/-- `[512, 64] · [64, 2]` into zero at `(p, d)`. -/
theorem dotD_at (lhs : FVec Ideal S512x64 .f32) (rhs : FVec Ideal S64x2 .f32) (p : Fin 512) (d : Fin 2) :
    matmul dot_S512x64_S64x2_S512x2_1_0_0_1_n_n none lhs rhs (constant S512x2 .f32 0x00000000#32) (ix2 p d)
      = ∑ k : Fin 64, lhs (ix2 p k) * rhs (ix2 k d) :=
  Cert.LibPlainMatmul.matmul_zero_at dot_S512x64_S64x2_S512x2_1_0_0_1_n_n none rfl rfl
    (fun i r => by
      unfold DotDims.lhsIdx
      rw [dif_neg (show ¬(0 : Fin S512x64.rank) ∈ dot_S512x64_S64x2_S512x2_1_0_0_1_n_n.lhsBatch by decide), dif_pos (show (0 : Fin S512x64.rank) ∈ dot_S512x64_S64x2_S512x2_1_0_0_1_n_n.lhsNonContracting by decide)]
      rfl)
    (fun i r => dot_S512x64_S64x2_S512x2_1_0_0_1_n_n.lhsIdx_val_of_single rfl i r)
    (fun i r => dot_S512x64_S64x2_S512x2_1_0_0_1_n_n.rhsIdx_val_of_single rfl i r)
    (fun i r => by
      unfold DotDims.rhsIdx
      rw [dif_neg (show ¬(1 : Fin S64x2.rank) ∈ dot_S512x64_S64x2_S512x2_1_0_0_1_n_n.rhsBatch by decide), dif_pos (show (1 : Fin S64x2.rank) ∈ dot_S512x64_S64x2_S512x2_1_0_0_1_n_n.rhsNonContracting by decide)]
      rfl)
    lhs rhs p d

/-! ## The block-level terms at an index -/

theorem embV_apply (x : FVec Ideal S512x2 .f32) (w : FVec Ideal S2x64 .f32) (b1 : FVec Ideal S1x64 .f32) (p : Fin 512) (j : Fin 64) :
    embV x w b1 (ix2 p j) = affineTanh (fun k => x (ix2 p k)) (fun k => w (ix2 k j)) (b1 (ix2 (0 : Fin 1) j)) := by
  unfold embV affineTanh
  rw [tanh_apply, addf_apply, dotA_at, broadcastTo_1b_ab_apply]

theorem gatesV_apply (a h : FVec Ideal S512x64 .f32) (wihT whhT : FVec Ideal S64x256 .f32) (bih1 bhh1 : FVec Ideal S1x256 .f32)
    (p : Fin 512) (q : Fin 256) :
    gatesV a h wihT whhT bih1 bhh1 (ix2 p q)
      = gate (fun k => a (ix2 p k)) (fun k => wihT (ix2 k q)) (fun k => h (ix2 p k)) (fun k => whhT (ix2 k q))
          (bih1 (ix2 (0 : Fin 1) q)) (bhh1 (ix2 (0 : Fin 1) q)) := by
  unfold gatesV gate
  rw [addf_apply, addf_apply, addf_apply, dotB_at, dotB_at, broadcastTo_1b_ab_apply, broadcastTo_1b_ab_apply]

theorem gatesNV_apply (a : FVec Ideal S512x448 .f32) (h : FVec Ideal S512x64 .f32) (wihT : FVec Ideal S448x256 .f32)
    (whhT : FVec Ideal S64x256 .f32) (bih1 bhh1 : FVec Ideal S1x256 .f32) (p : Fin 512) (q : Fin 256) :
    gatesNV a h wihT whhT bih1 bhh1 (ix2 p q)
      = gate (fun k => a (ix2 p k)) (fun k => wihT (ix2 k q)) (fun k => h (ix2 p k)) (fun k => whhT (ix2 k q))
          (bih1 (ix2 (0 : Fin 1) q)) (bhh1 (ix2 (0 : Fin 1) q)) := by
  unfold gatesNV gate
  rw [addf_apply, addf_apply, addf_apply, dotC_at, dotB_at, broadcastTo_1b_ab_apply, broadcastTo_1b_ab_apply]

theorem c1V_apply (g : FVec Ideal S512x256 .f32) (c : FVec Ideal S512x64 .f32) (p : Fin 512) (j : Fin 64) :
    c1V g c (ix2 p j) = cellC (g (ix2 p (col 0 (by decide) j))) (g (ix2 p (col 64 (by decide) j)))
      (g (ix2 p (col 128 (by decide) j))) (c (ix2 p j)) := by
  unfold c1V cellC
  rw [addf_apply, mulf_apply, mulf_apply, logistic_apply, logistic_apply, tanh_apply,
    slice2_axis1_apply 64 g _ p j (col 64 (by decide) j) rfl, slice2_axis1_apply 0 g _ p j (col 0 (by decide) j) rfl,
    slice2_axis1_apply 128 g _ p j (col 128 (by decide) j) rfl]

theorem h1V_apply (g : FVec Ideal S512x256 .f32) (c : FVec Ideal S512x64 .f32) (p : Fin 512) (j : Fin 64) :
    h1V g c (ix2 p j) = cellH (g (ix2 p (col 192 (by decide) j))) (c1V g c (ix2 p j)) := by
  unfold h1V cellH
  rw [mulf_apply, logistic_apply, tanh_apply, slice2_axis1_apply 192 g _ p j (col 192 (by decide) j) rfl]

theorem posV_apply (x0 : FVec Ideal S512x2 .f32) (h : FVec Ideal S512x64 .f32) (w : FVec Ideal S64x2 .f32)
    (b1 : FVec Ideal S1x2 .f32) (p : Fin 512) (d : Fin 2) :
    posV x0 h w b1 (ix2 p d) = x0 (ix2 p d) + affineTanh (fun k => h (ix2 p k)) (fun k => w (ix2 k d)) (b1 (ix2 (0 : Fin 1) d)) := by
  unfold posV affineTanh
  rw [addf_apply, tanh_apply, addf_apply, dotD_at, broadcastTo_1b_ab_apply]

end Cert.Mesrnn.Vec

end
-- ==== Proof.CellAt.lean ====
/-
  From the block-level terms to the specification.

  Three kinds of glue sit between the body's loads and the block-level terms: a load through the rectangle that holds
  slab `e` of a stacked array (offset `(e, 0, 0)`, one slab thick) reads the array at `(e, ·, ·)`; dropping or adding
  a unit axis does not move an element; a transposed weight reads the weight at the swapped pair. With those, a block
  term whose operands read the row's accessors and the parameters IS the specification's cell at that row: the edge
  cell for each edge type, and the node cell over the seven blocks laid side by side — column `k` of the 448 reads
  the node embedding for `k < 64` and otherwise edge `(k - 64) / 64`'s new hidden state at `(k - 64) % 64`.
-/
import proofs.«153604_j15556371546759_2_alg».proof.Proof.CellVec

noncomputable section

namespace Cert.Mesrnn.Vec

open Cert.KernelIdeal Cert.KernelIdeal.Facts₀ Cert.KernelIdeal.Facts Idealize.ShloMosaic Idealize.ShloMosaic.ValueIdx Cert.Mesrnn

/-! ## Loads, casts and transposes at an index -/

theorem zeros1 : (![0] : Fin 1 → Nat) = fun _ => 0 := funext fun a => by match a with | ⟨0, _⟩ => rfl
theorem zeros2 : (![0, 0] : Fin 2 → Nat) = fun _ => 0 := funext fun a => by match a with | ⟨0, _⟩ => rfl | ⟨1, _⟩ => rfl

/-- A load through the one-slab rectangle at slab `e` of an `[n0, a, b]` array reads the array at `(e, i, j)`. -/
theorem ld_slab3 {n0 a b : ℕ} (X : Vec Ideal ⟨3, ![n0, a, b]⟩ .f32) (e : ℕ) (he : e < n0)
    (inb : ∀ ax, (![e, 0, 0] : Fin 3 → ℕ) ax + (![1, a, b] : Fin 3 → ℕ) ax ≤ (⟨3, ![n0, a, b]⟩ : Shape).size ax)
    (u : Fin 1) (i : Fin a) (j : Fin b) :
    View.ld X (Rect.unit (s := ⟨3, ![n0, a, b]⟩) ![e, 0, 0] ![1, a, b] inb) (ix3 u i j) = X (ix3 ⟨e, he⟩ i j) := by
  show X _ = X _
  refine congrArg X (funext fun ax => Fin.ext ?_)
  match ax with
  | ⟨0, _⟩ => show e + 1 * u.val = e; have := u.isLt; omega
  | ⟨1, _⟩ => show 0 + 1 * i.val = i.val; omega
  | ⟨2, _⟩ => show 0 + 1 * j.val = j.val; omega

/-- The same for an `[n0, a]` array: row `e`. -/
theorem ld_slab2 {n0 a : ℕ} (X : Vec Ideal ⟨2, ![n0, a]⟩ .f32) (e : ℕ) (he : e < n0)
    (inb : ∀ ax, (![e, 0] : Fin 2 → ℕ) ax + (![1, a] : Fin 2 → ℕ) ax ≤ (⟨2, ![n0, a]⟩ : Shape).size ax)
    (u : Fin 1) (i : Fin a) :
    View.ld X (Rect.unit (s := ⟨2, ![n0, a]⟩) ![e, 0] ![1, a] inb) (ix2 u i) = X (ix2 ⟨e, he⟩ i) := by
  show X _ = X _
  refine congrArg X (funext fun ax => Fin.ext ?_)
  match ax with
  | ⟨0, _⟩ => show e + 1 * u.val = e; have := u.isLt; omega
  | ⟨1, _⟩ => show 0 + 1 * i.val = i.val; omega

/-- Slab `e` with its unit axis dropped, at `(i, j)`. -/
theorem cast_slab3 {n0 a b : ℕ} (X : Vec Ideal ⟨3, ![n0, a, b]⟩ .f32) (e : ℕ) (he : e < n0)
    (inb : ∀ ax, (![e, 0, 0] : Fin 3 → ℕ) ax + (![1, a, b] : Fin 3 → ℕ) ax ≤ (⟨3, ![n0, a, b]⟩ : Shape).size ax)
    (h : (⟨3, ![1, a, b]⟩ : Shape).ShapeCasts ⟨2, ![a, b]⟩) (i : Fin a) (j : Fin b) :
    shapeCast ⟨2, ![a, b]⟩ (View.ld X (Rect.unit (s := ⟨3, ![n0, a, b]⟩) ![e, 0, 0] ![1, a, b] inb)) h (ix2 i j)
      = X (ix3 ⟨e, he⟩ i j) :=
  (shapeCast_1ab_ab_apply _ h i j).trans (ld_slab3 X e he inb 0 i j)

/-- Slab `e` of a stacked weight, unit axis dropped and transposed, at `(k, q)`: the weight at `(e, q, k)`. -/
theorem tr_slab3 {n0 a b : ℕ} (X : Vec Ideal ⟨3, ![n0, a, b]⟩ .f32) (e : ℕ) (he : e < n0)
    (inb : ∀ ax, (![e, 0, 0] : Fin 3 → ℕ) ax + (![1, a, b] : Fin 3 → ℕ) ax ≤ (⟨3, ![n0, a, b]⟩ : Shape).size ax)
    (h : (⟨3, ![1, a, b]⟩ : Shape).ShapeCasts ⟨2, ![a, b]⟩) (ht : (⟨2, ![a, b]⟩ : Shape).Transposes [1, 0] ⟨2, ![b, a]⟩)
    (k : Fin b) (q : Fin a) :
    transpose ⟨2, ![b, a]⟩ [1, 0] (shapeCast ⟨2, ![a, b]⟩ (View.ld X (Rect.unit (s := ⟨3, ![n0, a, b]⟩) ![e, 0, 0] ![1, a, b] inb)) h) ht (ix2 k q)
      = X (ix3 ⟨e, he⟩ q k) :=
  (transpose_ix2_apply _ ht k q).trans (cast_slab3 X e he inb h q k)

/-- Row `e` of a stacked bias, squeezed to a vector and put back as one row, at `(u, i)`. -/
theorem bias_slab2 {n0 a : ℕ} (X : Vec Ideal ⟨2, ![n0, a]⟩ .f32) (e : ℕ) (he : e < n0)
    (inb : ∀ ax, (![e, 0] : Fin 2 → ℕ) ax + (![1, a] : Fin 2 → ℕ) ax ≤ (⟨2, ![n0, a]⟩ : Shape).size ax)
    (h1 : (⟨2, ![1, a]⟩ : Shape).ShapeCasts ⟨1, ![a]⟩) (h2 : (⟨1, ![a]⟩ : Shape).ShapeCasts ⟨2, ![1, a]⟩) (u : Fin 1) (i : Fin a) :
    shapeCast ⟨2, ![1, a]⟩ (shapeCast ⟨1, ![a]⟩ (View.ld X (Rect.unit (s := ⟨2, ![n0, a]⟩) ![e, 0] ![1, a] inb)) h1) h2 (ix2 u i)
      = X (ix2 ⟨e, he⟩ i) :=
  (shapeCast_a_1a_apply _ h2 u i).trans ((shapeCast_1a_a_apply _ h1 i).trans (ld_slab2 X e he inb 0 i))

/-! ## An edge cell is the specification's -/

/-- If the operands of the block terms read the row's accessors and the parameters of edge type `e`, the new cell and
    hidden states at row `p` are the specification's. -/
theorem edge_at (x : FVec Ideal S512x2 .f32) (w : FVec Ideal S2x64 .f32) (b1 : FVec Ideal S1x64 .f32)
    (h : FVec Ideal S512x64 .f32) (wihT whhT : FVec Ideal S64x256 .f32) (bih1 bhh1 : FVec Ideal S1x256 .f32)
    (c : FVec Ideal S512x64 .f32) (P : Params) (R : Row) (e : Fin 6) (p : Fin 512)
    (hx : ∀ i, x (ix2 p i) = R.ein e i) (hw : ∀ i k, w (ix2 i k) = P.eembw e i k)
    (hb : ∀ k, b1 (ix2 (0 : Fin 1) k) = P.eembb e k) (hh : ∀ k, h (ix2 p k) = R.eh e k)
    (hwih : ∀ k q, wihT (ix2 k q) = P.ewih e q k) (hwhh : ∀ k q, whhT (ix2 k q) = P.ewhh e q k)
    (hbih : ∀ q, bih1 (ix2 (0 : Fin 1) q) = P.ebih e q) (hbhh : ∀ q, bhh1 (ix2 (0 : Fin 1) q) = P.ebhh e q)
    (hc : ∀ j, c (ix2 p j) = R.ec e j) :
    (∀ j, c1V (gatesV (embV x w b1) h wihT whhT bih1 bhh1) c (ix2 p j) = edgeC1 P R e j)
    ∧ (∀ j, h1V (gatesV (embV x w b1) h wihT whhT bih1 bhh1) c (ix2 p j) = edgeH1 P R e j) := by
  have hg : ∀ q, gatesV (embV x w b1) h wihT whhT bih1 bhh1 (ix2 p q) = edgeGate P R e q := fun q => by
    rw [gatesV_apply]
    unfold edgeGate edgeEmb
    simp only [embV_apply, hx, hw, hb, hh, hwih, hwhh, hbih, hbhh]
  have hc1 : ∀ j, c1V (gatesV (embV x w b1) h wihT whhT bih1 bhh1) c (ix2 p j) = edgeC1 P R e j := fun j => by
    rw [c1V_apply, hg, hg, hg, hc]; rfl
  exact ⟨hc1, fun j => by rw [h1V_apply, hg, hc1]; rfl⟩

/-! ## The seven blocks side by side -/

/-- Piece `m` of the seven-block concatenation, at the column `64 m + c`. -/
theorem cat_at (a h0 h1 h2 h3 h4 h5 : FVec Ideal S512x64 .f32) (m : ℕ) (x : FVec Ideal S512x64 .f32)
    (hm : m < ([⟨S512x64, a⟩, ⟨S512x64, h0⟩, ⟨S512x64, h1⟩, ⟨S512x64, h2⟩, ⟨S512x64, h3⟩, ⟨S512x64, h4⟩, ⟨S512x64, h5⟩] :
      List ((s : Shape) × (s.Idx → Ideal .f32))).length)
    (hx : ([⟨S512x64, a⟩, ⟨S512x64, h0⟩, ⟨S512x64, h1⟩, ⟨S512x64, h2⟩, ⟨S512x64, h3⟩, ⟨S512x64, h4⟩, ⟨S512x64, h5⟩] :
      List ((s : Shape) × (s.Idx → Ideal .f32)))[m] = ⟨S512x64, x⟩)
    (hpre : (((([⟨S512x64, a⟩, ⟨S512x64, h0⟩, ⟨S512x64, h1⟩, ⟨S512x64, h2⟩, ⟨S512x64, h3⟩, ⟨S512x64, h4⟩, ⟨S512x64, h5⟩] :
      List ((s : Shape) × (s.Idx → Ideal .f32))).take m).map (·.1)).map fun s =>
        if h : s.rank = S512x448.rank then s.size ((1 : Fin S512x448.rank).cast h.symm) else 0).sum = 64 * m)
    (p : Fin 512) (k : Fin 448) (c : Fin 64) (hc : 64 * m + c.val = k.val) :
    catV a h0 h1 h2 h3 h4 h5 (ix2 p k) = x (ix2 p c) := by
  unfold catV
  exact concatenate_apply_piece 1 _ _ (ix2 p k) m hm S512x64 x hx rfl (64 * m) hpre (ix2 p c)
    (fun b hb => by
      match b with
      | ⟨0, _⟩ => rfl
      | ⟨1, _⟩ => exact absurd rfl hb) hc

/-- The concatenated row at column `k`, from what each of the seven blocks reads at row `p`. -/
theorem catV_apply (a h0 h1 h2 h3 h4 h5 : FVec Ideal S512x64 .f32) (p : Fin 512) (k : Fin 448)
    (A : Fin 64 → EReal) (H : Fin 6 → Fin 64 → EReal) (ha : ∀ j, a (ix2 p j) = A j)
    (hh0 : ∀ j, h0 (ix2 p j) = H 0 j) (hh1 : ∀ j, h1 (ix2 p j) = H 1 j) (hh2 : ∀ j, h2 (ix2 p j) = H 2 j)
    (hh3 : ∀ j, h3 (ix2 p j) = H 3 j) (hh4 : ∀ j, h4 (ix2 p j) = H 4 j) (hh5 : ∀ j, h5 (ix2 p j) = H 5 j) :
    catV a h0 h1 h2 h3 h4 h5 (ix2 p k) = catRow A H k := by
  have hk := k.isLt
  unfold catRow
  by_cases c0 : k.val < 64
  · rw [dif_pos c0, cat_at a h0 h1 h2 h3 h4 h5 0 a (by show (0 : ℕ) < 7; decide) rfl rfl p k ⟨k.val, c0⟩ (by show 64 * 0 + k.val = k.val; omega), ha]
  · rw [dif_neg c0]
    by_cases c1 : k.val < 128
    · rw [cat_at a h0 h1 h2 h3 h4 h5 1 h0 (by show (1 : ℕ) < 7; decide) rfl rfl p k ⟨k.val - 64, by omega⟩ (by show 64 * 1 + (k.val - 64) = k.val; omega), hh0]
      exact congrArg₂ H (Fin.ext (by show 0 = (k.val - 64) / 64; omega)) (Fin.ext (by show k.val - 64 = (k.val - 64) % 64; omega))
    by_cases c2 : k.val < 192
    · rw [cat_at a h0 h1 h2 h3 h4 h5 2 h1 (by show (2 : ℕ) < 7; decide) rfl rfl p k ⟨k.val - 128, by omega⟩ (by show 64 * 2 + (k.val - 128) = k.val; omega), hh1]
      exact congrArg₂ H (Fin.ext (by show 1 = (k.val - 64) / 64; omega)) (Fin.ext (by show k.val - 128 = (k.val - 64) % 64; omega))
    by_cases c3 : k.val < 256
    · rw [cat_at a h0 h1 h2 h3 h4 h5 3 h2 (by show (3 : ℕ) < 7; decide) rfl rfl p k ⟨k.val - 192, by omega⟩ (by show 64 * 3 + (k.val - 192) = k.val; omega), hh2]
      exact congrArg₂ H (Fin.ext (by show 2 = (k.val - 64) / 64; omega)) (Fin.ext (by show k.val - 192 = (k.val - 64) % 64; omega))
    by_cases c4 : k.val < 320
    · rw [cat_at a h0 h1 h2 h3 h4 h5 4 h3 (by show (4 : ℕ) < 7; decide) rfl rfl p k ⟨k.val - 256, by omega⟩ (by show 64 * 4 + (k.val - 256) = k.val; omega), hh3]
      exact congrArg₂ H (Fin.ext (by show 3 = (k.val - 64) / 64; omega)) (Fin.ext (by show k.val - 256 = (k.val - 64) % 64; omega))
    by_cases c5 : k.val < 384
    · rw [cat_at a h0 h1 h2 h3 h4 h5 5 h4 (by show (5 : ℕ) < 7; decide) rfl rfl p k ⟨k.val - 320, by omega⟩ (by show 64 * 5 + (k.val - 320) = k.val; omega), hh4]
      exact congrArg₂ H (Fin.ext (by show 4 = (k.val - 64) / 64; omega)) (Fin.ext (by show k.val - 320 = (k.val - 64) % 64; omega))
    · rw [cat_at a h0 h1 h2 h3 h4 h5 6 h5 (by show (6 : ℕ) < 7; decide) rfl rfl p k ⟨k.val - 384, by omega⟩ (by show 64 * 6 + (k.val - 384) = k.val; omega), hh5]
      exact congrArg₂ H (Fin.ext (by show 5 = (k.val - 64) / 64; omega)) (Fin.ext (by show k.val - 384 = (k.val - 64) % 64; omega))

/-! ## The node cell and the new position are the specification's -/

theorem node_at (x0 : FVec Ideal S512x2 .f32) (nw : FVec Ideal S2x64 .f32) (nb1 : FVec Ideal S1x64 .f32)
    (h0 h1 h2 h3 h4 h5 nh : FVec Ideal S512x64 .f32) (wihT : FVec Ideal S448x256 .f32) (whhT : FVec Ideal S64x256 .f32)
    (bih1 bhh1 : FVec Ideal S1x256 .f32) (nc : FVec Ideal S512x64 .f32) (dw : FVec Ideal S64x2 .f32) (db1 : FVec Ideal S1x2 .f32)
    (P : Params) (R : Row) (p : Fin 512)
    (hx0 : ∀ d, x0 (ix2 p d) = R.pos d) (hnw : ∀ i k, nw (ix2 i k) = P.nembw i k) (hnb : ∀ k, nb1 (ix2 (0 : Fin 1) k) = P.nembb k)
    (hh0 : ∀ j, h0 (ix2 p j) = edgeH1 P R 0 j) (hh1 : ∀ j, h1 (ix2 p j) = edgeH1 P R 1 j) (hh2 : ∀ j, h2 (ix2 p j) = edgeH1 P R 2 j)
    (hh3 : ∀ j, h3 (ix2 p j) = edgeH1 P R 3 j) (hh4 : ∀ j, h4 (ix2 p j) = edgeH1 P R 4 j) (hh5 : ∀ j, h5 (ix2 p j) = edgeH1 P R 5 j)
    (hnh : ∀ k, nh (ix2 p k) = R.nh k) (hwih : ∀ k q, wihT (ix2 k q) = P.nwih q k) (hwhh : ∀ k q, whhT (ix2 k q) = P.nwhh q k)
    (hbih : ∀ q, bih1 (ix2 (0 : Fin 1) q) = P.nbih q) (hbhh : ∀ q, bhh1 (ix2 (0 : Fin 1) q) = P.nbhh q)
    (hnc : ∀ j, nc (ix2 p j) = R.nc j) (hdw : ∀ k d, dw (ix2 k d) = P.decw k d) (hdb : ∀ d, db1 (ix2 (0 : Fin 1) d) = P.decb d) :
    (∀ j, c1V (gatesNV (catV (embV x0 nw nb1) h0 h1 h2 h3 h4 h5) nh wihT whhT bih1 bhh1) nc (ix2 p j) = nodeC1 P R j)
    ∧ (∀ j, h1V (gatesNV (catV (embV x0 nw nb1) h0 h1 h2 h3 h4 h5) nh wihT whhT bih1 bhh1) nc (ix2 p j) = nodeH1 P R j)
    ∧ (∀ d, posV x0 (h1V (gatesNV (catV (embV x0 nw nb1) h0 h1 h2 h3 h4 h5) nh wihT whhT bih1 bhh1) nc) dw db1 (ix2 p d) = outPos P R d) := by
  have hemb : ∀ j, embV x0 nw nb1 (ix2 p j) = nodeEmb P R j := fun j => by
    rw [embV_apply]; unfold nodeEmb; simp only [hx0, hnw, hnb]
  have hcat : ∀ k, catV (embV x0 nw nb1) h0 h1 h2 h3 h4 h5 (ix2 p k) = catRow (nodeEmb P R) (edgeH1 P R) k := fun k =>
    catV_apply _ h0 h1 h2 h3 h4 h5 p k (nodeEmb P R) (edgeH1 P R) hemb hh0 hh1 hh2 hh3 hh4 hh5
  have hg : ∀ q, gatesNV (catV (embV x0 nw nb1) h0 h1 h2 h3 h4 h5) nh wihT whhT bih1 bhh1 (ix2 p q) = nodeGate P R q := fun q => by
    rw [gatesNV_apply]
    unfold nodeGate
    simp only [hcat, hnh, hwih, hwhh, hbih, hbhh]
  have hc1 : ∀ j, c1V (gatesNV (catV (embV x0 nw nb1) h0 h1 h2 h3 h4 h5) nh wihT whhT bih1 bhh1) nc (ix2 p j) = nodeC1 P R j := fun j => by
    rw [c1V_apply, hg, hg, hg, hnc]; rfl
  have hh1' : ∀ j, h1V (gatesNV (catV (embV x0 nw nb1) h0 h1 h2 h3 h4 h5) nh wihT whhT bih1 bhh1) nc (ix2 p j) = nodeH1 P R j := fun j => by
    rw [h1V_apply, hg, hc1]; rfl
  refine ⟨hc1, hh1', fun d => ?_⟩
  rw [posV_apply]
  unfold outPos
  simp only [hh1', hx0, hdw, hdb]

end Cert.Mesrnn.Vec

end
-- ==== Proof.KernelEdgeBase.lean ====
/-
  The block of new edge states as one function of the buffer's index, and where a one-slab rectangle puts an index.

  An edge output buffer has shape `[6, 512, 64]`: edge type, local row, column. Its value at `(e, p, j)` is the
  specification's new hidden (or cell) state of edge type `e` on the row the block holds at `p`. The store for edge
  type `e` goes through the rectangle at offset `(e, 0, 0)` one slab thick, which sends its local index `(u, p, j)`
  to `(e, p, j)`.
-/
import proofs.«153604_j15556371546759_2_alg».proof.Proof.Gen.KernelIdeal.Frame
import proofs.«153604_j15556371546759_2_alg».proof.Proof.CellAt

noncomputable section

namespace Cert.Mesrnn.Blk

open Cert.KernelIdeal Cert.KernelIdeal.Gen Cert.KernelIdeal.Facts₀ Cert.KernelIdeal.Facts Idealize.ShloMosaic Idealize.ShloMosaic.ValueIdx
open Cert.Mesrnn Cert.Mesrnn.Vec

variable (x0 : Vec Ideal S512x2 .f32) (x1 : Vec Ideal S6x512x2 .f32) (x2 x3 : Vec Ideal S6x512x64 .f32) (x4 x5 : Vec Ideal S512x64 .f32)
  (x6 : Vec Ideal S6x2x64 .f32) (x7 : Vec Ideal S6x64 .f32) (x8 x9 : Vec Ideal S6x256x64 .f32) (x10 x11 : Vec Ideal S6x256 .f32)
  (x12 : Vec Ideal S2x64 .f32) (x13 : Vec Ideal S64 .f32) (x14 : Vec Ideal S256x448 .f32) (x15 : Vec Ideal S256x64 .f32)
  (x16 x17 : Vec Ideal S256 .f32) (x18 : Vec Ideal S64x2 .f32) (x19 : Vec Ideal S2 .f32)

/-- The block of new edge hidden states: at `(e, p, j)`, edge type `e` of the block's row `p`. -/
def blkEdgeH : Vec Ideal S6x512x64 .f32 := fun y =>
  edgeH1 (paramsOf x6 x7 x8 x9 x10 x11 x12 x13 x14 x15 x16 x17 x18 x19) (rowOf x0 x1 x2 x3 x4 x5 (y 1)) (y 0) (y 2)

/-- The block of new edge cell states. -/
def blkEdgeC : Vec Ideal S6x512x64 .f32 := fun y =>
  edgeC1 (paramsOf x6 x7 x8 x9 x10 x11 x12 x13 x14 x15 x16 x17 x18 x19) (rowOf x0 x1 x2 x3 x4 x5 (y 1)) (y 0) (y 2)

/-- Where the one-slab rectangle at slab `e` of a `[6, 512, 64]` buffer puts its local index `(u, p, j)`. -/
theorem emb_slab (e : ℕ) (he : e < 6)
    (inb : ∀ ax, (![e, 0, 0] : Fin 3 → ℕ) ax + (![1, 512, 64] : Fin 3 → ℕ) ax ≤ S6x512x64.size ax)
    (u : Fin 1) (p : Fin 512) (j : Fin 64) :
    (Rect.unit (s := S6x512x64) ![e, 0, 0] ![1, 512, 64] inb).emb (ix3 u p j) = ix3 ⟨e, he⟩ p j := by
  refine funext fun ax => Fin.ext ?_
  match ax with
  | ⟨0, _⟩ => show e + 1 * u.val = e; have := u.isLt; omega
  | ⟨1, _⟩ => show 0 + 1 * p.val = p.val; omega
  | ⟨2, _⟩ => show 0 + 1 * j.val = j.val; omega

end Cert.Mesrnn.Blk

end
-- ==== Proof.KernelEdgeCases.lean ====
/-
  The kernel's six edge cells on one block, case by case.

  For edge type `e` the body loads slab `e` of the stacked inputs, states and parameters, computes the cell, and
  stores the new hidden state into slab `e` of one output buffer and the new cell state into slab `e` of another.
  Each chain of the body's named values is, by unfolding, the block-level cell at those loads (the loads' glue read at
  an index), so at local row `p` it is the specification's cell for edge type `e` on the row the block holds at
  `p`; and what is stored is that value with a unit axis in front. The six edge types differ only in which named
  values and which rectangles the body uses; the argument is the same.
-/
import proofs.«153604_j15556371546759_2_alg».proof.Proof.KernelEdgeBase

noncomputable section

namespace Cert.Mesrnn.Blk

open Cert.KernelIdeal Cert.KernelIdeal.Gen Idealize.ShloMosaic Idealize.ShloMosaic.ValueIdx
open Cert.Mesrnn Cert.Mesrnn.Vec

variable (x0 : Vec Ideal S512x2 .f32) (x1 : Vec Ideal S6x512x2 .f32) (x2 x3 : Vec Ideal S6x512x64 .f32) (x4 x5 : Vec Ideal S512x64 .f32)
  (x6 : Vec Ideal S6x2x64 .f32) (x7 : Vec Ideal S6x64 .f32) (x8 x9 : Vec Ideal S6x256x64 .f32) (x10 x11 : Vec Ideal S6x256 .f32)
  (x12 : Vec Ideal S2x64 .f32) (x13 : Vec Ideal S64 .f32) (x14 : Vec Ideal S256x448 .f32) (x15 : Vec Ideal S256x64 .f32)
  (x16 x17 : Vec Ideal S256 .f32) (x18 : Vec Ideal S64x2 .f32) (x19 : Vec Ideal S2 .f32)

/-- Edge type 0 on the block: its new cell and hidden states at local row `p` are the specification's. -/
theorem edge0 (p : Fin 512) :
    (∀ j, (k0_pay7 (k0_pay2 (View.ld x3 r0_4)) (k0_pay3 (View.ld x11 r0_6)) (k0_pay4 (View.ld x1 r0_1) (View.ld x6 r0_2) (View.ld x7 r0_3) (View.ld x2 r0_4) (View.ld x8 r0_5) (View.ld x9 r0_5)) (k0_pay5 (View.ld x10 r0_6))) (ix2 p j) = edgeC1 (paramsOf x6 x7 x8 x9 x10 x11 x12 x13 x14 x15 x16 x17 x18 x19) (rowOf x0 x1 x2 x3 x4 x5 p) 0 j)
    ∧ (∀ j, (k0_pay8 (k0_pay2 (View.ld x3 r0_4)) (k0_pay3 (View.ld x11 r0_6)) (k0_pay4 (View.ld x1 r0_1) (View.ld x6 r0_2) (View.ld x7 r0_3) (View.ld x2 r0_4) (View.ld x8 r0_5) (View.ld x9 r0_5)) (k0_pay5 (View.ld x10 r0_6))) (ix2 p j) = edgeH1 (paramsOf x6 x7 x8 x9 x10 x11 x12 x13 x14 x15 x16 x17 x18 x19) (rowOf x0 x1 x2 x3 x4 x5 p) 0 j) :=
  edge_at (shapeCast S512x2 (View.ld x1 r0_1) shapeCasts_S1x512x2_S512x2) (shapeCast S2x64 (View.ld x6 r0_2) shapeCasts_S1x2x64_S2x64)
    (shapeCast S1x64 (shapeCast S64 (View.ld x7 r0_3) shapeCasts_S1x64_S64) shapeCasts_S64_S1x64)
    (shapeCast S512x64 (View.ld x2 r0_4) shapeCasts_S1x512x64_S512x64)
    (transpose S64x256 [1, 0] (shapeCast S256x64 (View.ld x8 r0_5) shapeCasts_S1x256x64_S256x64) transposes_S256x64_p1_0_S64x256)
    (transpose S64x256 [1, 0] (shapeCast S256x64 (View.ld x9 r0_5) shapeCasts_S1x256x64_S256x64) transposes_S256x64_p1_0_S64x256)
    (shapeCast S1x256 (shapeCast S256 (View.ld x10 r0_6) shapeCasts_S1x256_S256) shapeCasts_S256_S1x256)
    (shapeCast S1x256 (shapeCast S256 (View.ld x11 r0_6) shapeCasts_S1x256_S256) shapeCasts_S256_S1x256)
    (shapeCast S512x64 (View.ld x3 r0_4) shapeCasts_S1x512x64_S512x64)
    (paramsOf x6 x7 x8 x9 x10 x11 x12 x13 x14 x15 x16 x17 x18 x19) (rowOf x0 x1 x2 x3 x4 x5 p) 0 p
    (fun i => cast_slab3 x1 0 (by decide) _ _ p i) (fun i k => cast_slab3 x6 0 (by decide) _ _ i k)
    (fun k => bias_slab2 x7 0 (by decide) _ _ _ 0 k) (fun k => cast_slab3 x2 0 (by decide) _ _ p k)
    (fun k q => tr_slab3 x8 0 (by decide) _ _ _ k q) (fun k q => tr_slab3 x9 0 (by decide) _ _ _ k q)
    (fun q => bias_slab2 x10 0 (by decide) _ _ _ 0 q) (fun q => bias_slab2 x11 0 (by decide) _ _ _ 0 q)
    (fun j => cast_slab3 x3 0 (by decide) _ _ p j)

/-- The block stored for edge type 0's hidden state is that value with a unit axis in front. -/
theorem storeH0 (u : Fin 1) (p : Fin 512) (j : Fin 64) :
    (k0_pay9 (k0_pay2 (View.ld x3 r0_4)) (k0_pay3 (View.ld x11 r0_6)) (k0_pay4 (View.ld x1 r0_1) (View.ld x6 r0_2) (View.ld x7 r0_3) (View.ld x2 r0_4) (View.ld x8 r0_5) (View.ld x9 r0_5)) (k0_pay5 (View.ld x10 r0_6))) (ix3 u p j) = blkEdgeH x0 x1 x2 x3 x4 x5 x6 x7 x8 x9 x10 x11 x12 x13 x14 x15 x16 x17 x18 x19 (ix3 ⟨0, by decide⟩ p j) :=
  (shapeCast_ab_1ab_apply _ _ u p j).trans ((edge0 x0 x1 x2 x3 x4 x5 x6 x7 x8 x9 x10 x11 x12 x13 x14 x15 x16 x17 x18 x19 p).2 j)

/-- The same for its cell state. -/
theorem storeC0 (u : Fin 1) (p : Fin 512) (j : Fin 64) :
    (k0_pay10 (k0_pay2 (View.ld x3 r0_4)) (k0_pay3 (View.ld x11 r0_6)) (k0_pay4 (View.ld x1 r0_1) (View.ld x6 r0_2) (View.ld x7 r0_3) (View.ld x2 r0_4) (View.ld x8 r0_5) (View.ld x9 r0_5)) (k0_pay5 (View.ld x10 r0_6))) (ix3 u p j) = blkEdgeC x0 x1 x2 x3 x4 x5 x6 x7 x8 x9 x10 x11 x12 x13 x14 x15 x16 x17 x18 x19 (ix3 ⟨0, by decide⟩ p j) :=
  (shapeCast_ab_1ab_apply _ _ u p j).trans ((edge0 x0 x1 x2 x3 x4 x5 x6 x7 x8 x9 x10 x11 x12 x13 x14 x15 x16 x17 x18 x19 p).1 j)

/-- Edge type 1 on the block: its new cell and hidden states at local row `p` are the specification's. -/
theorem edge1 (p : Fin 512) :
    (∀ j, (k0_pay14 (k0_pay11 (View.ld x1 r0_7) (View.ld x6 r0_8) (View.ld x7 r0_9)) (k0_pay12 (View.ld x2 r0_10)) (View.ld x3 r0_10) (View.ld x8 r0_11) (View.ld x9 r0_11) (View.ld x10 r0_12) (View.ld x11 r0_12)) (ix2 p j) = edgeC1 (paramsOf x6 x7 x8 x9 x10 x11 x12 x13 x14 x15 x16 x17 x18 x19) (rowOf x0 x1 x2 x3 x4 x5 p) 1 j)
    ∧ (∀ j, (k0_pay15 (k0_pay11 (View.ld x1 r0_7) (View.ld x6 r0_8) (View.ld x7 r0_9)) (k0_pay12 (View.ld x2 r0_10)) (View.ld x3 r0_10) (View.ld x8 r0_11) (View.ld x9 r0_11) (View.ld x10 r0_12) (View.ld x11 r0_12)) (ix2 p j) = edgeH1 (paramsOf x6 x7 x8 x9 x10 x11 x12 x13 x14 x15 x16 x17 x18 x19) (rowOf x0 x1 x2 x3 x4 x5 p) 1 j) :=
  edge_at (shapeCast S512x2 (View.ld x1 r0_7) shapeCasts_S1x512x2_S512x2) (shapeCast S2x64 (View.ld x6 r0_8) shapeCasts_S1x2x64_S2x64)
    (shapeCast S1x64 (shapeCast S64 (View.ld x7 r0_9) shapeCasts_S1x64_S64) shapeCasts_S64_S1x64)
    (shapeCast S512x64 (View.ld x2 r0_10) shapeCasts_S1x512x64_S512x64)
    (transpose S64x256 [1, 0] (shapeCast S256x64 (View.ld x8 r0_11) shapeCasts_S1x256x64_S256x64) transposes_S256x64_p1_0_S64x256)
    (transpose S64x256 [1, 0] (shapeCast S256x64 (View.ld x9 r0_11) shapeCasts_S1x256x64_S256x64) transposes_S256x64_p1_0_S64x256)
    (shapeCast S1x256 (shapeCast S256 (View.ld x10 r0_12) shapeCasts_S1x256_S256) shapeCasts_S256_S1x256)
    (shapeCast S1x256 (shapeCast S256 (View.ld x11 r0_12) shapeCasts_S1x256_S256) shapeCasts_S256_S1x256)
    (shapeCast S512x64 (View.ld x3 r0_10) shapeCasts_S1x512x64_S512x64)
    (paramsOf x6 x7 x8 x9 x10 x11 x12 x13 x14 x15 x16 x17 x18 x19) (rowOf x0 x1 x2 x3 x4 x5 p) 1 p
    (fun i => cast_slab3 x1 1 (by decide) _ _ p i) (fun i k => cast_slab3 x6 1 (by decide) _ _ i k)
    (fun k => bias_slab2 x7 1 (by decide) _ _ _ 0 k) (fun k => cast_slab3 x2 1 (by decide) _ _ p k)
    (fun k q => tr_slab3 x8 1 (by decide) _ _ _ k q) (fun k q => tr_slab3 x9 1 (by decide) _ _ _ k q)
    (fun q => bias_slab2 x10 1 (by decide) _ _ _ 0 q) (fun q => bias_slab2 x11 1 (by decide) _ _ _ 0 q)
    (fun j => cast_slab3 x3 1 (by decide) _ _ p j)

/-- The block stored for edge type 1's hidden state is that value with a unit axis in front. -/
theorem storeH1 (u : Fin 1) (p : Fin 512) (j : Fin 64) :
    (k0_pay16 (k0_pay11 (View.ld x1 r0_7) (View.ld x6 r0_8) (View.ld x7 r0_9)) (k0_pay12 (View.ld x2 r0_10)) (View.ld x3 r0_10) (View.ld x8 r0_11) (View.ld x9 r0_11) (View.ld x10 r0_12) (View.ld x11 r0_12)) (ix3 u p j) = blkEdgeH x0 x1 x2 x3 x4 x5 x6 x7 x8 x9 x10 x11 x12 x13 x14 x15 x16 x17 x18 x19 (ix3 ⟨1, by decide⟩ p j) :=
  (shapeCast_ab_1ab_apply _ _ u p j).trans ((edge1 x0 x1 x2 x3 x4 x5 x6 x7 x8 x9 x10 x11 x12 x13 x14 x15 x16 x17 x18 x19 p).2 j)

/-- The same for its cell state. -/
theorem storeC1 (u : Fin 1) (p : Fin 512) (j : Fin 64) :
    (k0_pay17 (k0_pay11 (View.ld x1 r0_7) (View.ld x6 r0_8) (View.ld x7 r0_9)) (k0_pay12 (View.ld x2 r0_10)) (View.ld x3 r0_10) (View.ld x8 r0_11) (View.ld x9 r0_11) (View.ld x10 r0_12) (View.ld x11 r0_12)) (ix3 u p j) = blkEdgeC x0 x1 x2 x3 x4 x5 x6 x7 x8 x9 x10 x11 x12 x13 x14 x15 x16 x17 x18 x19 (ix3 ⟨1, by decide⟩ p j) :=
  (shapeCast_ab_1ab_apply _ _ u p j).trans ((edge1 x0 x1 x2 x3 x4 x5 x6 x7 x8 x9 x10 x11 x12 x13 x14 x15 x16 x17 x18 x19 p).1 j)

/-- Edge type 2 on the block: its new cell and hidden states at local row `p` are the specification's. -/
theorem edge2 (p : Fin 512) :
    (∀ j, (k0_pay22 (k0_pay18 (View.ld x3 r0_16)) (k0_pay19 (View.ld x1 r0_13) (View.ld x6 r0_14) (View.ld x7 r0_15) (View.ld x2 r0_16) (View.ld x8 r0_17) (View.ld x9 r0_17) (View.ld x10 r0_18)) (k0_pay20 (View.ld x11 r0_18))) (ix2 p j) = edgeC1 (paramsOf x6 x7 x8 x9 x10 x11 x12 x13 x14 x15 x16 x17 x18 x19) (rowOf x0 x1 x2 x3 x4 x5 p) 2 j)
    ∧ (∀ j, (k0_pay23 (k0_pay18 (View.ld x3 r0_16)) (k0_pay19 (View.ld x1 r0_13) (View.ld x6 r0_14) (View.ld x7 r0_15) (View.ld x2 r0_16) (View.ld x8 r0_17) (View.ld x9 r0_17) (View.ld x10 r0_18)) (k0_pay20 (View.ld x11 r0_18))) (ix2 p j) = edgeH1 (paramsOf x6 x7 x8 x9 x10 x11 x12 x13 x14 x15 x16 x17 x18 x19) (rowOf x0 x1 x2 x3 x4 x5 p) 2 j) :=
  edge_at (shapeCast S512x2 (View.ld x1 r0_13) shapeCasts_S1x512x2_S512x2) (shapeCast S2x64 (View.ld x6 r0_14) shapeCasts_S1x2x64_S2x64)
    (shapeCast S1x64 (shapeCast S64 (View.ld x7 r0_15) shapeCasts_S1x64_S64) shapeCasts_S64_S1x64)
    (shapeCast S512x64 (View.ld x2 r0_16) shapeCasts_S1x512x64_S512x64)
    (transpose S64x256 [1, 0] (shapeCast S256x64 (View.ld x8 r0_17) shapeCasts_S1x256x64_S256x64) transposes_S256x64_p1_0_S64x256)
    (transpose S64x256 [1, 0] (shapeCast S256x64 (View.ld x9 r0_17) shapeCasts_S1x256x64_S256x64) transposes_S256x64_p1_0_S64x256)
    (shapeCast S1x256 (shapeCast S256 (View.ld x10 r0_18) shapeCasts_S1x256_S256) shapeCasts_S256_S1x256)
    (shapeCast S1x256 (shapeCast S256 (View.ld x11 r0_18) shapeCasts_S1x256_S256) shapeCasts_S256_S1x256)
    (shapeCast S512x64 (View.ld x3 r0_16) shapeCasts_S1x512x64_S512x64)
    (paramsOf x6 x7 x8 x9 x10 x11 x12 x13 x14 x15 x16 x17 x18 x19) (rowOf x0 x1 x2 x3 x4 x5 p) 2 p
    (fun i => cast_slab3 x1 2 (by decide) _ _ p i) (fun i k => cast_slab3 x6 2 (by decide) _ _ i k)
    (fun k => bias_slab2 x7 2 (by decide) _ _ _ 0 k) (fun k => cast_slab3 x2 2 (by decide) _ _ p k)
    (fun k q => tr_slab3 x8 2 (by decide) _ _ _ k q) (fun k q => tr_slab3 x9 2 (by decide) _ _ _ k q)
    (fun q => bias_slab2 x10 2 (by decide) _ _ _ 0 q) (fun q => bias_slab2 x11 2 (by decide) _ _ _ 0 q)
    (fun j => cast_slab3 x3 2 (by decide) _ _ p j)

/-- The block stored for edge type 2's hidden state is that value with a unit axis in front. -/
theorem storeH2 (u : Fin 1) (p : Fin 512) (j : Fin 64) :
    (k0_pay24 (k0_pay18 (View.ld x3 r0_16)) (k0_pay19 (View.ld x1 r0_13) (View.ld x6 r0_14) (View.ld x7 r0_15) (View.ld x2 r0_16) (View.ld x8 r0_17) (View.ld x9 r0_17) (View.ld x10 r0_18)) (k0_pay20 (View.ld x11 r0_18))) (ix3 u p j) = blkEdgeH x0 x1 x2 x3 x4 x5 x6 x7 x8 x9 x10 x11 x12 x13 x14 x15 x16 x17 x18 x19 (ix3 ⟨2, by decide⟩ p j) :=
  (shapeCast_ab_1ab_apply _ _ u p j).trans ((edge2 x0 x1 x2 x3 x4 x5 x6 x7 x8 x9 x10 x11 x12 x13 x14 x15 x16 x17 x18 x19 p).2 j)

/-- The same for its cell state. -/
theorem storeC2 (u : Fin 1) (p : Fin 512) (j : Fin 64) :
    (k0_pay25 (k0_pay18 (View.ld x3 r0_16)) (k0_pay19 (View.ld x1 r0_13) (View.ld x6 r0_14) (View.ld x7 r0_15) (View.ld x2 r0_16) (View.ld x8 r0_17) (View.ld x9 r0_17) (View.ld x10 r0_18)) (k0_pay20 (View.ld x11 r0_18))) (ix3 u p j) = blkEdgeC x0 x1 x2 x3 x4 x5 x6 x7 x8 x9 x10 x11 x12 x13 x14 x15 x16 x17 x18 x19 (ix3 ⟨2, by decide⟩ p j) :=
  (shapeCast_ab_1ab_apply _ _ u p j).trans ((edge2 x0 x1 x2 x3 x4 x5 x6 x7 x8 x9 x10 x11 x12 x13 x14 x15 x16 x17 x18 x19 p).1 j)

/-- Edge type 3 on the block: its new cell and hidden states at local row `p` are the specification's. -/
theorem edge3 (p : Fin 512) :
    (∀ j, (k0_pay30 (k0_pay26 (View.ld x1 r0_19) (View.ld x6 r0_20) (View.ld x7 r0_21)) (k0_pay27 (View.ld x2 r0_22)) (k0_pay28 (View.ld x3 r0_22)) (View.ld x8 r0_23) (View.ld x9 r0_23) (View.ld x10 r0_24) (View.ld x11 r0_24)) (ix2 p j) = edgeC1 (paramsOf x6 x7 x8 x9 x10 x11 x12 x13 x14 x15 x16 x17 x18 x19) (rowOf x0 x1 x2 x3 x4 x5 p) 3 j)
    ∧ (∀ j, (k0_pay31 (k0_pay26 (View.ld x1 r0_19) (View.ld x6 r0_20) (View.ld x7 r0_21)) (k0_pay27 (View.ld x2 r0_22)) (k0_pay28 (View.ld x3 r0_22)) (View.ld x8 r0_23) (View.ld x9 r0_23) (View.ld x10 r0_24) (View.ld x11 r0_24)) (ix2 p j) = edgeH1 (paramsOf x6 x7 x8 x9 x10 x11 x12 x13 x14 x15 x16 x17 x18 x19) (rowOf x0 x1 x2 x3 x4 x5 p) 3 j) :=
  edge_at (shapeCast S512x2 (View.ld x1 r0_19) shapeCasts_S1x512x2_S512x2) (shapeCast S2x64 (View.ld x6 r0_20) shapeCasts_S1x2x64_S2x64)
    (shapeCast S1x64 (shapeCast S64 (View.ld x7 r0_21) shapeCasts_S1x64_S64) shapeCasts_S64_S1x64)
    (shapeCast S512x64 (View.ld x2 r0_22) shapeCasts_S1x512x64_S512x64)
    (transpose S64x256 [1, 0] (shapeCast S256x64 (View.ld x8 r0_23) shapeCasts_S1x256x64_S256x64) transposes_S256x64_p1_0_S64x256)
    (transpose S64x256 [1, 0] (shapeCast S256x64 (View.ld x9 r0_23) shapeCasts_S1x256x64_S256x64) transposes_S256x64_p1_0_S64x256)
    (shapeCast S1x256 (shapeCast S256 (View.ld x10 r0_24) shapeCasts_S1x256_S256) shapeCasts_S256_S1x256)
    (shapeCast S1x256 (shapeCast S256 (View.ld x11 r0_24) shapeCasts_S1x256_S256) shapeCasts_S256_S1x256)
    (shapeCast S512x64 (View.ld x3 r0_22) shapeCasts_S1x512x64_S512x64)
    (paramsOf x6 x7 x8 x9 x10 x11 x12 x13 x14 x15 x16 x17 x18 x19) (rowOf x0 x1 x2 x3 x4 x5 p) 3 p
    (fun i => cast_slab3 x1 3 (by decide) _ _ p i) (fun i k => cast_slab3 x6 3 (by decide) _ _ i k)
    (fun k => bias_slab2 x7 3 (by decide) _ _ _ 0 k) (fun k => cast_slab3 x2 3 (by decide) _ _ p k)
    (fun k q => tr_slab3 x8 3 (by decide) _ _ _ k q) (fun k q => tr_slab3 x9 3 (by decide) _ _ _ k q)
    (fun q => bias_slab2 x10 3 (by decide) _ _ _ 0 q) (fun q => bias_slab2 x11 3 (by decide) _ _ _ 0 q)
    (fun j => cast_slab3 x3 3 (by decide) _ _ p j)

/-- The block stored for edge type 3's hidden state is that value with a unit axis in front. -/
theorem storeH3 (u : Fin 1) (p : Fin 512) (j : Fin 64) :
    (k0_pay32 (k0_pay26 (View.ld x1 r0_19) (View.ld x6 r0_20) (View.ld x7 r0_21)) (k0_pay27 (View.ld x2 r0_22)) (k0_pay28 (View.ld x3 r0_22)) (View.ld x8 r0_23) (View.ld x9 r0_23) (View.ld x10 r0_24) (View.ld x11 r0_24)) (ix3 u p j) = blkEdgeH x0 x1 x2 x3 x4 x5 x6 x7 x8 x9 x10 x11 x12 x13 x14 x15 x16 x17 x18 x19 (ix3 ⟨3, by decide⟩ p j) :=
  (shapeCast_ab_1ab_apply _ _ u p j).trans ((edge3 x0 x1 x2 x3 x4 x5 x6 x7 x8 x9 x10 x11 x12 x13 x14 x15 x16 x17 x18 x19 p).2 j)

/-- The same for its cell state. -/
theorem storeC3 (u : Fin 1) (p : Fin 512) (j : Fin 64) :
    (k0_pay33 (k0_pay26 (View.ld x1 r0_19) (View.ld x6 r0_20) (View.ld x7 r0_21)) (k0_pay27 (View.ld x2 r0_22)) (k0_pay28 (View.ld x3 r0_22)) (View.ld x8 r0_23) (View.ld x9 r0_23) (View.ld x10 r0_24) (View.ld x11 r0_24)) (ix3 u p j) = blkEdgeC x0 x1 x2 x3 x4 x5 x6 x7 x8 x9 x10 x11 x12 x13 x14 x15 x16 x17 x18 x19 (ix3 ⟨3, by decide⟩ p j) :=
  (shapeCast_ab_1ab_apply _ _ u p j).trans ((edge3 x0 x1 x2 x3 x4 x5 x6 x7 x8 x9 x10 x11 x12 x13 x14 x15 x16 x17 x18 x19 p).1 j)

/-- Edge type 4 on the block: its new cell and hidden states at local row `p` are the specification's. -/
theorem edge4 (p : Fin 512) :
    (∀ j, (k0_pay39 (k0_pay34 (View.ld x3 r0_28)) (k0_pay36 (View.ld x1 r0_25) (View.ld x6 r0_26) (View.ld x7 r0_27) (View.ld x2 r0_28) (View.ld x8 r0_29) (View.ld x9 r0_29) (View.ld x10 r0_30) (View.ld x11 r0_30)) (k0_pay37 (View.ld x1 r0_25) (View.ld x6 r0_26) (View.ld x7 r0_27) (View.ld x2 r0_28) (View.ld x8 r0_29) (View.ld x9 r0_29) (View.ld x10 r0_30) (View.ld x11 r0_30)) (k0_pay38 (View.ld x1 r0_25) (View.ld x6 r0_26) (View.ld x7 r0_27) (View.ld x2 r0_28) (View.ld x8 r0_29) (View.ld x9 r0_29) (View.ld x10 r0_30) (View.ld x11 r0_30))) (ix2 p j) = edgeC1 (paramsOf x6 x7 x8 x9 x10 x11 x12 x13 x14 x15 x16 x17 x18 x19) (rowOf x0 x1 x2 x3 x4 x5 p) 4 j)
    ∧ (∀ j, (k0_pay40 (k0_pay34 (View.ld x3 r0_28)) (k0_pay35 (View.ld x1 r0_25) (View.ld x6 r0_26) (View.ld x7 r0_27) (View.ld x2 r0_28) (View.ld x8 r0_29) (View.ld x9 r0_29) (View.ld x10 r0_30) (View.ld x11 r0_30)) (k0_pay36 (View.ld x1 r0_25) (View.ld x6 r0_26) (View.ld x7 r0_27) (View.ld x2 r0_28) (View.ld x8 r0_29) (View.ld x9 r0_29) (View.ld x10 r0_30) (View.ld x11 r0_30)) (k0_pay37 (View.ld x1 r0_25) (View.ld x6 r0_26) (View.ld x7 r0_27) (View.ld x2 r0_28) (View.ld x8 r0_29) (View.ld x9 r0_29) (View.ld x10 r0_30) (View.ld x11 r0_30)) (k0_pay38 (View.ld x1 r0_25) (View.ld x6 r0_26) (View.ld x7 r0_27) (View.ld x2 r0_28) (View.ld x8 r0_29) (View.ld x9 r0_29) (View.ld x10 r0_30) (View.ld x11 r0_30))) (ix2 p j) = edgeH1 (paramsOf x6 x7 x8 x9 x10 x11 x12 x13 x14 x15 x16 x17 x18 x19) (rowOf x0 x1 x2 x3 x4 x5 p) 4 j) :=
  edge_at (shapeCast S512x2 (View.ld x1 r0_25) shapeCasts_S1x512x2_S512x2) (shapeCast S2x64 (View.ld x6 r0_26) shapeCasts_S1x2x64_S2x64)
    (shapeCast S1x64 (shapeCast S64 (View.ld x7 r0_27) shapeCasts_S1x64_S64) shapeCasts_S64_S1x64)
    (shapeCast S512x64 (View.ld x2 r0_28) shapeCasts_S1x512x64_S512x64)
    (transpose S64x256 [1, 0] (shapeCast S256x64 (View.ld x8 r0_29) shapeCasts_S1x256x64_S256x64) transposes_S256x64_p1_0_S64x256)
    (transpose S64x256 [1, 0] (shapeCast S256x64 (View.ld x9 r0_29) shapeCasts_S1x256x64_S256x64) transposes_S256x64_p1_0_S64x256)
    (shapeCast S1x256 (shapeCast S256 (View.ld x10 r0_30) shapeCasts_S1x256_S256) shapeCasts_S256_S1x256)
    (shapeCast S1x256 (shapeCast S256 (View.ld x11 r0_30) shapeCasts_S1x256_S256) shapeCasts_S256_S1x256)
    (shapeCast S512x64 (View.ld x3 r0_28) shapeCasts_S1x512x64_S512x64)
    (paramsOf x6 x7 x8 x9 x10 x11 x12 x13 x14 x15 x16 x17 x18 x19) (rowOf x0 x1 x2 x3 x4 x5 p) 4 p
    (fun i => cast_slab3 x1 4 (by decide) _ _ p i) (fun i k => cast_slab3 x6 4 (by decide) _ _ i k)
    (fun k => bias_slab2 x7 4 (by decide) _ _ _ 0 k) (fun k => cast_slab3 x2 4 (by decide) _ _ p k)
    (fun k q => tr_slab3 x8 4 (by decide) _ _ _ k q) (fun k q => tr_slab3 x9 4 (by decide) _ _ _ k q)
    (fun q => bias_slab2 x10 4 (by decide) _ _ _ 0 q) (fun q => bias_slab2 x11 4 (by decide) _ _ _ 0 q)
    (fun j => cast_slab3 x3 4 (by decide) _ _ p j)

/-- The block stored for edge type 4's hidden state is that value with a unit axis in front. -/
theorem storeH4 (u : Fin 1) (p : Fin 512) (j : Fin 64) :
    (k0_pay41 (k0_pay34 (View.ld x3 r0_28)) (k0_pay35 (View.ld x1 r0_25) (View.ld x6 r0_26) (View.ld x7 r0_27) (View.ld x2 r0_28) (View.ld x8 r0_29) (View.ld x9 r0_29) (View.ld x10 r0_30) (View.ld x11 r0_30)) (k0_pay36 (View.ld x1 r0_25) (View.ld x6 r0_26) (View.ld x7 r0_27) (View.ld x2 r0_28) (View.ld x8 r0_29) (View.ld x9 r0_29) (View.ld x10 r0_30) (View.ld x11 r0_30)) (k0_pay37 (View.ld x1 r0_25) (View.ld x6 r0_26) (View.ld x7 r0_27) (View.ld x2 r0_28) (View.ld x8 r0_29) (View.ld x9 r0_29) (View.ld x10 r0_30) (View.ld x11 r0_30)) (k0_pay38 (View.ld x1 r0_25) (View.ld x6 r0_26) (View.ld x7 r0_27) (View.ld x2 r0_28) (View.ld x8 r0_29) (View.ld x9 r0_29) (View.ld x10 r0_30) (View.ld x11 r0_30))) (ix3 u p j) = blkEdgeH x0 x1 x2 x3 x4 x5 x6 x7 x8 x9 x10 x11 x12 x13 x14 x15 x16 x17 x18 x19 (ix3 ⟨4, by decide⟩ p j) :=
  (shapeCast_ab_1ab_apply _ _ u p j).trans ((edge4 x0 x1 x2 x3 x4 x5 x6 x7 x8 x9 x10 x11 x12 x13 x14 x15 x16 x17 x18 x19 p).2 j)

/-- The same for its cell state. -/
theorem storeC4 (u : Fin 1) (p : Fin 512) (j : Fin 64) :
    (k0_pay42 (k0_pay34 (View.ld x3 r0_28)) (k0_pay36 (View.ld x1 r0_25) (View.ld x6 r0_26) (View.ld x7 r0_27) (View.ld x2 r0_28) (View.ld x8 r0_29) (View.ld x9 r0_29) (View.ld x10 r0_30) (View.ld x11 r0_30)) (k0_pay37 (View.ld x1 r0_25) (View.ld x6 r0_26) (View.ld x7 r0_27) (View.ld x2 r0_28) (View.ld x8 r0_29) (View.ld x9 r0_29) (View.ld x10 r0_30) (View.ld x11 r0_30)) (k0_pay38 (View.ld x1 r0_25) (View.ld x6 r0_26) (View.ld x7 r0_27) (View.ld x2 r0_28) (View.ld x8 r0_29) (View.ld x9 r0_29) (View.ld x10 r0_30) (View.ld x11 r0_30))) (ix3 u p j) = blkEdgeC x0 x1 x2 x3 x4 x5 x6 x7 x8 x9 x10 x11 x12 x13 x14 x15 x16 x17 x18 x19 (ix3 ⟨4, by decide⟩ p j) :=
  (shapeCast_ab_1ab_apply _ _ u p j).trans ((edge4 x0 x1 x2 x3 x4 x5 x6 x7 x8 x9 x10 x11 x12 x13 x14 x15 x16 x17 x18 x19 p).1 j)

/-- Edge type 5 on the block: its new cell and hidden states at local row `p` are the specification's. -/
theorem edge5 (p : Fin 512) :
    (∀ j, (k0_pay48 (k0_pay43 (View.ld x1 r0_31) (View.ld x6 r0_32) (View.ld x7 r0_33)) (k0_pay44 (View.ld x2 r0_34)) (k0_pay45 (View.ld x3 r0_34)) (k0_pay46 (View.ld x8 r0_35)) (View.ld x9 r0_35) (View.ld x10 r0_36) (View.ld x11 r0_36)) (ix2 p j) = edgeC1 (paramsOf x6 x7 x8 x9 x10 x11 x12 x13 x14 x15 x16 x17 x18 x19) (rowOf x0 x1 x2 x3 x4 x5 p) 5 j)
    ∧ (∀ j, (k0_pay49 (k0_pay43 (View.ld x1 r0_31) (View.ld x6 r0_32) (View.ld x7 r0_33)) (k0_pay44 (View.ld x2 r0_34)) (k0_pay45 (View.ld x3 r0_34)) (k0_pay46 (View.ld x8 r0_35)) (View.ld x9 r0_35) (View.ld x10 r0_36) (View.ld x11 r0_36)) (ix2 p j) = edgeH1 (paramsOf x6 x7 x8 x9 x10 x11 x12 x13 x14 x15 x16 x17 x18 x19) (rowOf x0 x1 x2 x3 x4 x5 p) 5 j) :=
  edge_at (shapeCast S512x2 (View.ld x1 r0_31) shapeCasts_S1x512x2_S512x2) (shapeCast S2x64 (View.ld x6 r0_32) shapeCasts_S1x2x64_S2x64)
    (shapeCast S1x64 (shapeCast S64 (View.ld x7 r0_33) shapeCasts_S1x64_S64) shapeCasts_S64_S1x64)
    (shapeCast S512x64 (View.ld x2 r0_34) shapeCasts_S1x512x64_S512x64)
    (transpose S64x256 [1, 0] (shapeCast S256x64 (View.ld x8 r0_35) shapeCasts_S1x256x64_S256x64) transposes_S256x64_p1_0_S64x256)
    (transpose S64x256 [1, 0] (shapeCast S256x64 (View.ld x9 r0_35) shapeCasts_S1x256x64_S256x64) transposes_S256x64_p1_0_S64x256)
    (shapeCast S1x256 (shapeCast S256 (View.ld x10 r0_36) shapeCasts_S1x256_S256) shapeCasts_S256_S1x256)
    (shapeCast S1x256 (shapeCast S256 (View.ld x11 r0_36) shapeCasts_S1x256_S256) shapeCasts_S256_S1x256)
    (shapeCast S512x64 (View.ld x3 r0_34) shapeCasts_S1x512x64_S512x64)
    (paramsOf x6 x7 x8 x9 x10 x11 x12 x13 x14 x15 x16 x17 x18 x19) (rowOf x0 x1 x2 x3 x4 x5 p) 5 p
    (fun i => cast_slab3 x1 5 (by decide) _ _ p i) (fun i k => cast_slab3 x6 5 (by decide) _ _ i k)
    (fun k => bias_slab2 x7 5 (by decide) _ _ _ 0 k) (fun k => cast_slab3 x2 5 (by decide) _ _ p k)
    (fun k q => tr_slab3 x8 5 (by decide) _ _ _ k q) (fun k q => tr_slab3 x9 5 (by decide) _ _ _ k q)
    (fun q => bias_slab2 x10 5 (by decide) _ _ _ 0 q) (fun q => bias_slab2 x11 5 (by decide) _ _ _ 0 q)
    (fun j => cast_slab3 x3 5 (by decide) _ _ p j)

/-- The block stored for edge type 5's hidden state is that value with a unit axis in front. -/
theorem storeH5 (u : Fin 1) (p : Fin 512) (j : Fin 64) :
    (k0_pay50 (k0_pay43 (View.ld x1 r0_31) (View.ld x6 r0_32) (View.ld x7 r0_33)) (k0_pay44 (View.ld x2 r0_34)) (k0_pay45 (View.ld x3 r0_34)) (k0_pay46 (View.ld x8 r0_35)) (View.ld x9 r0_35) (View.ld x10 r0_36) (View.ld x11 r0_36)) (ix3 u p j) = blkEdgeH x0 x1 x2 x3 x4 x5 x6 x7 x8 x9 x10 x11 x12 x13 x14 x15 x16 x17 x18 x19 (ix3 ⟨5, by decide⟩ p j) :=
  (shapeCast_ab_1ab_apply _ _ u p j).trans ((edge5 x0 x1 x2 x3 x4 x5 x6 x7 x8 x9 x10 x11 x12 x13 x14 x15 x16 x17 x18 x19 p).2 j)

/-- The same for its cell state. -/
theorem storeC5 (u : Fin 1) (p : Fin 512) (j : Fin 64) :
    (k0_pay51 (k0_pay43 (View.ld x1 r0_31) (View.ld x6 r0_32) (View.ld x7 r0_33)) (k0_pay44 (View.ld x2 r0_34)) (k0_pay45 (View.ld x3 r0_34)) (k0_pay46 (View.ld x8 r0_35)) (View.ld x9 r0_35) (View.ld x10 r0_36) (View.ld x11 r0_36)) (ix3 u p j) = blkEdgeC x0 x1 x2 x3 x4 x5 x6 x7 x8 x9 x10 x11 x12 x13 x14 x15 x16 x17 x18 x19 (ix3 ⟨5, by decide⟩ p j) :=
  (shapeCast_ab_1ab_apply _ _ u p j).trans ((edge5 x0 x1 x2 x3 x4 x5 x6 x7 x8 x9 x10 x11 x12 x13 x14 x15 x16 x17 x18 x19 p).1 j)

end Cert.Mesrnn.Blk

end
-- ==== Proof.KernelEdges.lean ====
/-
  The two edge windows' buffers after the body.

  The body makes six stores into each edge output buffer, one per edge type, each through the rectangle holding that
  edge type's slab. Each store's payload, at its local index `(u, p, j)`, is the block function of the buffer at the
  index the rectangle sends it to, `(e, p, j)`; the six slabs tile the buffer. So the buffer after the body is the
  block function: a buffer written slab by slab reads back as the one function whose slabs were written.
-/
import proofs.«153604_j15556371546759_2_alg».proof.Proof.KernelEdgeCases

noncomputable section

namespace Cert.Mesrnn.Blk

open Cert.KernelIdeal Cert.KernelIdeal.Gen Idealize.ShloMosaic Idealize.ShloMosaic.ValueIdx
open Cert.Mesrnn Cert.Mesrnn.Vec

variable (x0 : Vec Ideal S512x2 .f32) (x1 : Vec Ideal S6x512x2 .f32) (x2 x3 : Vec Ideal S6x512x64 .f32) (x4 x5 : Vec Ideal S512x64 .f32)
  (x6 : Vec Ideal S6x2x64 .f32) (x7 : Vec Ideal S6x64 .f32) (x8 x9 : Vec Ideal S6x256x64 .f32) (x10 x11 : Vec Ideal S6x256 .f32)
  (x12 : Vec Ideal S2x64 .f32) (x13 : Vec Ideal S64 .f32) (x14 : Vec Ideal S256x448 .f32) (x15 : Vec Ideal S256x64 .f32)
  (x16 x17 : Vec Ideal S256 .f32) (x18 : Vec Ideal S64x2 .f32) (x19 : Vec Ideal S2 .f32)

/-- Output window 21's buffer after the body is the block of new edge hidden states. -/
theorem out21_eq : out0_21 x0 x1 x2 x3 x4 x5 x6 x7 x8 x9 x10 x11 x12 x13 x14 x15 x16 x17 x18 x19 = blkEdgeH x0 x1 x2 x3 x4 x5 x6 x7 x8 x9 x10 x11 x12 x13 x14 x15 x16 x17 x18 x19 := by
  funext y
  unfold out0_21
  refine View.canon_apply_of_pieces (blkEdgeH x0 x1 x2 x3 x4 x5 x6 x7 x8 x9 x10 x11 x12 x13 x14 x15 x16 x17 x18 x19) _ ?_ y (cover0_21 _ _ _ _ _ _ y)
  intro pc hpc x
  simp only [List.mem_cons, List.not_mem_nil, or_false] at hpc
  rcases hpc with rfl | rfl | rfl | rfl | rfl | rfl
  · obtain ⟨u, p, j, rfl⟩ : ∃ (u : Fin 1) (p : Fin 512) (j : Fin 64), x = ix3 u p j := ⟨x 0, x 1, x 2, eq_ix3 x⟩
    exact (storeH5 x0 x1 x2 x3 x4 x5 x6 x7 x8 x9 x10 x11 x12 x13 x14 x15 x16 x17 x18 x19 u p j).trans (congrArg (blkEdgeH x0 x1 x2 x3 x4 x5 x6 x7 x8 x9 x10 x11 x12 x13 x14 x15 x16 x17 x18 x19) (emb_slab 5 (by decide) inb_S6x512x64_S1x512x64_5_0_0 u p j)).symm
  · obtain ⟨u, p, j, rfl⟩ : ∃ (u : Fin 1) (p : Fin 512) (j : Fin 64), x = ix3 u p j := ⟨x 0, x 1, x 2, eq_ix3 x⟩
    exact (storeH4 x0 x1 x2 x3 x4 x5 x6 x7 x8 x9 x10 x11 x12 x13 x14 x15 x16 x17 x18 x19 u p j).trans (congrArg (blkEdgeH x0 x1 x2 x3 x4 x5 x6 x7 x8 x9 x10 x11 x12 x13 x14 x15 x16 x17 x18 x19) (emb_slab 4 (by decide) inb_S6x512x64_S1x512x64_4_0_0 u p j)).symm
  · obtain ⟨u, p, j, rfl⟩ : ∃ (u : Fin 1) (p : Fin 512) (j : Fin 64), x = ix3 u p j := ⟨x 0, x 1, x 2, eq_ix3 x⟩
    exact (storeH3 x0 x1 x2 x3 x4 x5 x6 x7 x8 x9 x10 x11 x12 x13 x14 x15 x16 x17 x18 x19 u p j).trans (congrArg (blkEdgeH x0 x1 x2 x3 x4 x5 x6 x7 x8 x9 x10 x11 x12 x13 x14 x15 x16 x17 x18 x19) (emb_slab 3 (by decide) inb_S6x512x64_S1x512x64_3_0_0 u p j)).symm
  · obtain ⟨u, p, j, rfl⟩ : ∃ (u : Fin 1) (p : Fin 512) (j : Fin 64), x = ix3 u p j := ⟨x 0, x 1, x 2, eq_ix3 x⟩
    exact (storeH2 x0 x1 x2 x3 x4 x5 x6 x7 x8 x9 x10 x11 x12 x13 x14 x15 x16 x17 x18 x19 u p j).trans (congrArg (blkEdgeH x0 x1 x2 x3 x4 x5 x6 x7 x8 x9 x10 x11 x12 x13 x14 x15 x16 x17 x18 x19) (emb_slab 2 (by decide) inb_S6x512x64_S1x512x64_2_0_0 u p j)).symm
  · obtain ⟨u, p, j, rfl⟩ : ∃ (u : Fin 1) (p : Fin 512) (j : Fin 64), x = ix3 u p j := ⟨x 0, x 1, x 2, eq_ix3 x⟩
    exact (storeH1 x0 x1 x2 x3 x4 x5 x6 x7 x8 x9 x10 x11 x12 x13 x14 x15 x16 x17 x18 x19 u p j).trans (congrArg (blkEdgeH x0 x1 x2 x3 x4 x5 x6 x7 x8 x9 x10 x11 x12 x13 x14 x15 x16 x17 x18 x19) (emb_slab 1 (by decide) inb_S6x512x64_S1x512x64_1_0_0 u p j)).symm
  · obtain ⟨u, p, j, rfl⟩ : ∃ (u : Fin 1) (p : Fin 512) (j : Fin 64), x = ix3 u p j := ⟨x 0, x 1, x 2, eq_ix3 x⟩
    exact (storeH0 x0 x1 x2 x3 x4 x5 x6 x7 x8 x9 x10 x11 x12 x13 x14 x15 x16 x17 x18 x19 u p j).trans (congrArg (blkEdgeH x0 x1 x2 x3 x4 x5 x6 x7 x8 x9 x10 x11 x12 x13 x14 x15 x16 x17 x18 x19) (emb_slab 0 (by decide) inb_S6x512x64_S1x512x64_0_0_0 u p j)).symm

/-- Output window 22's buffer after the body is the block of new edge cell states. -/
theorem out22_eq : out0_22 x0 x1 x2 x3 x4 x5 x6 x7 x8 x9 x10 x11 x12 x13 x14 x15 x16 x17 x18 x19 = blkEdgeC x0 x1 x2 x3 x4 x5 x6 x7 x8 x9 x10 x11 x12 x13 x14 x15 x16 x17 x18 x19 := by
  funext y
  unfold out0_22
  refine View.canon_apply_of_pieces (blkEdgeC x0 x1 x2 x3 x4 x5 x6 x7 x8 x9 x10 x11 x12 x13 x14 x15 x16 x17 x18 x19) _ ?_ y (cover0_22 _ _ _ _ _ _ y)
  intro pc hpc x
  simp only [List.mem_cons, List.not_mem_nil, or_false] at hpc
  rcases hpc with rfl | rfl | rfl | rfl | rfl | rfl
  · obtain ⟨u, p, j, rfl⟩ : ∃ (u : Fin 1) (p : Fin 512) (j : Fin 64), x = ix3 u p j := ⟨x 0, x 1, x 2, eq_ix3 x⟩
    exact (storeC5 x0 x1 x2 x3 x4 x5 x6 x7 x8 x9 x10 x11 x12 x13 x14 x15 x16 x17 x18 x19 u p j).trans (congrArg (blkEdgeC x0 x1 x2 x3 x4 x5 x6 x7 x8 x9 x10 x11 x12 x13 x14 x15 x16 x17 x18 x19) (emb_slab 5 (by decide) inb_S6x512x64_S1x512x64_5_0_0 u p j)).symm
  · obtain ⟨u, p, j, rfl⟩ : ∃ (u : Fin 1) (p : Fin 512) (j : Fin 64), x = ix3 u p j := ⟨x 0, x 1, x 2, eq_ix3 x⟩
    exact (storeC4 x0 x1 x2 x3 x4 x5 x6 x7 x8 x9 x10 x11 x12 x13 x14 x15 x16 x17 x18 x19 u p j).trans (congrArg (blkEdgeC x0 x1 x2 x3 x4 x5 x6 x7 x8 x9 x10 x11 x12 x13 x14 x15 x16 x17 x18 x19) (emb_slab 4 (by decide) inb_S6x512x64_S1x512x64_4_0_0 u p j)).symm
  · obtain ⟨u, p, j, rfl⟩ : ∃ (u : Fin 1) (p : Fin 512) (j : Fin 64), x = ix3 u p j := ⟨x 0, x 1, x 2, eq_ix3 x⟩
    exact (storeC3 x0 x1 x2 x3 x4 x5 x6 x7 x8 x9 x10 x11 x12 x13 x14 x15 x16 x17 x18 x19 u p j).trans (congrArg (blkEdgeC x0 x1 x2 x3 x4 x5 x6 x7 x8 x9 x10 x11 x12 x13 x14 x15 x16 x17 x18 x19) (emb_slab 3 (by decide) inb_S6x512x64_S1x512x64_3_0_0 u p j)).symm
  · obtain ⟨u, p, j, rfl⟩ : ∃ (u : Fin 1) (p : Fin 512) (j : Fin 64), x = ix3 u p j := ⟨x 0, x 1, x 2, eq_ix3 x⟩
    exact (storeC2 x0 x1 x2 x3 x4 x5 x6 x7 x8 x9 x10 x11 x12 x13 x14 x15 x16 x17 x18 x19 u p j).trans (congrArg (blkEdgeC x0 x1 x2 x3 x4 x5 x6 x7 x8 x9 x10 x11 x12 x13 x14 x15 x16 x17 x18 x19) (emb_slab 2 (by decide) inb_S6x512x64_S1x512x64_2_0_0 u p j)).symm
  · obtain ⟨u, p, j, rfl⟩ : ∃ (u : Fin 1) (p : Fin 512) (j : Fin 64), x = ix3 u p j := ⟨x 0, x 1, x 2, eq_ix3 x⟩
    exact (storeC1 x0 x1 x2 x3 x4 x5 x6 x7 x8 x9 x10 x11 x12 x13 x14 x15 x16 x17 x18 x19 u p j).trans (congrArg (blkEdgeC x0 x1 x2 x3 x4 x5 x6 x7 x8 x9 x10 x11 x12 x13 x14 x15 x16 x17 x18 x19) (emb_slab 1 (by decide) inb_S6x512x64_S1x512x64_1_0_0 u p j)).symm
  · obtain ⟨u, p, j, rfl⟩ : ∃ (u : Fin 1) (p : Fin 512) (j : Fin 64), x = ix3 u p j := ⟨x 0, x 1, x 2, eq_ix3 x⟩
    exact (storeC0 x0 x1 x2 x3 x4 x5 x6 x7 x8 x9 x10 x11 x12 x13 x14 x15 x16 x17 x18 x19 u p j).trans (congrArg (blkEdgeC x0 x1 x2 x3 x4 x5 x6 x7 x8 x9 x10 x11 x12 x13 x14 x15 x16 x17 x18 x19) (emb_slab 0 (by decide) inb_S6x512x64_S1x512x64_0_0_0 u p j)).symm

end Cert.Mesrnn.Blk

end
-- ==== Proof.KernelNode.lean ====
/-
  The kernel's node cell and new position on one block, and the three node windows' buffers.

  After the six edge cells the body embeds the block's positions, lays the embedding and the six new edge hidden blocks
  side by side, runs the node cell on that 448-column block (the node weights loaded whole and transposed, the biases
  as one row), stores the new node hidden and cell states, and stores the position plus a tanh of the decoder's
  product. The parameters of this part are loaded whole, so a load reads the array itself. With the edge types' hidden
  states already identified, the three stored values at local row `p` are the specification's for the row the block
  holds at `p`; each of these buffers is written by one whole store, so the buffer is the stored value.
-/
import proofs.«153604_j15556371546759_2_alg».proof.Proof.KernelEdgeCases

noncomputable section

namespace Cert.Mesrnn.Blk

open Cert.KernelIdeal Cert.KernelIdeal.Gen Idealize.ShloMosaic Idealize.ShloMosaic.ValueIdx
open Cert.Mesrnn Cert.Mesrnn.Vec

/-- A load through the whole rectangle of a matrix reads the matrix. -/
theorem ld_whole2 {a b : ℕ} (X : Vec Ideal ⟨2, ![a, b]⟩ .f32)
    (inb : ∀ ax, (![0, 0] : Fin 2 → ℕ) ax + (⟨2, ![a, b]⟩ : Shape).size ax ≤ (⟨2, ![a, b]⟩ : Shape).size ax) (i : Fin a) (j : Fin b) :
    View.ld X (Rect.unit (s := ⟨2, ![a, b]⟩) ![0, 0] (⟨2, ![a, b]⟩ : Shape).size inb) (ix2 i j) = X (ix2 i j) :=
  congrFun (View.ld_unit_zero zeros2 inb X) (ix2 i j)

/-- A load through the whole rectangle of a vector reads the vector. -/
theorem ld_whole1 {a : ℕ} (X : Vec Ideal ⟨1, ![a]⟩ .f32)
    (inb : ∀ ax, (![0] : Fin 1 → ℕ) ax + (⟨1, ![a]⟩ : Shape).size ax ≤ (⟨1, ![a]⟩ : Shape).size ax) (i : Fin a) :
    View.ld X (Rect.unit (s := ⟨1, ![a]⟩) ![0] (⟨1, ![a]⟩ : Shape).size inb) (ix1 i) = X (ix1 i) :=
  congrFun (View.ld_unit_zero zeros1 inb X) (ix1 i)

variable (x0 : Vec Ideal S512x2 .f32) (x1 : Vec Ideal S6x512x2 .f32) (x2 x3 : Vec Ideal S6x512x64 .f32) (x4 x5 : Vec Ideal S512x64 .f32)
  (x6 : Vec Ideal S6x2x64 .f32) (x7 : Vec Ideal S6x64 .f32) (x8 x9 : Vec Ideal S6x256x64 .f32) (x10 x11 : Vec Ideal S6x256 .f32)
  (x12 : Vec Ideal S2x64 .f32) (x13 : Vec Ideal S64 .f32) (x14 : Vec Ideal S256x448 .f32) (x15 : Vec Ideal S256x64 .f32)
  (x16 x17 : Vec Ideal S256 .f32) (x18 : Vec Ideal S64x2 .f32) (x19 : Vec Ideal S2 .f32)

/-- The block of new node hidden states: at `(p, j)`, the block's row `p`. -/
def blkNodeH : Vec Ideal S512x64 .f32 := fun y =>
  nodeH1 (paramsOf x6 x7 x8 x9 x10 x11 x12 x13 x14 x15 x16 x17 x18 x19) (rowOf x0 x1 x2 x3 x4 x5 (y 0)) (y 1)

/-- The block of new node cell states. -/
def blkNodeC : Vec Ideal S512x64 .f32 := fun y =>
  nodeC1 (paramsOf x6 x7 x8 x9 x10 x11 x12 x13 x14 x15 x16 x17 x18 x19) (rowOf x0 x1 x2 x3 x4 x5 (y 0)) (y 1)

/-- The block of new positions. -/
def blkPos : Vec Ideal S512x2 .f32 := fun y =>
  outPos (paramsOf x6 x7 x8 x9 x10 x11 x12 x13 x14 x15 x16 x17 x18 x19) (rowOf x0 x1 x2 x3 x4 x5 (y 0)) (y 1)

/-- The three values the body stores for the node, at local row `p`, are the specification's. -/
theorem node_blk (p : Fin 512) :
    (∀ j, (k0_pay55 (k0_pay8 (k0_pay2 (View.ld x3 r0_4)) (k0_pay3 (View.ld x11 r0_6)) (k0_pay4 (View.ld x1 r0_1) (View.ld x6 r0_2) (View.ld x7 r0_3) (View.ld x2 r0_4) (View.ld x8 r0_5) (View.ld x9 r0_5)) (k0_pay5 (View.ld x10 r0_6))) (k0_pay15 (k0_pay11 (View.ld x1 r0_7) (View.ld x6 r0_8) (View.ld x7 r0_9)) (k0_pay12 (View.ld x2 r0_10)) (View.ld x3 r0_10) (View.ld x8 r0_11) (View.ld x9 r0_11) (View.ld x10 r0_12) (View.ld x11 r0_12)) (k0_pay23 (k0_pay18 (View.ld x3 r0_16)) (k0_pay19 (View.ld x1 r0_13) (View.ld x6 r0_14) (View.ld x7 r0_15) (View.ld x2 r0_16) (View.ld x8 r0_17) (View.ld x9 r0_17) (View.ld x10 r0_18)) (k0_pay20 (View.ld x11 r0_18))) (k0_pay31 (k0_pay26 (View.ld x1 r0_19) (View.ld x6 r0_20) (View.ld x7 r0_21)) (k0_pay27 (View.ld x2 r0_22)) (k0_pay28 (View.ld x3 r0_22)) (View.ld x8 r0_23) (View.ld x9 r0_23) (View.ld x10 r0_24) (View.ld x11 r0_24)) (k0_pay40 (k0_pay34 (View.ld x3 r0_28)) (k0_pay35 (View.ld x1 r0_25) (View.ld x6 r0_26) (View.ld x7 r0_27) (View.ld x2 r0_28) (View.ld x8 r0_29) (View.ld x9 r0_29) (View.ld x10 r0_30) (View.ld x11 r0_30)) (k0_pay36 (View.ld x1 r0_25) (View.ld x6 r0_26) (View.ld x7 r0_27) (View.ld x2 r0_28) (View.ld x8 r0_29) (View.ld x9 r0_29) (View.ld x10 r0_30) (View.ld x11 r0_30)) (k0_pay37 (View.ld x1 r0_25) (View.ld x6 r0_26) (View.ld x7 r0_27) (View.ld x2 r0_28) (View.ld x8 r0_29) (View.ld x9 r0_29) (View.ld x10 r0_30) (View.ld x11 r0_30)) (k0_pay38 (View.ld x1 r0_25) (View.ld x6 r0_26) (View.ld x7 r0_27) (View.ld x2 r0_28) (View.ld x8 r0_29) (View.ld x9 r0_29) (View.ld x10 r0_30) (View.ld x11 r0_30))) (k0_pay49 (k0_pay43 (View.ld x1 r0_31) (View.ld x6 r0_32) (View.ld x7 r0_33)) (k0_pay44 (View.ld x2 r0_34)) (k0_pay45 (View.ld x3 r0_34)) (k0_pay46 (View.ld x8 r0_35)) (View.ld x9 r0_35) (View.ld x10 r0_36) (View.ld x11 r0_36)) (k0_pay52 (View.ld x0 r0_0) (View.ld x12 r0_37)) (k0_pay53 (View.ld x13 r0_38)) (View.ld x4 r0_39) (View.ld x5 r0_39) (View.ld x14 r0_40) (View.ld x15 r0_41) (View.ld x16 r0_42) (View.ld x17 r0_42)) (ix2 p j) = nodeC1 (paramsOf x6 x7 x8 x9 x10 x11 x12 x13 x14 x15 x16 x17 x18 x19) (rowOf x0 x1 x2 x3 x4 x5 p) j)
    ∧ (∀ j, (k0_pay56 (k0_pay8 (k0_pay2 (View.ld x3 r0_4)) (k0_pay3 (View.ld x11 r0_6)) (k0_pay4 (View.ld x1 r0_1) (View.ld x6 r0_2) (View.ld x7 r0_3) (View.ld x2 r0_4) (View.ld x8 r0_5) (View.ld x9 r0_5)) (k0_pay5 (View.ld x10 r0_6))) (k0_pay15 (k0_pay11 (View.ld x1 r0_7) (View.ld x6 r0_8) (View.ld x7 r0_9)) (k0_pay12 (View.ld x2 r0_10)) (View.ld x3 r0_10) (View.ld x8 r0_11) (View.ld x9 r0_11) (View.ld x10 r0_12) (View.ld x11 r0_12)) (k0_pay23 (k0_pay18 (View.ld x3 r0_16)) (k0_pay19 (View.ld x1 r0_13) (View.ld x6 r0_14) (View.ld x7 r0_15) (View.ld x2 r0_16) (View.ld x8 r0_17) (View.ld x9 r0_17) (View.ld x10 r0_18)) (k0_pay20 (View.ld x11 r0_18))) (k0_pay31 (k0_pay26 (View.ld x1 r0_19) (View.ld x6 r0_20) (View.ld x7 r0_21)) (k0_pay27 (View.ld x2 r0_22)) (k0_pay28 (View.ld x3 r0_22)) (View.ld x8 r0_23) (View.ld x9 r0_23) (View.ld x10 r0_24) (View.ld x11 r0_24)) (k0_pay40 (k0_pay34 (View.ld x3 r0_28)) (k0_pay35 (View.ld x1 r0_25) (View.ld x6 r0_26) (View.ld x7 r0_27) (View.ld x2 r0_28) (View.ld x8 r0_29) (View.ld x9 r0_29) (View.ld x10 r0_30) (View.ld x11 r0_30)) (k0_pay36 (View.ld x1 r0_25) (View.ld x6 r0_26) (View.ld x7 r0_27) (View.ld x2 r0_28) (View.ld x8 r0_29) (View.ld x9 r0_29) (View.ld x10 r0_30) (View.ld x11 r0_30)) (k0_pay37 (View.ld x1 r0_25) (View.ld x6 r0_26) (View.ld x7 r0_27) (View.ld x2 r0_28) (View.ld x8 r0_29) (View.ld x9 r0_29) (View.ld x10 r0_30) (View.ld x11 r0_30)) (k0_pay38 (View.ld x1 r0_25) (View.ld x6 r0_26) (View.ld x7 r0_27) (View.ld x2 r0_28) (View.ld x8 r0_29) (View.ld x9 r0_29) (View.ld x10 r0_30) (View.ld x11 r0_30))) (k0_pay49 (k0_pay43 (View.ld x1 r0_31) (View.ld x6 r0_32) (View.ld x7 r0_33)) (k0_pay44 (View.ld x2 r0_34)) (k0_pay45 (View.ld x3 r0_34)) (k0_pay46 (View.ld x8 r0_35)) (View.ld x9 r0_35) (View.ld x10 r0_36) (View.ld x11 r0_36)) (k0_pay52 (View.ld x0 r0_0) (View.ld x12 r0_37)) (k0_pay53 (View.ld x13 r0_38)) (View.ld x4 r0_39) (View.ld x5 r0_39) (View.ld x14 r0_40) (View.ld x15 r0_41) (View.ld x16 r0_42) (View.ld x17 r0_42)) (ix2 p j) = nodeH1 (paramsOf x6 x7 x8 x9 x10 x11 x12 x13 x14 x15 x16 x17 x18 x19) (rowOf x0 x1 x2 x3 x4 x5 p) j)
    ∧ (∀ d, (k0_pay1 (View.ld x0 r0_0) (k0_pay57 (k0_pay8 (k0_pay2 (View.ld x3 r0_4)) (k0_pay3 (View.ld x11 r0_6)) (k0_pay4 (View.ld x1 r0_1) (View.ld x6 r0_2) (View.ld x7 r0_3) (View.ld x2 r0_4) (View.ld x8 r0_5) (View.ld x9 r0_5)) (k0_pay5 (View.ld x10 r0_6))) (k0_pay15 (k0_pay11 (View.ld x1 r0_7) (View.ld x6 r0_8) (View.ld x7 r0_9)) (k0_pay12 (View.ld x2 r0_10)) (View.ld x3 r0_10) (View.ld x8 r0_11) (View.ld x9 r0_11) (View.ld x10 r0_12) (View.ld x11 r0_12)) (k0_pay23 (k0_pay18 (View.ld x3 r0_16)) (k0_pay19 (View.ld x1 r0_13) (View.ld x6 r0_14) (View.ld x7 r0_15) (View.ld x2 r0_16) (View.ld x8 r0_17) (View.ld x9 r0_17) (View.ld x10 r0_18)) (k0_pay20 (View.ld x11 r0_18))) (k0_pay31 (k0_pay26 (View.ld x1 r0_19) (View.ld x6 r0_20) (View.ld x7 r0_21)) (k0_pay27 (View.ld x2 r0_22)) (k0_pay28 (View.ld x3 r0_22)) (View.ld x8 r0_23) (View.ld x9 r0_23) (View.ld x10 r0_24) (View.ld x11 r0_24)) (k0_pay40 (k0_pay34 (View.ld x3 r0_28)) (k0_pay35 (View.ld x1 r0_25) (View.ld x6 r0_26) (View.ld x7 r0_27) (View.ld x2 r0_28) (View.ld x8 r0_29) (View.ld x9 r0_29) (View.ld x10 r0_30) (View.ld x11 r0_30)) (k0_pay36 (View.ld x1 r0_25) (View.ld x6 r0_26) (View.ld x7 r0_27) (View.ld x2 r0_28) (View.ld x8 r0_29) (View.ld x9 r0_29) (View.ld x10 r0_30) (View.ld x11 r0_30)) (k0_pay37 (View.ld x1 r0_25) (View.ld x6 r0_26) (View.ld x7 r0_27) (View.ld x2 r0_28) (View.ld x8 r0_29) (View.ld x9 r0_29) (View.ld x10 r0_30) (View.ld x11 r0_30)) (k0_pay38 (View.ld x1 r0_25) (View.ld x6 r0_26) (View.ld x7 r0_27) (View.ld x2 r0_28) (View.ld x8 r0_29) (View.ld x9 r0_29) (View.ld x10 r0_30) (View.ld x11 r0_30))) (k0_pay49 (k0_pay43 (View.ld x1 r0_31) (View.ld x6 r0_32) (View.ld x7 r0_33)) (k0_pay44 (View.ld x2 r0_34)) (k0_pay45 (View.ld x3 r0_34)) (k0_pay46 (View.ld x8 r0_35)) (View.ld x9 r0_35) (View.ld x10 r0_36) (View.ld x11 r0_36)) (k0_pay52 (View.ld x0 r0_0) (View.ld x12 r0_37)) (k0_pay53 (View.ld x13 r0_38)) (View.ld x4 r0_39) (View.ld x5 r0_39) (View.ld x14 r0_40) (View.ld x15 r0_41) (View.ld x16 r0_42) (View.ld x17 r0_42) (View.ld x18 r0_43)) (View.ld x19 r0_44)) (ix2 p d) = outPos (paramsOf x6 x7 x8 x9 x10 x11 x12 x13 x14 x15 x16 x17 x18 x19) (rowOf x0 x1 x2 x3 x4 x5 p) d) :=
  node_at (View.ld x0 r0_0) (View.ld x12 r0_37) (k0_pay53 (View.ld x13 r0_38))
    (k0_pay8 (k0_pay2 (View.ld x3 r0_4)) (k0_pay3 (View.ld x11 r0_6)) (k0_pay4 (View.ld x1 r0_1) (View.ld x6 r0_2) (View.ld x7 r0_3) (View.ld x2 r0_4) (View.ld x8 r0_5) (View.ld x9 r0_5)) (k0_pay5 (View.ld x10 r0_6)))
    (k0_pay15 (k0_pay11 (View.ld x1 r0_7) (View.ld x6 r0_8) (View.ld x7 r0_9)) (k0_pay12 (View.ld x2 r0_10)) (View.ld x3 r0_10) (View.ld x8 r0_11) (View.ld x9 r0_11) (View.ld x10 r0_12) (View.ld x11 r0_12))
    (k0_pay23 (k0_pay18 (View.ld x3 r0_16)) (k0_pay19 (View.ld x1 r0_13) (View.ld x6 r0_14) (View.ld x7 r0_15) (View.ld x2 r0_16) (View.ld x8 r0_17) (View.ld x9 r0_17) (View.ld x10 r0_18)) (k0_pay20 (View.ld x11 r0_18)))
    (k0_pay31 (k0_pay26 (View.ld x1 r0_19) (View.ld x6 r0_20) (View.ld x7 r0_21)) (k0_pay27 (View.ld x2 r0_22)) (k0_pay28 (View.ld x3 r0_22)) (View.ld x8 r0_23) (View.ld x9 r0_23) (View.ld x10 r0_24) (View.ld x11 r0_24))
    (k0_pay40 (k0_pay34 (View.ld x3 r0_28)) (k0_pay35 (View.ld x1 r0_25) (View.ld x6 r0_26) (View.ld x7 r0_27) (View.ld x2 r0_28) (View.ld x8 r0_29) (View.ld x9 r0_29) (View.ld x10 r0_30) (View.ld x11 r0_30)) (k0_pay36 (View.ld x1 r0_25) (View.ld x6 r0_26) (View.ld x7 r0_27) (View.ld x2 r0_28) (View.ld x8 r0_29) (View.ld x9 r0_29) (View.ld x10 r0_30) (View.ld x11 r0_30)) (k0_pay37 (View.ld x1 r0_25) (View.ld x6 r0_26) (View.ld x7 r0_27) (View.ld x2 r0_28) (View.ld x8 r0_29) (View.ld x9 r0_29) (View.ld x10 r0_30) (View.ld x11 r0_30)) (k0_pay38 (View.ld x1 r0_25) (View.ld x6 r0_26) (View.ld x7 r0_27) (View.ld x2 r0_28) (View.ld x8 r0_29) (View.ld x9 r0_29) (View.ld x10 r0_30) (View.ld x11 r0_30)))
    (k0_pay49 (k0_pay43 (View.ld x1 r0_31) (View.ld x6 r0_32) (View.ld x7 r0_33)) (k0_pay44 (View.ld x2 r0_34)) (k0_pay45 (View.ld x3 r0_34)) (k0_pay46 (View.ld x8 r0_35)) (View.ld x9 r0_35) (View.ld x10 r0_36) (View.ld x11 r0_36))
    (View.ld x4 r0_39)
    (transpose S448x256 [1, 0] (View.ld x14 r0_40) transposes_S256x448_p1_0_S448x256)
    (transpose S64x256 [1, 0] (View.ld x15 r0_41) transposes_S256x64_p1_0_S64x256)
    (shapeCast S1x256 (View.ld x16 r0_42) shapeCasts_S256_S1x256) (shapeCast S1x256 (View.ld x17 r0_42) shapeCasts_S256_S1x256)
    (View.ld x5 r0_39) (View.ld x18 r0_43) (shapeCast S1x2 (View.ld x19 r0_44) shapeCasts_S2_S1x2)
    (paramsOf x6 x7 x8 x9 x10 x11 x12 x13 x14 x15 x16 x17 x18 x19) (rowOf x0 x1 x2 x3 x4 x5 p) p
    (fun d => ld_whole2 x0 _ p d) (fun i k => ld_whole2 x12 _ i k)
    (fun k => (shapeCast_a_1a_apply _ _ 0 k).trans (ld_whole1 x13 _ k))
    (edge0 x0 x1 x2 x3 x4 x5 x6 x7 x8 x9 x10 x11 x12 x13 x14 x15 x16 x17 x18 x19 p).2 (edge1 x0 x1 x2 x3 x4 x5 x6 x7 x8 x9 x10 x11 x12 x13 x14 x15 x16 x17 x18 x19 p).2 (edge2 x0 x1 x2 x3 x4 x5 x6 x7 x8 x9 x10 x11 x12 x13 x14 x15 x16 x17 x18 x19 p).2 (edge3 x0 x1 x2 x3 x4 x5 x6 x7 x8 x9 x10 x11 x12 x13 x14 x15 x16 x17 x18 x19 p).2 (edge4 x0 x1 x2 x3 x4 x5 x6 x7 x8 x9 x10 x11 x12 x13 x14 x15 x16 x17 x18 x19 p).2 (edge5 x0 x1 x2 x3 x4 x5 x6 x7 x8 x9 x10 x11 x12 x13 x14 x15 x16 x17 x18 x19 p).2
    (fun k => ld_whole2 x4 _ p k)
    (fun k q => (transpose_ix2_apply _ _ k q).trans (ld_whole2 x14 _ q k))
    (fun k q => (transpose_ix2_apply _ _ k q).trans (ld_whole2 x15 _ q k))
    (fun q => (shapeCast_a_1a_apply _ _ 0 q).trans (ld_whole1 x16 _ q))
    (fun q => (shapeCast_a_1a_apply _ _ 0 q).trans (ld_whole1 x17 _ q))
    (fun j => ld_whole2 x5 _ p j) (fun k d => ld_whole2 x18 _ k d)
    (fun d => (shapeCast_a_1a_apply _ _ 0 d).trans (ld_whole1 x19 _ d))

/-! ## The three node windows' buffers after the body -/

theorem out23_eq : out0_23 x0 x1 x2 x3 x4 x5 x6 x7 x8 x9 x10 x11 x12 x13 x14 x15 x16 x17 x18 x19 = blkNodeH x0 x1 x2 x3 x4 x5 x6 x7 x8 x9 x10 x11 x12 x13 x14 x15 x16 x17 x18 x19 := by
  unfold out0_23
  rw [View.canon_unit_zero zeros2]
  funext y
  obtain ⟨p, j, rfl⟩ : ∃ (p : Fin 512) (j : Fin 64), y = ix2 p j := ⟨y 0, y 1, eq_ix2 y⟩
  exact (node_blk x0 x1 x2 x3 x4 x5 x6 x7 x8 x9 x10 x11 x12 x13 x14 x15 x16 x17 x18 x19 p).2.1 j

theorem out24_eq : out0_24 x0 x1 x2 x3 x4 x5 x6 x7 x8 x9 x10 x11 x12 x13 x14 x15 x16 x17 x18 x19 = blkNodeC x0 x1 x2 x3 x4 x5 x6 x7 x8 x9 x10 x11 x12 x13 x14 x15 x16 x17 x18 x19 := by
  unfold out0_24
  rw [View.canon_unit_zero zeros2]
  funext y
  obtain ⟨p, j, rfl⟩ : ∃ (p : Fin 512) (j : Fin 64), y = ix2 p j := ⟨y 0, y 1, eq_ix2 y⟩
  exact (node_blk x0 x1 x2 x3 x4 x5 x6 x7 x8 x9 x10 x11 x12 x13 x14 x15 x16 x17 x18 x19 p).1 j

theorem out20_eq : out0_20 x0 x1 x2 x3 x4 x5 x6 x7 x8 x9 x10 x11 x12 x13 x14 x15 x16 x17 x18 x19 = blkPos x0 x1 x2 x3 x4 x5 x6 x7 x8 x9 x10 x11 x12 x13 x14 x15 x16 x17 x18 x19 := by
  unfold out0_20
  rw [View.canon_unit_zero zeros2]
  funext y
  obtain ⟨p, d, rfl⟩ : ∃ (p : Fin 512) (d : Fin 2), y = ix2 p d := ⟨y 0, y 1, eq_ix2 y⟩
  exact (node_blk x0 x1 x2 x3 x4 x5 x6 x7 x8 x9 x10 x11 x12 x13 x14 x15 x16 x17 x18 x19 p).2.2 d

end Cert.Mesrnn.Blk

end
-- ==== Proof.OutWindows.lean ====
/-
  From blocks to arrays, window by window: each result array after the kernel's run is the specification's array.

  What grid point `t` writes back to an output window is the body's buffer for that window, which is the block
  function of the point's input blocks; those blocks hold batch rows `512 t + p` and the arrays' own parameters, and the
  window's block sends its local index to batch row `512 t + p`, so what is written back is block `t` of the
  specification's array. The 256 blocks cover the array (row `r` lies in block `r / 512`), so the array after the run
  is the specification's array. The five windows differ in their shapes and in which result they hold.
-/
import proofs.«153604_j15556371546759_2_alg».proof.Proof.Gen.KernelIdeal.Value
import proofs.«153604_j15556371546759_2_alg».proof.Proof.KernelBlocks
import proofs.«153604_j15556371546759_2_alg».proof.Proof.KernelEdges
import proofs.«153604_j15556371546759_2_alg».proof.Proof.KernelNode

noncomputable section

namespace Cert.Mesrnn.Arr

open Cert.KernelIdeal Cert.KernelIdeal.Gen Idealize.ShloMosaic Idealize.ShloMosaic.TcCoe Idealize.SL.Sem Idealize.ShloMosaic.ValueIdx
open Cert.Mesrnn Cert.Mesrnn.Blk
open Idealize.ShloMosaic.Pipeline (Dat)

variable (m : (ℓ : Loc nD τ sig) → Buf (Elt Ideal) ℓ)

/-! ## Output window 20 -/

/-- Its index map over the grid (decided over the 256 points): block `t` on the row axis, block 0 elsewhere. -/
theorem ix_w20 : ∀ t : Fin cfg0.N, win0_20.index t (0 : Fin 2) = t.val ∧ win0_20.index t (1 : Fin 2) = 0 :=
  (by decide +kernel : ∀ t : Fin grid0.N, _)

/-- Its block at point `t` sends the local index to batch row `512 t + p`. -/
theorem emb20 (t : Fin cfg0.N) (p : Fin 512) (d : Fin 2) :
    ((cfg0.win 20).blk t).view.emb (ix2 p d) = ix2 (rowAt t p) d := by
  obtain ⟨e0, e1⟩ := ix_w20 t
  refine funext fun ax => Fin.ext ?_
  match ax with
  | ⟨0, _⟩ => show win0_20.index t (0 : Fin 2) * 512 + 1 * p.val = 512 * t.val + p.val; omega
  | ⟨1, _⟩ => show win0_20.index t (1 : Fin 2) * 2 + 1 * d.val = d.val; omega

/-- What point `t` writes back is block `t` of the specification's array. -/
theorem flushed20_eq (c : Dev nD) (t : Fin cfg0.N) :
    (dats m 0 c).flushed 20 t = ((cfg0.win 20).blk t).view.read (Elt Ideal) (GPos (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19)) := by
  rw [Value.flushed20]
  refine funext fun (y : S512x2.Idx) => ?_
  obtain ⟨p, d, rfl⟩ : ∃ (p : Fin 512) (d : Fin 2), y = ix2 p d := ⟨y 0, y 1, eq_ix2 y⟩
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 p d)
    = GPos (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (((cfg0.win 20).blk t).view.emb (ix2 p d))
  rw [emb20 t p d, out20_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)]
  show outPos (paramsOf (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (rowOf (iblk m c 0 t) (iblk m c 1 t) (iblk m c 2 t) (iblk m c 3 t) (iblk m c 4 t) (iblk m c 5 t) p) d
    = outPos (paramsOf (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19)) (rowOf (V m c main_arg0) (V m c main_arg1) (V m c main_arg2) (V m c main_arg3) (V m c main_arg4) (V m c main_arg5) (rowAt t p)) d
  rw [params_blk m c t, row_blk m c t p]

/-- An index of the array is in point `t`'s block iff each coordinate is in the block's range on its axis. -/
theorem mem_blk20 (t : Fin cfg0.N) (i : S131072x2.Idx) :
    i ∈ ((cfg0.win 20).blk t).view.set ↔ ∀ a : Fin 2, win0_20.index t a * S512x2.size a ≤ (i a).val ∧ (i a).val < win0_20.index t a * S512x2.size a + S512x2.size a := by
  show i ∈ ((View.whole main_v0_0).slice (win0_20.rect t)).set ↔ _
  rw [View.set_slice_whole, Rect.mem_set_unit]
  exact Iff.rfl

/-- Every index of the array is in some point's block: the point its row over 512 names. -/
theorem cover20 (i : S131072x2.Idx) : ∃ t : Fin cfg0.N, (cfg0.win 20).flush t = true ∧ i ∈ ((cfg0.win 20).blk t).view.set := by
  have hN : cfg0.N = 256 := N_0
  have hrow : (i 0).val < 131072 := (i 0).isLt
  obtain ⟨t, ht⟩ : ∃ t : Fin cfg0.N, t.val = (i 0).val / 512 := ⟨⟨(i 0).val / 512, by omega⟩, rfl⟩
  obtain ⟨e0, e1⟩ := ix_w20 t
  refine ⟨t, flush0_20 t, ?_⟩
  rw [mem_blk20]
  intro a
  match a with
  | ⟨0, _⟩ =>
    show win0_20.index t (0 : Fin 2) * 512 ≤ (i 0).val ∧ (i 0).val < win0_20.index t (0 : Fin 2) * 512 + 512
    have hi : (i 0).val < 131072 := (i 0).isLt
    omega
  | ⟨1, _⟩ =>
    show win0_20.index t (1 : Fin 2) * 2 ≤ (i 1).val ∧ (i 1).val < win0_20.index t (1 : Fin 2) * 2 + 2
    have hi : (i 1).val < 2 := (i 1).isLt
    omega

/-- The array after the run is the specification's array of the argument arrays as launched. -/
theorem final20 (c : Dev nD) : (dats m 0 c).arrAt 20 cfg0.N = GPos (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) :=
  (dats m 0 c).arrAt_eq_of_cover 20 _ (fun t _ => flushed20_eq m c t) cover20

/-! ## Output window 21 -/

/-- Its index map over the grid (decided over the 256 points): block `t` on the row axis, block 0 elsewhere. -/
theorem ix_w21 : ∀ t : Fin cfg0.N, win0_21.index t (0 : Fin 3) = 0 ∧ win0_21.index t (1 : Fin 3) = t.val ∧ win0_21.index t (2 : Fin 3) = 0 :=
  (by decide +kernel : ∀ t : Fin grid0.N, _)

/-- Its block at point `t` sends the local index to batch row `512 t + p`. -/
theorem emb21 (t : Fin cfg0.N) (e : Fin 6) (p : Fin 512) (j : Fin 64) :
    ((cfg0.win 21).blk t).view.emb (ix3 e p j) = ix3 e (rowAt t p) j := by
  obtain ⟨e0, e1, e2⟩ := ix_w21 t
  refine funext fun ax => Fin.ext ?_
  match ax with
  | ⟨0, _⟩ => show win0_21.index t (0 : Fin 3) * 6 + 1 * e.val = e.val; omega
  | ⟨1, _⟩ => show win0_21.index t (1 : Fin 3) * 512 + 1 * p.val = 512 * t.val + p.val; omega
  | ⟨2, _⟩ => show win0_21.index t (2 : Fin 3) * 64 + 1 * j.val = j.val; omega

/-- What point `t` writes back is block `t` of the specification's array. -/
theorem flushed21_eq (c : Dev nD) (t : Fin cfg0.N) :
    (dats m 0 c).flushed 21 t = ((cfg0.win 21).blk t).view.read (Elt Ideal) (GEdgeH (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19)) := by
  rw [Value.flushed21]
  refine funext fun (y : S6x512x64.Idx) => ?_
  obtain ⟨e, p, j, rfl⟩ : ∃ (e : Fin 6) (p : Fin 512) (j : Fin 64), y = ix3 e p j := ⟨y 0, y 1, y 2, eq_ix3 y⟩
  show out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix3 e p j)
    = GEdgeH (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (((cfg0.win 21).blk t).view.emb (ix3 e p j))
  rw [emb21 t e p j, out21_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)]
  show edgeH1 (paramsOf (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (rowOf (iblk m c 0 t) (iblk m c 1 t) (iblk m c 2 t) (iblk m c 3 t) (iblk m c 4 t) (iblk m c 5 t) p) e j
    = edgeH1 (paramsOf (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19)) (rowOf (V m c main_arg0) (V m c main_arg1) (V m c main_arg2) (V m c main_arg3) (V m c main_arg4) (V m c main_arg5) (rowAt t p)) e j
  rw [params_blk m c t, row_blk m c t p]

/-- An index of the array is in point `t`'s block iff each coordinate is in the block's range on its axis. -/
theorem mem_blk21 (t : Fin cfg0.N) (i : S6x131072x64.Idx) :
    i ∈ ((cfg0.win 21).blk t).view.set ↔ ∀ a : Fin 3, win0_21.index t a * S6x512x64.size a ≤ (i a).val ∧ (i a).val < win0_21.index t a * S6x512x64.size a + S6x512x64.size a := by
  show i ∈ ((View.whole main_v0_1).slice (win0_21.rect t)).set ↔ _
  rw [View.set_slice_whole, Rect.mem_set_unit]
  exact Iff.rfl

/-- Every index of the array is in some point's block: the point its row over 512 names. -/
theorem cover21 (i : S6x131072x64.Idx) : ∃ t : Fin cfg0.N, (cfg0.win 21).flush t = true ∧ i ∈ ((cfg0.win 21).blk t).view.set := by
  have hN : cfg0.N = 256 := N_0
  have hrow : (i 1).val < 131072 := (i 1).isLt
  obtain ⟨t, ht⟩ : ∃ t : Fin cfg0.N, t.val = (i 1).val / 512 := ⟨⟨(i 1).val / 512, by omega⟩, rfl⟩
  obtain ⟨e0, e1, e2⟩ := ix_w21 t
  refine ⟨t, flush0_21 t, ?_⟩
  rw [mem_blk21]
  intro a
  match a with
  | ⟨0, _⟩ =>
    show win0_21.index t (0 : Fin 3) * 6 ≤ (i 0).val ∧ (i 0).val < win0_21.index t (0 : Fin 3) * 6 + 6
    have hi : (i 0).val < 6 := (i 0).isLt
    omega
  | ⟨1, _⟩ =>
    show win0_21.index t (1 : Fin 3) * 512 ≤ (i 1).val ∧ (i 1).val < win0_21.index t (1 : Fin 3) * 512 + 512
    have hi : (i 1).val < 131072 := (i 1).isLt
    omega
  | ⟨2, _⟩ =>
    show win0_21.index t (2 : Fin 3) * 64 ≤ (i 2).val ∧ (i 2).val < win0_21.index t (2 : Fin 3) * 64 + 64
    have hi : (i 2).val < 64 := (i 2).isLt
    omega

/-- The array after the run is the specification's array of the argument arrays as launched. -/
theorem final21 (c : Dev nD) : (dats m 0 c).arrAt 21 cfg0.N = GEdgeH (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) :=
  (dats m 0 c).arrAt_eq_of_cover 21 _ (fun t _ => flushed21_eq m c t) cover21

/-! ## Output window 22 -/

/-- Its index map over the grid (decided over the 256 points): block `t` on the row axis, block 0 elsewhere. -/
theorem ix_w22 : ∀ t : Fin cfg0.N, win0_22.index t (0 : Fin 3) = 0 ∧ win0_22.index t (1 : Fin 3) = t.val ∧ win0_22.index t (2 : Fin 3) = 0 :=
  (by decide +kernel : ∀ t : Fin grid0.N, _)

/-- Its block at point `t` sends the local index to batch row `512 t + p`. -/
theorem emb22 (t : Fin cfg0.N) (e : Fin 6) (p : Fin 512) (j : Fin 64) :
    ((cfg0.win 22).blk t).view.emb (ix3 e p j) = ix3 e (rowAt t p) j := by
  obtain ⟨e0, e1, e2⟩ := ix_w22 t
  refine funext fun ax => Fin.ext ?_
  match ax with
  | ⟨0, _⟩ => show win0_22.index t (0 : Fin 3) * 6 + 1 * e.val = e.val; omega
  | ⟨1, _⟩ => show win0_22.index t (1 : Fin 3) * 512 + 1 * p.val = 512 * t.val + p.val; omega
  | ⟨2, _⟩ => show win0_22.index t (2 : Fin 3) * 64 + 1 * j.val = j.val; omega

/-- What point `t` writes back is block `t` of the specification's array. -/
theorem flushed22_eq (c : Dev nD) (t : Fin cfg0.N) :
    (dats m 0 c).flushed 22 t = ((cfg0.win 22).blk t).view.read (Elt Ideal) (GEdgeC (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19)) := by
  rw [Value.flushed22]
  refine funext fun (y : S6x512x64.Idx) => ?_
  obtain ⟨e, p, j, rfl⟩ : ∃ (e : Fin 6) (p : Fin 512) (j : Fin 64), y = ix3 e p j := ⟨y 0, y 1, y 2, eq_ix3 y⟩
  show out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix3 e p j)
    = GEdgeC (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (((cfg0.win 22).blk t).view.emb (ix3 e p j))
  rw [emb22 t e p j, out22_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)]
  show edgeC1 (paramsOf (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (rowOf (iblk m c 0 t) (iblk m c 1 t) (iblk m c 2 t) (iblk m c 3 t) (iblk m c 4 t) (iblk m c 5 t) p) e j
    = edgeC1 (paramsOf (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19)) (rowOf (V m c main_arg0) (V m c main_arg1) (V m c main_arg2) (V m c main_arg3) (V m c main_arg4) (V m c main_arg5) (rowAt t p)) e j
  rw [params_blk m c t, row_blk m c t p]

/-- An index of the array is in point `t`'s block iff each coordinate is in the block's range on its axis. -/
theorem mem_blk22 (t : Fin cfg0.N) (i : S6x131072x64.Idx) :
    i ∈ ((cfg0.win 22).blk t).view.set ↔ ∀ a : Fin 3, win0_22.index t a * S6x512x64.size a ≤ (i a).val ∧ (i a).val < win0_22.index t a * S6x512x64.size a + S6x512x64.size a := by
  show i ∈ ((View.whole main_v0_2).slice (win0_22.rect t)).set ↔ _
  rw [View.set_slice_whole, Rect.mem_set_unit]
  exact Iff.rfl

/-- Every index of the array is in some point's block: the point its row over 512 names. -/
theorem cover22 (i : S6x131072x64.Idx) : ∃ t : Fin cfg0.N, (cfg0.win 22).flush t = true ∧ i ∈ ((cfg0.win 22).blk t).view.set := by
  have hN : cfg0.N = 256 := N_0
  have hrow : (i 1).val < 131072 := (i 1).isLt
  obtain ⟨t, ht⟩ : ∃ t : Fin cfg0.N, t.val = (i 1).val / 512 := ⟨⟨(i 1).val / 512, by omega⟩, rfl⟩
  obtain ⟨e0, e1, e2⟩ := ix_w22 t
  refine ⟨t, flush0_22 t, ?_⟩
  rw [mem_blk22]
  intro a
  match a with
  | ⟨0, _⟩ =>
    show win0_22.index t (0 : Fin 3) * 6 ≤ (i 0).val ∧ (i 0).val < win0_22.index t (0 : Fin 3) * 6 + 6
    have hi : (i 0).val < 6 := (i 0).isLt
    omega
  | ⟨1, _⟩ =>
    show win0_22.index t (1 : Fin 3) * 512 ≤ (i 1).val ∧ (i 1).val < win0_22.index t (1 : Fin 3) * 512 + 512
    have hi : (i 1).val < 131072 := (i 1).isLt
    omega
  | ⟨2, _⟩ =>
    show win0_22.index t (2 : Fin 3) * 64 ≤ (i 2).val ∧ (i 2).val < win0_22.index t (2 : Fin 3) * 64 + 64
    have hi : (i 2).val < 64 := (i 2).isLt
    omega

/-- The array after the run is the specification's array of the argument arrays as launched. -/
theorem final22 (c : Dev nD) : (dats m 0 c).arrAt 22 cfg0.N = GEdgeC (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) :=
  (dats m 0 c).arrAt_eq_of_cover 22 _ (fun t _ => flushed22_eq m c t) cover22

/-! ## Output window 23 -/

/-- Its index map over the grid (decided over the 256 points): block `t` on the row axis, block 0 elsewhere. -/
theorem ix_w23 : ∀ t : Fin cfg0.N, win0_23.index t (0 : Fin 2) = t.val ∧ win0_23.index t (1 : Fin 2) = 0 :=
  (by decide +kernel : ∀ t : Fin grid0.N, _)

/-- Its block at point `t` sends the local index to batch row `512 t + p`. -/
theorem emb23 (t : Fin cfg0.N) (p : Fin 512) (j : Fin 64) :
    ((cfg0.win 23).blk t).view.emb (ix2 p j) = ix2 (rowAt t p) j := by
  obtain ⟨e0, e1⟩ := ix_w23 t
  refine funext fun ax => Fin.ext ?_
  match ax with
  | ⟨0, _⟩ => show win0_23.index t (0 : Fin 2) * 512 + 1 * p.val = 512 * t.val + p.val; omega
  | ⟨1, _⟩ => show win0_23.index t (1 : Fin 2) * 64 + 1 * j.val = j.val; omega

/-- What point `t` writes back is block `t` of the specification's array. -/
theorem flushed23_eq (c : Dev nD) (t : Fin cfg0.N) :
    (dats m 0 c).flushed 23 t = ((cfg0.win 23).blk t).view.read (Elt Ideal) (GNodeH (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19)) := by
  rw [Value.flushed23]
  refine funext fun (y : S512x64.Idx) => ?_
  obtain ⟨p, j, rfl⟩ : ∃ (p : Fin 512) (j : Fin 64), y = ix2 p j := ⟨y 0, y 1, eq_ix2 y⟩
  show out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 p j)
    = GNodeH (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (((cfg0.win 23).blk t).view.emb (ix2 p j))
  rw [emb23 t p j, out23_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)]
  show nodeH1 (paramsOf (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (rowOf (iblk m c 0 t) (iblk m c 1 t) (iblk m c 2 t) (iblk m c 3 t) (iblk m c 4 t) (iblk m c 5 t) p) j
    = nodeH1 (paramsOf (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19)) (rowOf (V m c main_arg0) (V m c main_arg1) (V m c main_arg2) (V m c main_arg3) (V m c main_arg4) (V m c main_arg5) (rowAt t p)) j
  rw [params_blk m c t, row_blk m c t p]

/-- An index of the array is in point `t`'s block iff each coordinate is in the block's range on its axis. -/
theorem mem_blk23 (t : Fin cfg0.N) (i : S131072x64.Idx) :
    i ∈ ((cfg0.win 23).blk t).view.set ↔ ∀ a : Fin 2, win0_23.index t a * S512x64.size a ≤ (i a).val ∧ (i a).val < win0_23.index t a * S512x64.size a + S512x64.size a := by
  show i ∈ ((View.whole main_v0_3).slice (win0_23.rect t)).set ↔ _
  rw [View.set_slice_whole, Rect.mem_set_unit]
  exact Iff.rfl

/-- Every index of the array is in some point's block: the point its row over 512 names. -/
theorem cover23 (i : S131072x64.Idx) : ∃ t : Fin cfg0.N, (cfg0.win 23).flush t = true ∧ i ∈ ((cfg0.win 23).blk t).view.set := by
  have hN : cfg0.N = 256 := N_0
  have hrow : (i 0).val < 131072 := (i 0).isLt
  obtain ⟨t, ht⟩ : ∃ t : Fin cfg0.N, t.val = (i 0).val / 512 := ⟨⟨(i 0).val / 512, by omega⟩, rfl⟩
  obtain ⟨e0, e1⟩ := ix_w23 t
  refine ⟨t, flush0_23 t, ?_⟩
  rw [mem_blk23]
  intro a
  match a with
  | ⟨0, _⟩ =>
    show win0_23.index t (0 : Fin 2) * 512 ≤ (i 0).val ∧ (i 0).val < win0_23.index t (0 : Fin 2) * 512 + 512
    have hi : (i 0).val < 131072 := (i 0).isLt
    omega
  | ⟨1, _⟩ =>
    show win0_23.index t (1 : Fin 2) * 64 ≤ (i 1).val ∧ (i 1).val < win0_23.index t (1 : Fin 2) * 64 + 64
    have hi : (i 1).val < 64 := (i 1).isLt
    omega

/-- The array after the run is the specification's array of the argument arrays as launched. -/
theorem final23 (c : Dev nD) : (dats m 0 c).arrAt 23 cfg0.N = GNodeH (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) :=
  (dats m 0 c).arrAt_eq_of_cover 23 _ (fun t _ => flushed23_eq m c t) cover23

/-! ## Output window 24 -/

/-- Its index map over the grid (decided over the 256 points): block `t` on the row axis, block 0 elsewhere. -/
theorem ix_w24 : ∀ t : Fin cfg0.N, win0_24.index t (0 : Fin 2) = t.val ∧ win0_24.index t (1 : Fin 2) = 0 :=
  (by decide +kernel : ∀ t : Fin grid0.N, _)

/-- Its block at point `t` sends the local index to batch row `512 t + p`. -/
theorem emb24 (t : Fin cfg0.N) (p : Fin 512) (j : Fin 64) :
    ((cfg0.win 24).blk t).view.emb (ix2 p j) = ix2 (rowAt t p) j := by
  obtain ⟨e0, e1⟩ := ix_w24 t
  refine funext fun ax => Fin.ext ?_
  match ax with
  | ⟨0, _⟩ => show win0_24.index t (0 : Fin 2) * 512 + 1 * p.val = 512 * t.val + p.val; omega
  | ⟨1, _⟩ => show win0_24.index t (1 : Fin 2) * 64 + 1 * j.val = j.val; omega

/-- What point `t` writes back is block `t` of the specification's array. -/
theorem flushed24_eq (c : Dev nD) (t : Fin cfg0.N) :
    (dats m 0 c).flushed 24 t = ((cfg0.win 24).blk t).view.read (Elt Ideal) (GNodeC (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19)) := by
  rw [Value.flushed24]
  refine funext fun (y : S512x64.Idx) => ?_
  obtain ⟨p, j, rfl⟩ : ∃ (p : Fin 512) (j : Fin 64), y = ix2 p j := ⟨y 0, y 1, eq_ix2 y⟩
  show out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 p j)
    = GNodeC (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (((cfg0.win 24).blk t).view.emb (ix2 p j))
  rw [emb24 t p j, out24_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)]
  show nodeC1 (paramsOf (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (rowOf (iblk m c 0 t) (iblk m c 1 t) (iblk m c 2 t) (iblk m c 3 t) (iblk m c 4 t) (iblk m c 5 t) p) j
    = nodeC1 (paramsOf (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19)) (rowOf (V m c main_arg0) (V m c main_arg1) (V m c main_arg2) (V m c main_arg3) (V m c main_arg4) (V m c main_arg5) (rowAt t p)) j
  rw [params_blk m c t, row_blk m c t p]

/-- An index of the array is in point `t`'s block iff each coordinate is in the block's range on its axis. -/
theorem mem_blk24 (t : Fin cfg0.N) (i : S131072x64.Idx) :
    i ∈ ((cfg0.win 24).blk t).view.set ↔ ∀ a : Fin 2, win0_24.index t a * S512x64.size a ≤ (i a).val ∧ (i a).val < win0_24.index t a * S512x64.size a + S512x64.size a := by
  show i ∈ ((View.whole main_v0_4).slice (win0_24.rect t)).set ↔ _
  rw [View.set_slice_whole, Rect.mem_set_unit]
  exact Iff.rfl

/-- Every index of the array is in some point's block: the point its row over 512 names. -/
theorem cover24 (i : S131072x64.Idx) : ∃ t : Fin cfg0.N, (cfg0.win 24).flush t = true ∧ i ∈ ((cfg0.win 24).blk t).view.set := by
  have hN : cfg0.N = 256 := N_0
  have hrow : (i 0).val < 131072 := (i 0).isLt
  obtain ⟨t, ht⟩ : ∃ t : Fin cfg0.N, t.val = (i 0).val / 512 := ⟨⟨(i 0).val / 512, by omega⟩, rfl⟩
  obtain ⟨e0, e1⟩ := ix_w24 t
  refine ⟨t, flush0_24 t, ?_⟩
  rw [mem_blk24]
  intro a
  match a with
  | ⟨0, _⟩ =>
    show win0_24.index t (0 : Fin 2) * 512 ≤ (i 0).val ∧ (i 0).val < win0_24.index t (0 : Fin 2) * 512 + 512
    have hi : (i 0).val < 131072 := (i 0).isLt
    omega
  | ⟨1, _⟩ =>
    show win0_24.index t (1 : Fin 2) * 64 ≤ (i 1).val ∧ (i 1).val < win0_24.index t (1 : Fin 2) * 64 + 64
    have hi : (i 1).val < 64 := (i 1).isLt
    omega

/-- The array after the run is the specification's array of the argument arrays as launched. -/
theorem final24 (c : Dev nD) : (dats m 0 c).arrAt 24 cfg0.N = GNodeC (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) :=
  (dats m 0 c).arrAt_eq_of_cover 24 _ (fun t _ => flushed24_eq m c t) cover24

end Cert.Mesrnn.Arr

end
-- ==== Proof.RefEdge.lean ====
/-
  The reference's edge cells, read at an index.

  The reference computes all six edge types at once on `[6, 131072, ·]` arrays: a batched product over the edge-type
  axis for the embedding and for the two gate products, the biases broadcast along the row axis, the gate groups cut
  out by slices at 0, 64, 128 and 192, and the logistic function spelt `1 / (1 + exp (-x))` with the literal one.
  Stage by stage, at `(e, n, ·)`, each of these is the specification's value for row `n` and edge type `e`: the
  generated read-at-an-index lemmas give each stage from its operands at computed indices, and those indices are the
  evident ones coordinate by coordinate. The spelt-out logistic is the ideal instance's `logistic` by definition once
  the word `0x3F800000` is read as one.
-/
import proofs.«153604_j15556371546759_2_alg».proof.Proof.Gen.ReferenceIdeal.Read
import proofs.«153604_j15556371546759_2_alg».proof.Proof.Spec
import Idealize.ShloMosaic.Lib.IdealHost

noncomputable section

namespace Cert.Mesrnn.Ref

open Cert.ReferenceIdeal Cert.ReferenceIdeal.Read Idealize.ShloMosaic Idealize.ShloMosaic.ValueIdx Cert.Mesrnn

/-- Two index functions into a rank-1, rank-2, rank-3 shape agree when they agree coordinate by coordinate. -/
local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

/-- A sum of products read at computed indices, re-indexed factor by factor. -/
theorem sum_reidx {K : ℕ} {S T : Type} (f : S → EReal) (g : T → EReal) (a a' : Fin K → S) (b b' : Fin K → T)
    (ha : ∀ k, a k = a' k) (hb : ∀ k, b k = b' k) : (∑ k, f (a k) * g (b k)) = ∑ k, f (a' k) * g (b' k) :=
  Finset.sum_congr rfl fun k _ => by rw [ha, hb]

/-- The reference's `1 / (1 + exp (-g))` with the literal one is the logistic function. -/
theorem sig_at (g : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf g))) = Ideal.logistic g := by
  show Ideal.div (Ideal.ofBits .f32 0x3F800000#32) (Ideal.ofBits .f32 0x3F800000#32 + Ideal.exp (-g)) = Ideal.div 1 (1 + Ideal.exp (-g))
  rw [Ideal.ofBits_one_f32]

variable (x0 : A2 131072 2) (x1 : A3 6 131072 2) (x2 x3 : A3 6 131072 64) (x4 x5 : A2 131072 64)
  (x6 : A3 6 2 64) (x7 : A2 6 64) (x8 x9 : A3 6 256 64) (x10 x11 : A2 6 256) (x12 : A2 2 64) (x13 : A1 64)
  (x14 : A2 256 448) (x15 : A2 256 64) (x16 x17 : A1 256) (x18 : A2 64 2) (x19 : A1 2)

/-! ## The embedding -/

theorem v0_at (e : Fin 6) (n : Fin 131072) (k : Fin 64) :
    val_main_v0 (F := Ideal) x1 x6 (ix3 e n k) = ∑ i : Fin 2, x1 (ix3 e n i) * x6 (ix3 e i k) :=
  (val_main_v0_apply x1 x6 (ix3 e n k)).trans
    (sum_reidx x1 x6 _ (fun i => ix3 e n i) _ (fun i => ix3 e i k) (fun i => by idx3) (fun i => by idx3))

theorem v2_at (e : Fin 6) (n : Fin 131072) (k : Fin 64) : val_main_v2 (F := Ideal) x7 (ix3 e n k) = x7 (ix2 e k) :=
  by rw [val_main_v2_apply, val_main_v1_apply]; exact congrArg x7 (by idx2)

theorem v4_at (e : Fin 6) (n : Fin 131072) (k : Fin 64) :
    val_main_v4 (F := Ideal) x1 x6 x7 (ix3 e n k)
      = affineTanh (fun i => x1 (ix3 e n i)) (fun i => x6 (ix3 e i k)) (x7 (ix2 e k)) := by
  rw [val_main_v4_apply, val_main_v3_apply, v0_at, v2_at]; rfl

/-! ## The gate columns -/

theorem v5_at (e : Fin 6) (k : Fin 64) (q : Fin 256) : val_main_v5 (F := Ideal) x8 (ix3 e k q) = x8 (ix3 e q k) :=
  by rw [val_main_v5_apply]; exact congrArg x8 (by idx3)

theorem v7_at (e : Fin 6) (k : Fin 64) (q : Fin 256) : val_main_v7 (F := Ideal) x9 (ix3 e k q) = x9 (ix3 e q k) :=
  by rw [val_main_v7_apply]; exact congrArg x9 (by idx3)

theorem v6_at (e : Fin 6) (n : Fin 131072) (q : Fin 256) :
    val_main_v6 (F := Ideal) x1 x6 x7 x8 (ix3 e n q)
      = ∑ k : Fin 64, val_main_v4 (F := Ideal) x1 x6 x7 (ix3 e n k) * x8 (ix3 e q k) :=
  ((val_main_v6_apply x1 x6 x7 x8 (ix3 e n q)).trans
    (sum_reidx (val_main_v4 (F := Ideal) x1 x6 x7) (val_main_v5 (F := Ideal) x8) _ (fun k => ix3 e n k) _ (fun k => ix3 e k q)
      (fun k => by idx3) (fun k => by idx3))).trans
    (Finset.sum_congr rfl fun k _ => by rw [v5_at])

theorem v8_at (e : Fin 6) (n : Fin 131072) (q : Fin 256) :
    val_main_v8 (F := Ideal) x2 x9 (ix3 e n q) = ∑ k : Fin 64, x2 (ix3 e n k) * x9 (ix3 e q k) :=
  ((val_main_v8_apply x2 x9 (ix3 e n q)).trans
    (sum_reidx x2 (val_main_v7 (F := Ideal) x9) _ (fun k => ix3 e n k) _ (fun k => ix3 e k q)
      (fun k => by idx3) (fun k => by idx3))).trans
    (Finset.sum_congr rfl fun k _ => by rw [v7_at])

theorem v11_at (e : Fin 6) (n : Fin 131072) (q : Fin 256) : val_main_v11 (F := Ideal) x10 (ix3 e n q) = x10 (ix2 e q) :=
  by rw [val_main_v11_apply, val_main_v10_apply]; exact congrArg x10 (by idx2)

theorem v14_at (e : Fin 6) (n : Fin 131072) (q : Fin 256) : val_main_v14 (F := Ideal) x11 (ix3 e n q) = x11 (ix2 e q) :=
  by rw [val_main_v14_apply, val_main_v13_apply]; exact congrArg x11 (by idx2)

theorem v15_at (e : Fin 6) (n : Fin 131072) (q : Fin 256) :
    val_main_v15 (F := Ideal) x1 x2 x6 x7 x8 x9 x10 x11 (ix3 e n q)
      = gate (fun k => val_main_v4 (F := Ideal) x1 x6 x7 (ix3 e n k)) (fun k => x8 (ix3 e q k)) (fun k => x2 (ix3 e n k))
          (fun k => x9 (ix3 e q k)) (x10 (ix2 e q)) (x11 (ix2 e q)) := by
  rw [val_main_v15_apply, val_main_v12_apply, val_main_v9_apply, v6_at, v8_at, v11_at, v14_at]; rfl

/-- The gate column is the specification's. -/
theorem gate_ref (e : Fin 6) (n : Fin 131072) (q : Fin 256) :
    val_main_v15 (F := Ideal) x1 x2 x6 x7 x8 x9 x10 x11 (ix3 e n q)
      = edgeGate (paramsOf x6 x7 x8 x9 x10 x11 x12 x13 x14 x15 x16 x17 x18 x19) (rowOf x0 x1 x2 x3 x4 x5 n) e q := by
  rw [v15_at]
  unfold edgeGate edgeEmb
  simp only [v4_at]
  rfl

/-! ## The four gate groups -/

theorem v16_at (e : Fin 6) (n : Fin 131072) (j : Fin 64) :
    val_main_v16 (F := Ideal) x1 x2 x6 x7 x8 x9 x10 x11 (ix3 e n j) = val_main_v15 (F := Ideal) x1 x2 x6 x7 x8 x9 x10 x11 (ix3 e n (col 0 (by decide) j)) :=
  by
  rw [val_main_v16_apply]
  refine congrArg (val_main_v15 (F := Ideal) x1 x2 x6 x7 x8 x9 x10 x11) (funext fun a => ?_)
  match a with
  | ⟨0, _⟩ => rfl
  | ⟨1, _⟩ => rfl
  | ⟨2, _⟩ => exact Fin.ext (Nat.zero_add _).symm

theorem v17_at (e : Fin 6) (n : Fin 131072) (j : Fin 64) :
    val_main_v17 (F := Ideal) x1 x2 x6 x7 x8 x9 x10 x11 (ix3 e n j) = val_main_v15 (F := Ideal) x1 x2 x6 x7 x8 x9 x10 x11 (ix3 e n (col 64 (by decide) j)) :=
  by rw [val_main_v17_apply]; exact congrArg (val_main_v15 (F := Ideal) x1 x2 x6 x7 x8 x9 x10 x11) (by idx3)

theorem v18_at (e : Fin 6) (n : Fin 131072) (j : Fin 64) :
    val_main_v18 (F := Ideal) x1 x2 x6 x7 x8 x9 x10 x11 (ix3 e n j) = val_main_v15 (F := Ideal) x1 x2 x6 x7 x8 x9 x10 x11 (ix3 e n (col 128 (by decide) j)) :=
  by rw [val_main_v18_apply]; exact congrArg (val_main_v15 (F := Ideal) x1 x2 x6 x7 x8 x9 x10 x11) (by idx3)

theorem v19_at (e : Fin 6) (n : Fin 131072) (j : Fin 64) :
    val_main_v19 (F := Ideal) x1 x2 x6 x7 x8 x9 x10 x11 (ix3 e n j) = val_main_v15 (F := Ideal) x1 x2 x6 x7 x8 x9 x10 x11 (ix3 e n (col 192 (by decide) j)) :=
  by rw [val_main_v19_apply]; exact congrArg (val_main_v15 (F := Ideal) x1 x2 x6 x7 x8 x9 x10 x11) (by idx3)

theorem v25_at (e : Fin 6) (n : Fin 131072) (j : Fin 64) :
    val_main_v25 (F := Ideal) x1 x2 x6 x7 x8 x9 x10 x11 (ix3 e n j)
      = Ideal.logistic (val_main_v15 (F := Ideal) x1 x2 x6 x7 x8 x9 x10 x11 (ix3 e n (col 0 (by decide) j))) := by
  rw [val_main_v25_apply, val_main_v24_apply, val_main_cst_0_apply, val_main_v23_apply, val_main_v22_apply, val_main_cst_apply,
    val_main_v21_apply, val_main_v20_apply, v16_at]
  exact sig_at _

theorem v31_at (e : Fin 6) (n : Fin 131072) (j : Fin 64) :
    val_main_v31 (F := Ideal) x1 x2 x6 x7 x8 x9 x10 x11 (ix3 e n j)
      = Ideal.logistic (val_main_v15 (F := Ideal) x1 x2 x6 x7 x8 x9 x10 x11 (ix3 e n (col 64 (by decide) j))) := by
  rw [val_main_v31_apply, val_main_v30_apply, val_main_cst_2_apply, val_main_v29_apply, val_main_v28_apply, val_main_cst_1_apply,
    val_main_v27_apply, val_main_v26_apply, v17_at]
  exact sig_at _

theorem v38_at (e : Fin 6) (n : Fin 131072) (j : Fin 64) :
    val_main_v38 (F := Ideal) x1 x2 x6 x7 x8 x9 x10 x11 (ix3 e n j)
      = Ideal.logistic (val_main_v15 (F := Ideal) x1 x2 x6 x7 x8 x9 x10 x11 (ix3 e n (col 192 (by decide) j))) := by
  rw [val_main_v38_apply, val_main_v37_apply, val_main_cst_4_apply, val_main_v36_apply, val_main_v35_apply, val_main_cst_3_apply,
    val_main_v34_apply, val_main_v33_apply, v19_at]
  exact sig_at _

/-! ## The new cell and hidden states -/

theorem v41_at (e : Fin 6) (n : Fin 131072) (j : Fin 64) :
    val_main_v41 (F := Ideal) x1 x2 x3 x6 x7 x8 x9 x10 x11 (ix3 e n j)
      = edgeC1 (paramsOf x6 x7 x8 x9 x10 x11 x12 x13 x14 x15 x16 x17 x18 x19) (rowOf x0 x1 x2 x3 x4 x5 n) e j := by
  rw [val_main_v41_apply, val_main_v39_apply, val_main_v40_apply, v31_at, v25_at, val_main_v32_apply, v18_at,
    gate_ref x0 x1 x2 x3 x4 x5 x6 x7 x8 x9 x10 x11 x12 x13 x14 x15 x16 x17 x18 x19,
    gate_ref x0 x1 x2 x3 x4 x5 x6 x7 x8 x9 x10 x11 x12 x13 x14 x15 x16 x17 x18 x19,
    gate_ref x0 x1 x2 x3 x4 x5 x6 x7 x8 x9 x10 x11 x12 x13 x14 x15 x16 x17 x18 x19]
  rfl

theorem v43_at (e : Fin 6) (n : Fin 131072) (j : Fin 64) :
    val_main_v43 (F := Ideal) x1 x2 x3 x6 x7 x8 x9 x10 x11 (ix3 e n j)
      = edgeH1 (paramsOf x6 x7 x8 x9 x10 x11 x12 x13 x14 x15 x16 x17 x18 x19) (rowOf x0 x1 x2 x3 x4 x5 n) e j := by
  rw [val_main_v43_apply, val_main_v42_apply, v38_at, v41_at x0 x1 x2 x3 x4 x5 x6 x7 x8 x9 x10 x11 x12 x13 x14 x15 x16 x17 x18 x19,
    gate_ref x0 x1 x2 x3 x4 x5 x6 x7 x8 x9 x10 x11 x12 x13 x14 x15 x16 x17 x18 x19]
  rfl

end Cert.Mesrnn.Ref

end
-- ==== Proof.RefNode.lean ====
/-
  The reference's node cell and new position, read at an index, and the five results as whole arrays.

  The node embedding is a plain product with a broadcast bias under tanh. The node cell's input row is the embedding
  joined with the new edge hidden states transposed to `[131072, 6, 64]` and reshaped to `[131072, 384]`: at column
  `k` it reads the embedding for `k < 64` and edge `(k - 64) / 64` at `(k - 64) % 64` otherwise, because the reshape
  keeps the row and splits the column by 64. The gates, the four groups, the new states and the decoder then go as
  for the edges. Each of the five results, as a whole array, is the specification's array.
-/
import proofs.«153604_j15556371546759_2_alg».proof.Proof.RefEdge

noncomputable section

namespace Cert.Mesrnn.Ref

open Cert.ReferenceIdeal Cert.ReferenceIdeal.Read Idealize.ShloMosaic Idealize.ShloMosaic.ValueIdx Cert.Mesrnn

local macro "idx1" : tactic => `(tactic| (funext a; match a with | ⟨0, _⟩ => rfl))
local macro "idx2" : tactic => `(tactic| (funext a; match a with | ⟨0, _⟩ => rfl | ⟨1, _⟩ => rfl))

variable (x0 : A2 131072 2) (x1 : A3 6 131072 2) (x2 x3 : A3 6 131072 64) (x4 x5 : A2 131072 64)
  (x6 : A3 6 2 64) (x7 : A2 6 64) (x8 x9 : A3 6 256 64) (x10 x11 : A2 6 256) (x12 : A2 2 64) (x13 : A1 64)
  (x14 : A2 256 448) (x15 : A2 256 64) (x16 x17 : A1 256) (x18 : A2 64 2) (x19 : A1 2)

/-! ## The node embedding -/

theorem v44_at (n : Fin 131072) (k : Fin 64) :
    val_main_v44 (F := Ideal) x0 x12 (ix2 n k) = ∑ i : Fin 2, x0 (ix2 n i) * x12 (ix2 i k) :=
  (val_main_v44_apply x0 x12 (ix2 n k)).trans
    (sum_reidx x0 x12 _ (fun i => ix2 n i) _ (fun i => ix2 i k) (fun i => by idx2) (fun i => by idx2))

theorem v46_at (n : Fin 131072) (k : Fin 64) : val_main_v46 (F := Ideal) x13 (ix2 n k) = x13 (ix1 k) :=
  by rw [val_main_v46_apply, val_main_v45_apply]; exact congrArg x13 (by idx1)

theorem v48_at (n : Fin 131072) (k : Fin 64) :
    val_main_v48 (F := Ideal) x0 x12 x13 (ix2 n k)
      = nodeEmb (paramsOf x6 x7 x8 x9 x10 x11 x12 x13 x14 x15 x16 x17 x18 x19) (rowOf x0 x1 x2 x3 x4 x5 n) k := by
  rw [val_main_v48_apply, val_main_v47_apply, v44_at, v46_at]; rfl

/-! ## The concatenated row -/

theorem v50_at (n : Fin 131072) (c : Fin 384) :
    val_main_v50 (F := Ideal) x1 x2 x3 x6 x7 x8 x9 x10 x11 (ix2 n c)
      = val_main_v43 (F := Ideal) x1 x2 x3 x6 x7 x8 x9 x10 x11
          (ix3 (⟨c.val / 64, by have := c.isLt; omega⟩ : Fin 6) n (⟨c.val % 64, Nat.mod_lt _ (by decide)⟩ : Fin 64)) :=
  by
  rw [val_main_v50_apply, val_main_v49_apply]
  have hn := n.isLt
  have hc := c.isLt
  refine congrArg (val_main_v43 (F := Ideal) x1 x2 x3 x6 x7 x8 x9 x10 x11) (funext fun a => Fin.ext ?_)
  match a with
  | ⟨0, _⟩ => show (n.val * 384 + c.val) / 64 % 6 = c.val / 64; omega
  | ⟨1, _⟩ => show (n.val * 384 + c.val) / 384 = n.val; omega
  | ⟨2, _⟩ => show (n.val * 384 + c.val) % 64 = c.val % 64; omega

theorem v51_at (n : Fin 131072) (k : Fin 448) :
    val_main_v51 (F := Ideal) x0 x1 x2 x3 x6 x7 x8 x9 x10 x11 x12 x13 (ix2 n k)
      = catRow (nodeEmb (paramsOf x6 x7 x8 x9 x10 x11 x12 x13 x14 x15 x16 x17 x18 x19) (rowOf x0 x1 x2 x3 x4 x5 n)) (edgeH1 (paramsOf x6 x7 x8 x9 x10 x11 x12 x13 x14 x15 x16 x17 x18 x19) (rowOf x0 x1 x2 x3 x4 x5 n)) k := by
  have hk := k.isLt
  unfold val_main_v51 catRow
  by_cases c0 : k.val < 64
  · rw [dif_pos c0]
    refine (concatenate_pair_apply_left (t := S131072x448) (s₁ := S131072x64) (s₂ := S131072x384) 1 _ _ _ (ix2 n k) rfl (ix2 n (⟨k.val, c0⟩ : Fin 64)) (fun b => by
      match b with
      | ⟨0, _⟩ => rfl
      | ⟨1, _⟩ => rfl)).trans ?_
    exact v48_at x0 x1 x2 x3 x4 x5 x6 x7 x8 x9 x10 x11 x12 x13 x14 x15 x16 x17 x18 x19 n _
  · rw [dif_neg c0]
    refine (concatenate_pair_apply_right (t := S131072x448) (s₁ := S131072x64) (s₂ := S131072x384) 1 _ _ _ (ix2 n k) rfl rfl (ix2 n (⟨k.val - 64, by omega⟩ : Fin 384)) (fun b hb => by
      match b with
      | ⟨0, _⟩ => rfl
      | ⟨1, _⟩ => exact absurd rfl hb) (by show (k.val - 64) + 64 = k.val; omega)).trans ?_
    rw [v50_at, v43_at x0 x1 x2 x3 x4 x5 x6 x7 x8 x9 x10 x11 x12 x13 x14 x15 x16 x17 x18 x19]

/-! ## The node gates -/

theorem v52_at (k : Fin 448) (q : Fin 256) : val_main_v52 (F := Ideal) x14 (ix2 k q) = x14 (ix2 q k) :=
  by rw [val_main_v52_apply]; exact congrArg x14 (by idx2)

theorem v54_at (k : Fin 64) (q : Fin 256) : val_main_v54 (F := Ideal) x15 (ix2 k q) = x15 (ix2 q k) :=
  by rw [val_main_v54_apply]; exact congrArg x15 (by idx2)

theorem v53_at (n : Fin 131072) (q : Fin 256) :
    val_main_v53 (F := Ideal) x0 x1 x2 x3 x6 x7 x8 x9 x10 x11 x12 x13 x14 (ix2 n q)
      = ∑ k : Fin 448, val_main_v51 (F := Ideal) x0 x1 x2 x3 x6 x7 x8 x9 x10 x11 x12 x13 (ix2 n k) * x14 (ix2 q k) :=
  ((val_main_v53_apply x0 x1 x2 x3 x6 x7 x8 x9 x10 x11 x12 x13 x14 (ix2 n q)).trans
    (sum_reidx (val_main_v51 (F := Ideal) x0 x1 x2 x3 x6 x7 x8 x9 x10 x11 x12 x13) (val_main_v52 (F := Ideal) x14) _ (fun k => ix2 n k) _ (fun k => ix2 k q)
      (fun k => by idx2) (fun k => by idx2))).trans
    (Finset.sum_congr rfl fun k _ => by rw [v52_at])

theorem v55_at (n : Fin 131072) (q : Fin 256) :
    val_main_v55 (F := Ideal) x4 x15 (ix2 n q) = ∑ k : Fin 64, x4 (ix2 n k) * x15 (ix2 q k) :=
  ((val_main_v55_apply x4 x15 (ix2 n q)).trans
    (sum_reidx x4 (val_main_v54 (F := Ideal) x15) _ (fun k => ix2 n k) _ (fun k => ix2 k q)
      (fun k => by idx2) (fun k => by idx2))).trans
    (Finset.sum_congr rfl fun k _ => by rw [v54_at])

theorem v58_at (n : Fin 131072) (q : Fin 256) : val_main_v58 (F := Ideal) x16 (ix2 n q) = x16 (ix1 q) :=
  by rw [val_main_v58_apply, val_main_v57_apply]; exact congrArg x16 (by idx1)

theorem v61_at (n : Fin 131072) (q : Fin 256) : val_main_v61 (F := Ideal) x17 (ix2 n q) = x17 (ix1 q) :=
  by rw [val_main_v61_apply, val_main_v60_apply]; exact congrArg x17 (by idx1)

/-- The node gate column is the specification's. -/
theorem ngate_ref (n : Fin 131072) (q : Fin 256) :
    val_main_v62 (F := Ideal) x0 x1 x2 x3 x4 x6 x7 x8 x9 x10 x11 x12 x13 x14 x15 x16 x17 (ix2 n q) = nodeGate (paramsOf x6 x7 x8 x9 x10 x11 x12 x13 x14 x15 x16 x17 x18 x19) (rowOf x0 x1 x2 x3 x4 x5 n) q := by
  rw [val_main_v62_apply, val_main_v59_apply, val_main_v56_apply, v53_at, v55_at, v58_at, v61_at]
  unfold nodeGate
  simp only [v51_at x0 x1 x2 x3 x4 x5 x6 x7 x8 x9 x10 x11 x12 x13 x14 x15 x16 x17 x18 x19]
  rfl

/-! ## The four gate groups -/

theorem v63_at (n : Fin 131072) (j : Fin 64) :
    val_main_v63 (F := Ideal) x0 x1 x2 x3 x4 x6 x7 x8 x9 x10 x11 x12 x13 x14 x15 x16 x17 (ix2 n j) = val_main_v62 (F := Ideal) x0 x1 x2 x3 x4 x6 x7 x8 x9 x10 x11 x12 x13 x14 x15 x16 x17 (ix2 n (col 0 (by decide) j)) :=
  by
  rw [val_main_v63_apply]
  refine congrArg (val_main_v62 (F := Ideal) x0 x1 x2 x3 x4 x6 x7 x8 x9 x10 x11 x12 x13 x14 x15 x16 x17) (funext fun a => ?_)
  match a with
  | ⟨0, _⟩ => rfl
  | ⟨1, _⟩ => exact Fin.ext (Nat.zero_add _).symm

theorem v64_at (n : Fin 131072) (j : Fin 64) :
    val_main_v64 (F := Ideal) x0 x1 x2 x3 x4 x6 x7 x8 x9 x10 x11 x12 x13 x14 x15 x16 x17 (ix2 n j) = val_main_v62 (F := Ideal) x0 x1 x2 x3 x4 x6 x7 x8 x9 x10 x11 x12 x13 x14 x15 x16 x17 (ix2 n (col 64 (by decide) j)) :=
  by rw [val_main_v64_apply]; exact congrArg (val_main_v62 (F := Ideal) x0 x1 x2 x3 x4 x6 x7 x8 x9 x10 x11 x12 x13 x14 x15 x16 x17) (by idx2)

theorem v65_at (n : Fin 131072) (j : Fin 64) :
    val_main_v65 (F := Ideal) x0 x1 x2 x3 x4 x6 x7 x8 x9 x10 x11 x12 x13 x14 x15 x16 x17 (ix2 n j) = val_main_v62 (F := Ideal) x0 x1 x2 x3 x4 x6 x7 x8 x9 x10 x11 x12 x13 x14 x15 x16 x17 (ix2 n (col 128 (by decide) j)) :=
  by rw [val_main_v65_apply]; exact congrArg (val_main_v62 (F := Ideal) x0 x1 x2 x3 x4 x6 x7 x8 x9 x10 x11 x12 x13 x14 x15 x16 x17) (by idx2)

theorem v66_at (n : Fin 131072) (j : Fin 64) :
    val_main_v66 (F := Ideal) x0 x1 x2 x3 x4 x6 x7 x8 x9 x10 x11 x12 x13 x14 x15 x16 x17 (ix2 n j) = val_main_v62 (F := Ideal) x0 x1 x2 x3 x4 x6 x7 x8 x9 x10 x11 x12 x13 x14 x15 x16 x17 (ix2 n (col 192 (by decide) j)) :=
  by rw [val_main_v66_apply]; exact congrArg (val_main_v62 (F := Ideal) x0 x1 x2 x3 x4 x6 x7 x8 x9 x10 x11 x12 x13 x14 x15 x16 x17) (by idx2)

theorem v72_at (n : Fin 131072) (j : Fin 64) :
    val_main_v72 (F := Ideal) x0 x1 x2 x3 x4 x6 x7 x8 x9 x10 x11 x12 x13 x14 x15 x16 x17 (ix2 n j)
      = Ideal.logistic (val_main_v62 (F := Ideal) x0 x1 x2 x3 x4 x6 x7 x8 x9 x10 x11 x12 x13 x14 x15 x16 x17 (ix2 n (col 0 (by decide) j))) := by
  rw [val_main_v72_apply, val_main_v71_apply, val_main_cst_6_apply, val_main_v70_apply, val_main_v69_apply, val_main_cst_5_apply,
    val_main_v68_apply, val_main_v67_apply, v63_at]
  exact sig_at _

theorem v78_at (n : Fin 131072) (j : Fin 64) :
    val_main_v78 (F := Ideal) x0 x1 x2 x3 x4 x6 x7 x8 x9 x10 x11 x12 x13 x14 x15 x16 x17 (ix2 n j)
      = Ideal.logistic (val_main_v62 (F := Ideal) x0 x1 x2 x3 x4 x6 x7 x8 x9 x10 x11 x12 x13 x14 x15 x16 x17 (ix2 n (col 64 (by decide) j))) := by
  rw [val_main_v78_apply, val_main_v77_apply, val_main_cst_8_apply, val_main_v76_apply, val_main_v75_apply, val_main_cst_7_apply,
    val_main_v74_apply, val_main_v73_apply, v64_at]
  exact sig_at _

theorem v85_at (n : Fin 131072) (j : Fin 64) :
    val_main_v85 (F := Ideal) x0 x1 x2 x3 x4 x6 x7 x8 x9 x10 x11 x12 x13 x14 x15 x16 x17 (ix2 n j)
      = Ideal.logistic (val_main_v62 (F := Ideal) x0 x1 x2 x3 x4 x6 x7 x8 x9 x10 x11 x12 x13 x14 x15 x16 x17 (ix2 n (col 192 (by decide) j))) := by
  rw [val_main_v85_apply, val_main_v84_apply, val_main_cst_10_apply, val_main_v83_apply, val_main_v82_apply, val_main_cst_9_apply,
    val_main_v81_apply, val_main_v80_apply, v66_at]
  exact sig_at _

/-! ## The new node states and the new position -/

theorem v88_at (n : Fin 131072) (j : Fin 64) :
    val_main_v88 (F := Ideal) x0 x1 x2 x3 x4 x5 x6 x7 x8 x9 x10 x11 x12 x13 x14 x15 x16 x17 (ix2 n j) = nodeC1 (paramsOf x6 x7 x8 x9 x10 x11 x12 x13 x14 x15 x16 x17 x18 x19) (rowOf x0 x1 x2 x3 x4 x5 n) j := by
  rw [val_main_v88_apply, val_main_v86_apply, val_main_v87_apply, v78_at, v72_at, val_main_v79_apply, v65_at,
    ngate_ref x0 x1 x2 x3 x4 x5 x6 x7 x8 x9 x10 x11 x12 x13 x14 x15 x16 x17 x18 x19,
    ngate_ref x0 x1 x2 x3 x4 x5 x6 x7 x8 x9 x10 x11 x12 x13 x14 x15 x16 x17 x18 x19,
    ngate_ref x0 x1 x2 x3 x4 x5 x6 x7 x8 x9 x10 x11 x12 x13 x14 x15 x16 x17 x18 x19]
  rfl

theorem v90_at (n : Fin 131072) (j : Fin 64) :
    val_main_v90 (F := Ideal) x0 x1 x2 x3 x4 x5 x6 x7 x8 x9 x10 x11 x12 x13 x14 x15 x16 x17 (ix2 n j) = nodeH1 (paramsOf x6 x7 x8 x9 x10 x11 x12 x13 x14 x15 x16 x17 x18 x19) (rowOf x0 x1 x2 x3 x4 x5 n) j := by
  rw [val_main_v90_apply, val_main_v89_apply, v85_at, v88_at x0 x1 x2 x3 x4 x5 x6 x7 x8 x9 x10 x11 x12 x13 x14 x15 x16 x17 x18 x19,
    ngate_ref x0 x1 x2 x3 x4 x5 x6 x7 x8 x9 x10 x11 x12 x13 x14 x15 x16 x17 x18 x19]
  rfl

theorem v91_at (n : Fin 131072) (d : Fin 2) :
    val_main_v91 (F := Ideal) x0 x1 x2 x3 x4 x5 x6 x7 x8 x9 x10 x11 x12 x13 x14 x15 x16 x17 x18 (ix2 n d)
      = ∑ k : Fin 64, val_main_v90 (F := Ideal) x0 x1 x2 x3 x4 x5 x6 x7 x8 x9 x10 x11 x12 x13 x14 x15 x16 x17 (ix2 n k) * x18 (ix2 k d) :=
  (val_main_v91_apply x0 x1 x2 x3 x4 x5 x6 x7 x8 x9 x10 x11 x12 x13 x14 x15 x16 x17 x18 (ix2 n d)).trans
    (sum_reidx (val_main_v90 (F := Ideal) x0 x1 x2 x3 x4 x5 x6 x7 x8 x9 x10 x11 x12 x13 x14 x15 x16 x17) x18 _ (fun k => ix2 n k) _ (fun k => ix2 k d)
      (fun k => by idx2) (fun k => by idx2))

theorem v93_at (n : Fin 131072) (d : Fin 2) : val_main_v93 (F := Ideal) x19 (ix2 n d) = x19 (ix1 d) :=
  by rw [val_main_v93_apply, val_main_v92_apply]; exact congrArg x19 (by idx1)

theorem v96_at (n : Fin 131072) (d : Fin 2) :
    val_main_v96 (F := Ideal) x0 x1 x2 x3 x4 x5 x6 x7 x8 x9 x10 x11 x12 x13 x14 x15 x16 x17 x18 x19 (ix2 n d) = outPos (paramsOf x6 x7 x8 x9 x10 x11 x12 x13 x14 x15 x16 x17 x18 x19) (rowOf x0 x1 x2 x3 x4 x5 n) d := by
  rw [val_main_v96_apply, val_main_v95_apply, val_main_v94_apply, v91_at, v93_at]
  unfold outPos
  simp only [v90_at x0 x1 x2 x3 x4 x5 x6 x7 x8 x9 x10 x11 x12 x13 x14 x15 x16 x17 x18 x19]
  rfl

/-! ## The five results as whole arrays -/

theorem ref_pos : val_main_v96 (F := Ideal) x0 x1 x2 x3 x4 x5 x6 x7 x8 x9 x10 x11 x12 x13 x14 x15 x16 x17 x18 x19 = GPos x0 x1 x2 x3 x4 x5 x6 x7 x8 x9 x10 x11 x12 x13 x14 x15 x16 x17 x18 x19 := by
  funext i
  obtain ⟨n, d, rfl⟩ : ∃ (n : Fin 131072) (d : Fin 2), i = ix2 n d := ⟨i 0, i 1, eq_ix2 i⟩
  exact v96_at x0 x1 x2 x3 x4 x5 x6 x7 x8 x9 x10 x11 x12 x13 x14 x15 x16 x17 x18 x19 n d

theorem ref_edgeH : val_main_v43 (F := Ideal) x1 x2 x3 x6 x7 x8 x9 x10 x11 = GEdgeH x0 x1 x2 x3 x4 x5 x6 x7 x8 x9 x10 x11 x12 x13 x14 x15 x16 x17 x18 x19 := by
  funext i
  obtain ⟨e, n, j, rfl⟩ : ∃ (e : Fin 6) (n : Fin 131072) (j : Fin 64), i = ix3 e n j := ⟨i 0, i 1, i 2, eq_ix3 i⟩
  exact v43_at x0 x1 x2 x3 x4 x5 x6 x7 x8 x9 x10 x11 x12 x13 x14 x15 x16 x17 x18 x19 e n j

theorem ref_edgeC : val_main_v41 (F := Ideal) x1 x2 x3 x6 x7 x8 x9 x10 x11 = GEdgeC x0 x1 x2 x3 x4 x5 x6 x7 x8 x9 x10 x11 x12 x13 x14 x15 x16 x17 x18 x19 := by
  funext i
  obtain ⟨e, n, j, rfl⟩ : ∃ (e : Fin 6) (n : Fin 131072) (j : Fin 64), i = ix3 e n j := ⟨i 0, i 1, i 2, eq_ix3 i⟩
  exact v41_at x0 x1 x2 x3 x4 x5 x6 x7 x8 x9 x10 x11 x12 x13 x14 x15 x16 x17 x18 x19 e n j

theorem ref_nodeH : val_main_v90 (F := Ideal) x0 x1 x2 x3 x4 x5 x6 x7 x8 x9 x10 x11 x12 x13 x14 x15 x16 x17 = GNodeH x0 x1 x2 x3 x4 x5 x6 x7 x8 x9 x10 x11 x12 x13 x14 x15 x16 x17 x18 x19 := by
  funext i
  obtain ⟨n, j, rfl⟩ : ∃ (n : Fin 131072) (j : Fin 64), i = ix2 n j := ⟨i 0, i 1, eq_ix2 i⟩
  exact v90_at x0 x1 x2 x3 x4 x5 x6 x7 x8 x9 x10 x11 x12 x13 x14 x15 x16 x17 x18 x19 n j

theorem ref_nodeC : val_main_v88 (F := Ideal) x0 x1 x2 x3 x4 x5 x6 x7 x8 x9 x10 x11 x12 x13 x14 x15 x16 x17 = GNodeC x0 x1 x2 x3 x4 x5 x6 x7 x8 x9 x10 x11 x12 x13 x14 x15 x16 x17 x18 x19 := by
  funext i
  obtain ⟨n, j, rfl⟩ : ∃ (n : Fin 131072) (j : Fin 64), i = ix2 n j := ⟨i 0, i 1, eq_ix2 i⟩
  exact v88_at x0 x1 x2 x3 x4 x5 x6 x7 x8 x9 x10 x11 x12 x13 x14 x15 x16 x17 x18 x19 n j

end Cert.Mesrnn.Ref

end
-- ==== Proof.lean ====
/-
  Both programs compute, for each of the 131072 rows of the batch, six edge LSTM cells on the row's embedded edge
  inputs, a node LSTM cell on the row's embedded position joined with the six new edge hidden states, and a new
  position from the new node hidden state (Proof/Cell.lean states this once, over the extended reals). The kernel does
  it block by block, 512 rows at a grid point, with every matrix product accumulated into zero and the logistic
  function as one operation; the reference does it on whole arrays with a batched product over the edge types and the
  logistic function spelt out. At the ideal instance these are the same numbers: a product into a zero accumulator
  is the plain sum over the contracted axis, and `1 / (1 + exp (-x))` with the literal one is the logistic function
  by definition. No law of arithmetic beyond that is used, so the precondition is never opened.

  Kernel side: each chain of the body's named values is the specification's cell at the rows the block holds
  (Proof/CellVec.lean, CellAt.lean, KernelEdgeCases.lean, KernelNode.lean); the body's output buffers are the block
  functions (KernelEdges.lean, KernelNode.lean); the blocks are rows `512 t + p` of the arrays and cover them
  (BlockReads.lean, KernelBlocks.lean, OutWindows.lean). Reference side: stage by stage at an index
  (RefEdge.lean, RefNode.lean). The frames are the generated ones; the ideal pass rewrote nothing.
-/
import proofs.«153604_j15556371546759_2_alg».proof.Defs
import proofs.«153604_j15556371546759_2_alg».proof.Proof.Gen.Kernel
import proofs.«153604_j15556371546759_2_alg».proof.Proof.Gen.Kernel.Skeleton
import proofs.«153604_j15556371546759_2_alg».proof.Proof.Gen.Kernel.Launch
import proofs.«153604_j15556371546759_2_alg».proof.Proof.Gen.Kernel.Points
import proofs.«153604_j15556371546759_2_alg».proof.Proof.Gen.Kernel.Frame
import proofs.«153604_j15556371546759_2_alg».proof.Proof.Gen.KernelIdeal
import proofs.«153604_j15556371546759_2_alg».proof.Proof.Gen.KernelIdeal.Skeleton
import proofs.«153604_j15556371546759_2_alg».proof.Proof.Gen.KernelIdeal.Launch
import proofs.«153604_j15556371546759_2_alg».proof.Proof.Gen.KernelIdeal.Points
import proofs.«153604_j15556371546759_2_alg».proof.Proof.Gen.KernelIdeal.Frame
import proofs.«153604_j15556371546759_2_alg».proof.Proof.Gen.KernelIdeal.Value
import proofs.«153604_j15556371546759_2_alg».proof.Proof.Gen.ReferenceIdeal
import proofs.«153604_j15556371546759_2_alg».proof.Proof.Gen.ReferenceIdeal.Run
import proofs.«153604_j15556371546759_2_alg».proof.Proof.Gen.ReferenceIdeal.Read
import proofs.«153604_j15556371546759_2_alg».proof.Proof.Gen.Pre_finite_inputs
import proofs.«153604_j15556371546759_2_alg».proof.Proof.OutWindows
import proofs.«153604_j15556371546759_2_alg».proof.Proof.RefNode
import Idealize.ShloMosaic.Adequacy
import Idealize.ShloMosaic.Init

noncomputable section

namespace Cert.Proof

open Idealize.ShloMosaic Idealize.SL.Sem Cert.Mesrnn

/-- A function of the twenty argument arrays, at the kernel's arrays as launched on device `c`. -/
abbrev atK {α : Type} (m : (ℓ : Loc Cert.KernelIdeal.nD Cert.KernelIdeal.τ Cert.KernelIdeal.sig) → Buf (Elt Ideal) ℓ)
    (c : Dev Cert.KernelIdeal.nD)
    (f : A2 131072 2 → A3 6 131072 2 → A3 6 131072 64 → A3 6 131072 64 → A2 131072 64 → A2 131072 64 → A3 6 2 64 → A2 6 64 →
      A3 6 256 64 → A3 6 256 64 → A2 6 256 → A2 6 256 → A2 2 64 → A1 64 → A2 256 448 → A2 256 64 → A1 256 → A1 256 → A2 64 2 → A1 2 → α) : α :=
  f (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))

/-- The same at the reference's arrays as launched. -/
abbrev atR {α : Type} (m' : (ℓ : Loc Cert.ReferenceIdeal.nD Cert.ReferenceIdeal.τ Cert.ReferenceIdeal.sig) → Buf (Elt Ideal) ℓ)
    (c : Dev Cert.KernelIdeal.nD)
    (f : A2 131072 2 → A3 6 131072 2 → A3 6 131072 64 → A3 6 131072 64 → A2 131072 64 → A2 131072 64 → A3 6 2 64 → A2 6 64 →
      A3 6 256 64 → A3 6 256 64 → A2 6 256 → A2 6 256 → A2 2 64 → A1 64 → A2 256 448 → A2 256 64 → A1 256 → A1 256 → A2 64 2 → A1 2 → α) : α :=
  f (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))
    (m' ((c.tc : Thread Cert.ReferenceIdeal.nD Cert.ReferenceIdeal.τ).loc Cert.ReferenceIdeal.main_arg16))
    (m' ((c.tc : Thread Cert.ReferenceIdeal.nD Cert.ReferenceIdeal.τ).loc Cert.ReferenceIdeal.main_arg17))
    (m' ((c.tc : Thread Cert.ReferenceIdeal.nD Cert.ReferenceIdeal.τ).loc Cert.ReferenceIdeal.main_arg18))
    (m' ((c.tc : Thread Cert.ReferenceIdeal.nD Cert.ReferenceIdeal.τ).loc Cert.ReferenceIdeal.main_arg19))

/-- Memories that agree on the twenty arguments give a function of them the same value. -/
theorem agree {α : Type} (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (f : A2 131072 2 → A3 6 131072 2 → A3 6 131072 64 → A3 6 131072 64 → A2 131072 64 → A2 131072 64 → A3 6 2 64 → A2 6 64 →
      A3 6 256 64 → A3 6 256 64 → A2 6 256 → A2 6 256 → A2 2 64 → A1 64 → A2 256 448 → A2 256 64 → A1 256 → A1 256 → A2 64 2 → A1 2 → α) : atR m' c f = atK m c f := by
  show f _ _ _ _ _ _ _ _ _ _ _ _ _ _ _ _ _ _ _ _ = f _ _ _ _ _ _ _ _ _ _ _ _ _ _ _ _ _ _ _ _
  rw [h0, h1, h2, h3, h4, h5, h6, h7, h8, h9, h10, h11, h12, h13, h14, h15, h16, h17, h18, h19]

theorem frame_k : Cert.frame_Kernel := fun m ρ _ => Cert.Kernel.Gen.frame m ρ

theorem frame_ki : Cert.frame_KernelIdeal := fun m ρ _ => Cert.KernelIdeal.Gen.frame m ρ

/-- The reference's frame is its generated run with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The ideal pass rewrote no operation. -/
theorem preserves : Cert.preserves_Kernel_KernelIdeal := trivial

/-- Both runs end with each of the five results at the specification's array of the kernel's argument arrays: the
    kernel's by blocks, the reference's stage by stage, its arrays being the kernel's by agreement. -/
theorem algebraic : Cert.algebraic_KernelIdeal_ReferenceIdeal := by
  intro m ρ m' ρ' _ hagree
  refine ⟨fun c => atK m c GPos, fun c => atK m c GEdgeH, fun c => atK m c GEdgeC, fun c => atK m c GNodeH,
    fun c => atK m c GNodeC, ?_, ?_⟩
  · exact (θ_run Cert.KernelIdeal.defs _ _).mono (fun r h c =>
      ⟨(h c).1.trans (Cert.Mesrnn.Arr.final20 m c), (h c).2.1.trans (Cert.Mesrnn.Arr.final21 m c),
        (h c).2.2.1.trans (Cert.Mesrnn.Arr.final22 m c), (h c).2.2.2.1.trans (Cert.Mesrnn.Arr.final23 m c),
        (h c).2.2.2.2.1.trans (Cert.Mesrnn.Arr.final24 m c), (h c).2.2.2.2.2⟩)
      (Cert.KernelIdeal.Value.run_blocks m ρ)
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14, h15, h16, h17, h18, h19⟩ := hagree c
    exact ⟨(h c).1.trans (((Cert.ReferenceIdeal.Read.val_main_v96_eq m' c).trans (Cert.Mesrnn.Ref.ref_pos _ _ _ _ _ _ _ _ _ _ _ _ _ _ _ _ _ _ _ _)).trans
          (agree m m' c h0 h1 h2 h3 h4 h5 h6 h7 h8 h9 h10 h11 h12 h13 h14 h15 h16 h17 h18 h19 GPos)),
      (h c).2.1.trans (((Cert.ReferenceIdeal.Read.val_main_v43_eq m' c).trans (Cert.Mesrnn.Ref.ref_edgeH _ _ _ _ _ _ _ _ _ _ _ _ _ _ _ _ _ _ _ _)).trans
          (agree m m' c h0 h1 h2 h3 h4 h5 h6 h7 h8 h9 h10 h11 h12 h13 h14 h15 h16 h17 h18 h19 GEdgeH)),
      (h c).2.2.1.trans (((Cert.ReferenceIdeal.Read.val_main_v41_eq m' c).trans (Cert.Mesrnn.Ref.ref_edgeC _ _ _ _ _ _ _ _ _ _ _ _ _ _ _ _ _ _ _ _)).trans
          (agree m m' c h0 h1 h2 h3 h4 h5 h6 h7 h8 h9 h10 h11 h12 h13 h14 h15 h16 h17 h18 h19 GEdgeC)),
      (h c).2.2.2.1.trans (((Cert.ReferenceIdeal.Read.val_main_v90_eq m' c).trans (Cert.Mesrnn.Ref.ref_nodeH _ _ _ _ _ _ _ _ _ _ _ _ _ _ _ _ _ _ _ _)).trans
          (agree m m' c h0 h1 h2 h3 h4 h5 h6 h7 h8 h9 h10 h11 h12 h13 h14 h15 h16 h17 h18 h19 GNodeH)),
      (h c).2.2.2.2.1.trans (((Cert.ReferenceIdeal.Read.val_main_v88_eq m' c).trans (Cert.Mesrnn.Ref.ref_nodeC _ _ _ _ _ _ _ _ _ _ _ _ _ _ _ _ _ _ _ _)).trans
          (agree m m' c h0 h1 h2 h3 h4 h5 h6 h7 h8 h9 h10 h11 h12 h13 h14 h15 h16 h17 h18 h19 GNodeC)),
      (h c).2.2.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
